-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v391)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v391) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x3 : Shape := ⟨3, ![8192, 128, 3]⟩
abbrev S32x512x512 : Shape := ⟨3, ![32, 512, 512]⟩
abbrev S2x3 : Shape := ⟨2, ![2, 3]⟩
abbrev S_ : Shape := ⟨0, ![]⟩

class Facts : Prop where
  bcast_S_S8192x128x3 : S_.BroadcastsInDim S8192x128x3 (![] : Fin 0 → Fin S8192x128x3.rank)
  reducesTo_S8192x128x3_S_d0_1_2 : S8192x128x3.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S2x3 : S_.BroadcastsInDim S2x3 (![] : Fin 0 → Fin S2x3.rank)
  reducesTo_S2x3_S_d0_1 : S2x3.ReducesTo [0, 1] S_

variable [Facts]

def fn_part1 {F : FTy → Type} [FloatOps F] (main_arg4 : FVec F S2x3 .f32) (main_v13 : IVec S_ 1) (main_v16 : IVec S32x512x512 1) : IVec S_ 1 :=
  let main_c_5 : IVec S_ 1 := constantI S_ 1 1#1
  let main_v17 : IVec S_ 1 := (fun x v => Host.reduce IntOp.andi x v reducesTo_S32x512x512_S_d0_1_2 h_S_) main_v16 main_c_5
  let main_v18 : IVec S_ 1 := andi main_v13 main_v17
  let main_v19 : FVec F S2x3 .f32 := Host.absf main_arg4
  let main_cst_6 : FVec F S_ .f32 := constant S_ .f32 0x7F800000#32
  let main_v20 : FVec F S2x3 .f32 := broadcastInDim S2x3 ![] bcast_S_S2x3 main_cst_6
  let main_v21 : IVec S2x3 1 := cmpf .olt main_v19 main_v20
  let main_c_7 : IVec S_ 1 := constantI S_ 1 1#1
  let main_v22 : IVec S_ 1 := (fun x v => Host.reduce IntOp.andi x v reducesTo_S2x3_S_d0_1 h_S_) main_v21 main_c_7
  let main_v23 : IVec S_ 1 := andi main_v18 main_v22
  main_v23

def fn {F : FTy → Type} [FloatOps F] (main_arg0 : FVec F S8192x128x3 .f32) (main_arg1 : FVec F S32x512x512 .f32) (main_arg2 : FVec F S32x512x512 .f32) (main_arg3 : FVec F S32x512x512 .f32) (main_arg4 : FVec F S2x3 .f32) : IVec S_ 1 :=
  let main_v0 : FVec F S8192x128x3 .f32 := Host.absf main_arg0
  let main_cst : FVec F S_ .f32 := constant S_ .f32 0x7F800000#32
  let main_v1 : FVec F S8192x128x3 .f32 := broadcastInDim S8192x128x3 ![] bcast_S_S8192x128x3 main_cst
  let main_v2 : IVec S8192x128x3 1 := cmpf .olt main_v0 main_v1
  let main_c : IVec S_ 1 := constantI S_ 1 1#1
  let main_v3 : IVec S_ 1 := (fun x v => Host.reduce IntOp.andi x v reducesTo_S8192x128x3_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S32x512x512 .f32 := Host.absf main_arg2
  let main_cst_2 : FVec F S_ .f32 := constant S_ .f32 0x7F800000#32
  let main_v10 : FVec F S32x512x512 .f32 := broadcastInDim S32x512x512 ![] bcast_S_S32x512x512 main_cst_2
  let main_v11 : IVec S32x512x512 1 := cmpf .olt main_v9 main_v10
  let main_c_3 : IVec S_ 1 := constantI S_ 1 1#1
  let main_v12 : IVec S_ 1 := (fun x v => Host.reduce IntOp.andi x v reducesTo_S32x512x512_S_d0_1_2 h_S_) main_v11 main_c_3
  let main_v13 : IVec S_ 1 := andi main_v8 main_v12
  let main_v14 : FVec F S32x512x512 .f32 := Host.absf main_arg3
  let main_cst_4 : FVec F S_ .f32 := constant S_ .f32 0x7F800000#32
  let main_v15 : FVec F S32x512x512 .f32 := broadcastInDim S32x512x512 ![] bcast_S_S32x512x512 main_cst_4
  let main_v16 : IVec S32x512x512 1 := cmpf .olt main_v14 main_v15
  fn_part1 (F := F) main_arg4 main_v13 main_v16
-- ==== Kernel.lean ====
abbrev S8192x128x3 : Shape := ⟨3, ![8192, 128, 3]⟩
abbrev S32x512x512 : Shape := ⟨3, ![32, 512, 512]⟩
abbrev S2x3 : Shape := ⟨2, ![2, 3]⟩
abbrev S2 : Shape := ⟨1, ![2]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S1048576x3 : Shape := ⟨2, ![1048576, 3]⟩
abbrev S2x1 : Shape := ⟨2, ![2, 1]⟩
abbrev S1 : Shape := ⟨1, ![1]⟩
abbrev S1x1 : Shape := ⟨2, ![1, 1]⟩
abbrev S1048576x2 : Shape := ⟨2, ![1048576, 2]⟩
abbrev S1048576x1 : Shape := ⟨2, ![1048576, 1]⟩
abbrev S1048576 : Shape := ⟨1, ![1048576]⟩
abbrev S32x1048576 : Shape := ⟨2, ![32, 1048576]⟩
abbrev S1x1048576 : Shape := ⟨2, ![1, 1048576]⟩
abbrev S1048576x32 : Shape := ⟨2, ![1048576, 32]⟩
abbrev S8192x128x32 : Shape := ⟨3, ![8192, 128, 32]⟩
abbrev S8192x128 : Shape := ⟨2, ![8192, 128]⟩
abbrev S64x128x32 : Shape := ⟨3, ![64, 128, 32]⟩
abbrev S64x128 : Shape := ⟨2, ![64, 128]⟩
abbrev S8192x128x1 : Shape := ⟨3, ![8192, 128, 1]⟩

abbrev nBuf : Space → Nat
  | .hbm => 636
  | .vmem => 8
  | .smem => 0
  | _ => 0

abbrev hbmTy0_0 (i : Nat) : BufTy := match i % 128 with
  | 0 => ⟨S8192x128x3, .f32⟩
  | 1 => ⟨S32x512x512, .f32⟩
  | 2 => ⟨S32x512x512, .f32⟩
  | 3 => ⟨S32x512x512, .f32⟩
  | 4 => ⟨S2x3, .f32⟩
  | 5 => ⟨S2, .i32⟩
  | 6 => ⟨S2, .i32⟩
  | 7 => ⟨S2, .i32⟩
  | 8 => ⟨S1x3, .f32⟩
  | 9 => ⟨S3, .f32⟩
  | 10 => ⟨S1x1x3, .f32⟩
  | 11 => ⟨S8192x128x3, .f32⟩
  | 12 => ⟨S8192x128x3, .f32⟩
  | 13 => ⟨S1x3, .f32⟩
  | 14 => ⟨S3, .f32⟩
  | 15 => ⟨S1x3, .f32⟩
  | 16 => ⟨S3, .f32⟩
  | 17 => ⟨S3, .f32⟩
  | 18 => ⟨S_, .f32⟩
  | 19 => ⟨S3, .f32⟩
  | 20 => ⟨S3, .f32⟩
  | 21 => ⟨S1x1x3, .f32⟩
  | 22 => ⟨S8192x128x3, .f32⟩
  | 23 => ⟨S8192x128x3, .f32⟩
  | 24 => ⟨S_, .f32⟩
  | 25 => ⟨S8192x128x3, .f32⟩
  | 26 => ⟨S8192x128x3, .f32⟩
  | 27 => ⟨S1048576x3, .f32⟩
  | 28 => ⟨S_, .i32⟩
  | 29 => ⟨S2, .i32⟩
  | 30 => ⟨S2, .i1⟩
  | 31 => ⟨S_, .i32⟩
  | 32 => ⟨S2, .i32⟩
  | 33 => ⟨S2, .i32⟩
  | 34 => ⟨S2, .i32⟩
  | 35 => ⟨S2x1, .i32⟩
  | 36 => ⟨S1, .i32⟩
  | 37 => ⟨S_, .i32⟩
  | 38 => ⟨S2x1, .i32⟩
  | 39 => ⟨S2x1, .i1⟩
  | 40 => ⟨S1x1, .i32⟩
  | 41 => ⟨S2x1, .i32⟩
  | 42 => ⟨S2x1, .i1⟩
  | 43 => ⟨S2x1, .i1⟩
  | 44 => ⟨S_, .i1⟩
  | 45 => ⟨S2, .i1⟩
  | 46 => ⟨S1048576x2, .f32⟩
  | 47 => ⟨S1048576x2, .i1⟩
  | 48 => ⟨S_, .f32⟩
  | 49 => ⟨S1048576x2, .f32⟩
  | 50 => ⟨S1048576x2, .f32⟩
  | 51 => ⟨S1048576x1, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S_, .f32⟩
  | 60 => ⟨S1048576, .f32⟩
  | 61 => ⟨S1048576, .f32⟩
  | 62 => ⟨S1048576x1, .f32⟩
  | 63 => ⟨S1048576, .f32⟩
  | 64 => ⟨S_, .f32⟩
  | 65 => ⟨S1048576, .f32⟩
  | 66 => ⟨S1048576, .f32⟩
  | 67 => ⟨S_, .f32⟩
  | 68 => ⟨S1048576, .f32⟩
  | 69 => ⟨S1048576, .f32⟩
  | 70 => ⟨S_, .f32⟩
  | 71 => ⟨S1048576, .f32⟩
  | 72 => ⟨S1048576, .f32⟩
  | 73 => ⟨S1048576, .f32⟩
  | 74 => ⟨S1048576, .f32⟩
  | 75 => ⟨S1048576, .f32⟩
  | 76 => ⟨S1048576, .f32⟩
  | 77 => ⟨S1048576, .i32⟩
  | 78 => ⟨S_, .i32⟩
  | 79 => ⟨S_, .i32⟩
  | 80 => ⟨S_, .i32⟩
  | 81 => ⟨S1048576, .i32⟩
  | 82 => ⟨S1048576, .i32⟩
  | 83 => ⟨S_, .i32⟩
  | 84 => ⟨S1048576, .i32⟩
  | 85 => ⟨S1048576, .i32⟩
  | 86 => ⟨S_, .i32⟩
  | 87 => ⟨S1048576, .i32⟩
  | 88 => ⟨S1048576, .i32⟩
  | 89 => ⟨S_, .i32⟩
  | 90 => ⟨S_, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i32⟩
  | 97 => ⟨S1048576, .i32⟩
  | 98 => ⟨S_, .i32⟩
  | 99 => ⟨S_, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S_, .i32⟩
  | 110 => ⟨S_, .i32⟩
  | 111 => ⟨S_, .i32⟩
  | 112 => ⟨S1048576, .i32⟩
  | 113 => ⟨S1048576, .i32⟩
  | 114 => ⟨S_, .i32⟩
  | 115 => ⟨S1048576, .i32⟩
  | 116 => ⟨S1048576, .i32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i1⟩
  | 127 => ⟨S_, .i32⟩
  | _ => ⟨S8192x128x3, .f32⟩

abbrev hbmTy0_1 (i : Nat) : BufTy := match i % 128 with
  | 0 => ⟨S1048576, .i32⟩
  | 1 => ⟨S1048576, .i32⟩
  | 2 => ⟨S1048576, .i32⟩
  | 3 => ⟨S1048576x1, .i32⟩
  | 4 => ⟨S1048576x1, .i32⟩
  | 5 => ⟨S1048576x2, .i32⟩
  | 6 => ⟨S32x1048576, .f32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S1048576x1, .i32⟩
  | 22 => ⟨S1048576x1, .i32⟩
  | 23 => ⟨S1048576x2, .i32⟩
  | 24 => ⟨S32x1048576, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x1, .i32⟩
  | 41 => ⟨S1048576x2, .i32⟩
  | 42 => ⟨S32x1048576, .f32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x1, .i32⟩
  | 59 => ⟨S1048576x2, .i32⟩
  | 60 => ⟨S32x1048576, .f32⟩
  | 61 => ⟨S_, .f32⟩
  | 62 => ⟨S1048576, .f32⟩
  | 63 => ⟨S1048576, .f32⟩
  | 64 => ⟨S1x1048576, .f32⟩
  | 65 => ⟨S32x1048576, .f32⟩
  | 66 => ⟨S32x1048576, .f32⟩
  | 67 => ⟨S_, .f32⟩
  | 68 => ⟨S1048576, .f32⟩
  | 69 => ⟨S1048576, .f32⟩
  | 70 => ⟨S1x1048576, .f32⟩
  | 71 => ⟨S32x1048576, .f32⟩
  | 72 => ⟨S32x1048576, .f32⟩
  | 73 => ⟨S1x1048576, .f32⟩
  | 74 => ⟨S32x1048576, .f32⟩
  | 75 => ⟨S32x1048576, .f32⟩
  | 76 => ⟨S_, .f32⟩
  | 77 => ⟨S1048576, .f32⟩
  | 78 => ⟨S1048576, .f32⟩
  | 79 => ⟨S1x1048576, .f32⟩
  | 80 => ⟨S32x1048576, .f32⟩
  | 81 => ⟨S32x1048576, .f32⟩
  | 82 => ⟨S32x1048576, .f32⟩
  | 83 => ⟨S_, .f32⟩
  | 84 => ⟨S1048576, .f32⟩
  | 85 => ⟨S1048576, .f32⟩
  | 86 => ⟨S1x1048576, .f32⟩
  | 87 => ⟨S32x1048576, .f32⟩
  | 88 => ⟨S32x1048576, .f32⟩
  | 89 => ⟨S1x1048576, .f32⟩
  | 90 => ⟨S32x1048576, .f32⟩
  | 91 => ⟨S32x1048576, .f32⟩
  | 92 => ⟨S32x1048576, .f32⟩
  | 93 => ⟨S1x1048576, .f32⟩
  | 94 => ⟨S32x1048576, .f32⟩
  | 95 => ⟨S32x1048576, .f32⟩
  | 96 => ⟨S1x1048576, .f32⟩
  | 97 => ⟨S32x1048576, .f32⟩
  | 98 => ⟨S32x1048576, .f32⟩
  | 99 => ⟨S32x1048576, .f32⟩
  | 100 => ⟨S1048576x32, .f32⟩
  | 101 => ⟨S_, .i32⟩
  | 102 => ⟨S2, .i32⟩
  | 103 => ⟨S2, .i1⟩
  | 104 => ⟨S_, .i32⟩
  | 105 => ⟨S2, .i32⟩
  | 106 => ⟨S2, .i32⟩
  | 107 => ⟨S2, .i32⟩
  | 108 => ⟨S2x1, .i32⟩
  | 109 => ⟨S1, .i32⟩
  | 110 => ⟨S_, .i32⟩
  | 111 => ⟨S2x1, .i32⟩
  | 112 => ⟨S2x1, .i1⟩
  | 113 => ⟨S1x1, .i32⟩
  | 114 => ⟨S2x1, .i32⟩
  | 115 => ⟨S2x1, .i1⟩
  | 116 => ⟨S2x1, .i1⟩
  | 117 => ⟨S_, .i1⟩
  | 118 => ⟨S2, .i1⟩
  | 119 => ⟨S1048576x2, .f32⟩
  | 120 => ⟨S1048576x2, .i1⟩
  | 121 => ⟨S_, .f32⟩
  | 122 => ⟨S1048576x2, .f32⟩
  | 123 => ⟨S1048576x2, .f32⟩
  | 124 => ⟨S1048576x1, .f32⟩
  | 125 => ⟨S1048576, .f32⟩
  | 126 => ⟨S_, .f32⟩
  | 127 => ⟨S1048576, .f32⟩
  | _ => ⟨S8192x128x3, .f32⟩

abbrev hbmTy0_2 (i : Nat) : BufTy := match i % 128 with
  | 0 => ⟨S1048576, .f32⟩
  | 1 => ⟨S_, .f32⟩
  | 2 => ⟨S1048576, .f32⟩
  | 3 => ⟨S1048576, .f32⟩
  | 4 => ⟨S_, .f32⟩
  | 5 => ⟨S1048576, .f32⟩
  | 6 => ⟨S1048576, .f32⟩
  | 7 => ⟨S1048576x1, .f32⟩
  | 8 => ⟨S1048576, .f32⟩
  | 9 => ⟨S_, .f32⟩
  | 10 => ⟨S1048576, .f32⟩
  | 11 => ⟨S1048576, .f32⟩
  | 12 => ⟨S_, .f32⟩
  | 13 => ⟨S1048576, .f32⟩
  | 14 => ⟨S1048576, .f32⟩
  | 15 => ⟨S_, .f32⟩
  | 16 => ⟨S1048576, .f32⟩
  | 17 => ⟨S1048576, .f32⟩
  | 18 => ⟨S1048576, .f32⟩
  | 19 => ⟨S1048576, .f32⟩
  | 20 => ⟨S1048576, .f32⟩
  | 21 => ⟨S1048576, .f32⟩
  | 22 => ⟨S1048576, .i32⟩
  | 23 => ⟨S_, .i32⟩
  | 24 => ⟨S_, .i32⟩
  | 25 => ⟨S_, .i32⟩
  | 26 => ⟨S1048576, .i32⟩
  | 27 => ⟨S1048576, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i32⟩
  | 42 => ⟨S1048576, .i32⟩
  | 43 => ⟨S_, .i32⟩
  | 44 => ⟨S_, .i32⟩
  | 45 => ⟨S_, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S_, .i32⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S_, .i32⟩
  | 70 => ⟨S1048576, .i32⟩
  | 71 => ⟨S1048576, .i1⟩
  | 72 => ⟨S_, .i32⟩
  | 73 => ⟨S1048576, .i32⟩
  | 74 => ⟨S1048576, .i32⟩
  | 75 => ⟨S1048576, .i32⟩
  | 76 => ⟨S1048576x1, .i32⟩
  | 77 => ⟨S1048576x1, .i32⟩
  | 78 => ⟨S1048576x2, .i32⟩
  | 79 => ⟨S32x1048576, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S1048576x1, .i32⟩
  | 95 => ⟨S1048576x1, .i32⟩
  | 96 => ⟨S1048576x2, .i32⟩
  | 97 => ⟨S32x1048576, .f32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S_, .i32⟩
  | 106 => ⟨S1048576, .i32⟩
  | 107 => ⟨S1048576, .i1⟩
  | 108 => ⟨S_, .i32⟩
  | 109 => ⟨S1048576, .i32⟩
  | 110 => ⟨S1048576, .i32⟩
  | 111 => ⟨S1048576, .i32⟩
  | 112 => ⟨S1048576x1, .i32⟩
  | 113 => ⟨S1048576x1, .i32⟩
  | 114 => ⟨S1048576x2, .i32⟩
  | 115 => ⟨S32x1048576, .f32⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S_, .i32⟩
  | 124 => ⟨S1048576, .i32⟩
  | 125 => ⟨S1048576, .i1⟩
  | 126 => ⟨S_, .i32⟩
  | 127 => ⟨S1048576, .i32⟩
  | _ => ⟨S8192x128x3, .f32⟩

abbrev hbmTy0_3 (i : Nat) : BufTy := match i % 128 with
  | 0 => ⟨S1048576, .i32⟩
  | 1 => ⟨S1048576, .i32⟩
  | 2 => ⟨S1048576x1, .i32⟩
  | 3 => ⟨S1048576x1, .i32⟩
  | 4 => ⟨S1048576x2, .i32⟩
  | 5 => ⟨S32x1048576, .f32⟩
  | 6 => ⟨S_, .f32⟩
  | 7 => ⟨S1048576, .f32⟩
  | 8 => ⟨S1048576, .f32⟩
  | 9 => ⟨S1x1048576, .f32⟩
  | 10 => ⟨S32x1048576, .f32⟩
  | 11 => ⟨S32x1048576, .f32⟩
  | 12 => ⟨S_, .f32⟩
  | 13 => ⟨S1048576, .f32⟩
  | 14 => ⟨S1048576, .f32⟩
  | 15 => ⟨S1x1048576, .f32⟩
  | 16 => ⟨S32x1048576, .f32⟩
  | 17 => ⟨S32x1048576, .f32⟩
  | 18 => ⟨S1x1048576, .f32⟩
  | 19 => ⟨S32x1048576, .f32⟩
  | 20 => ⟨S32x1048576, .f32⟩
  | 21 => ⟨S_, .f32⟩
  | 22 => ⟨S1048576, .f32⟩
  | 23 => ⟨S1048576, .f32⟩
  | 24 => ⟨S1x1048576, .f32⟩
  | 25 => ⟨S32x1048576, .f32⟩
  | 26 => ⟨S32x1048576, .f32⟩
  | 27 => ⟨S32x1048576, .f32⟩
  | 28 => ⟨S_, .f32⟩
  | 29 => ⟨S1048576, .f32⟩
  | 30 => ⟨S1048576, .f32⟩
  | 31 => ⟨S1x1048576, .f32⟩
  | 32 => ⟨S32x1048576, .f32⟩
  | 33 => ⟨S32x1048576, .f32⟩
  | 34 => ⟨S1x1048576, .f32⟩
  | 35 => ⟨S32x1048576, .f32⟩
  | 36 => ⟨S32x1048576, .f32⟩
  | 37 => ⟨S32x1048576, .f32⟩
  | 38 => ⟨S1x1048576, .f32⟩
  | 39 => ⟨S32x1048576, .f32⟩
  | 40 => ⟨S32x1048576, .f32⟩
  | 41 => ⟨S1x1048576, .f32⟩
  | 42 => ⟨S32x1048576, .f32⟩
  | 43 => ⟨S32x1048576, .f32⟩
  | 44 => ⟨S32x1048576, .f32⟩
  | 45 => ⟨S1048576x32, .f32⟩
  | 46 => ⟨S_, .i32⟩
  | 47 => ⟨S2, .i32⟩
  | 48 => ⟨S2, .i1⟩
  | 49 => ⟨S_, .i32⟩
  | 50 => ⟨S2, .i32⟩
  | 51 => ⟨S2, .i32⟩
  | 52 => ⟨S2, .i32⟩
  | 53 => ⟨S2x1, .i32⟩
  | 54 => ⟨S1, .i32⟩
  | 55 => ⟨S_, .i32⟩
  | 56 => ⟨S2x1, .i32⟩
  | 57 => ⟨S2x1, .i1⟩
  | 58 => ⟨S1x1, .i32⟩
  | 59 => ⟨S2x1, .i32⟩
  | 60 => ⟨S2x1, .i1⟩
  | 61 => ⟨S2x1, .i1⟩
  | 62 => ⟨S_, .i1⟩
  | 63 => ⟨S2, .i1⟩
  | 64 => ⟨S1048576x2, .f32⟩
  | 65 => ⟨S1048576x2, .i1⟩
  | 66 => ⟨S_, .f32⟩
  | 67 => ⟨S1048576x2, .f32⟩
  | 68 => ⟨S1048576x2, .f32⟩
  | 69 => ⟨S1048576x1, .f32⟩
  | 70 => ⟨S1048576, .f32⟩
  | 71 => ⟨S_, .f32⟩
  | 72 => ⟨S1048576, .f32⟩
  | 73 => ⟨S1048576, .f32⟩
  | 74 => ⟨S_, .f32⟩
  | 75 => ⟨S1048576, .f32⟩
  | 76 => ⟨S1048576, .f32⟩
  | 77 => ⟨S_, .f32⟩
  | 78 => ⟨S1048576, .f32⟩
  | 79 => ⟨S1048576, .f32⟩
  | 80 => ⟨S1048576x1, .f32⟩
  | 81 => ⟨S1048576, .f32⟩
  | 82 => ⟨S_, .f32⟩
  | 83 => ⟨S1048576, .f32⟩
  | 84 => ⟨S1048576, .f32⟩
  | 85 => ⟨S_, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S1048576, .f32⟩
  | 92 => ⟨S1048576, .f32⟩
  | 93 => ⟨S1048576, .f32⟩
  | 94 => ⟨S1048576, .f32⟩
  | 95 => ⟨S1048576, .i32⟩
  | 96 => ⟨S_, .i32⟩
  | 97 => ⟨S_, .i32⟩
  | 98 => ⟨S_, .i32⟩
  | 99 => ⟨S1048576, .i32⟩
  | 100 => ⟨S1048576, .i32⟩
  | 101 => ⟨S_, .i32⟩
  | 102 => ⟨S1048576, .i32⟩
  | 103 => ⟨S1048576, .i32⟩
  | 104 => ⟨S_, .i32⟩
  | 105 => ⟨S1048576, .i32⟩
  | 106 => ⟨S1048576, .i32⟩
  | 107 => ⟨S_, .i32⟩
  | 108 => ⟨S_, .i32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i32⟩
  | 115 => ⟨S1048576, .i32⟩
  | 116 => ⟨S_, .i32⟩
  | 117 => ⟨S_, .i32⟩
  | 118 => ⟨S_, .i32⟩
  | 119 => ⟨S1048576, .i32⟩
  | 120 => ⟨S1048576, .i32⟩
  | 121 => ⟨S_, .i32⟩
  | 122 => ⟨S1048576, .i32⟩
  | 123 => ⟨S1048576, .i32⟩
  | 124 => ⟨S_, .i32⟩
  | 125 => ⟨S1048576, .i32⟩
  | 126 => ⟨S1048576, .i32⟩
  | 127 => ⟨S_, .i32⟩
  | _ => ⟨S8192x128x3, .f32⟩

abbrev hbmTy0_4 (i : Nat) : BufTy := match i % 128 with
  | 0 => ⟨S_, .i32⟩
  | 1 => ⟨S_, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i1⟩
  | 17 => ⟨S_, .i32⟩
  | 18 => ⟨S1048576, .i32⟩
  | 19 => ⟨S1048576, .i32⟩
  | 20 => ⟨S1048576, .i32⟩
  | 21 => ⟨S1048576x1, .i32⟩
  | 22 => ⟨S1048576x1, .i32⟩
  | 23 => ⟨S1048576x2, .i32⟩
  | 24 => ⟨S32x1048576, .f32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S1048576x1, .i32⟩
  | 40 => ⟨S1048576x1, .i32⟩
  | 41 => ⟨S1048576x2, .i32⟩
  | 42 => ⟨S32x1048576, .f32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i32⟩
  | 56 => ⟨S1048576, .i32⟩
  | 57 => ⟨S1048576x1, .i32⟩
  | 58 => ⟨S1048576x1, .i32⟩
  | 59 => ⟨S1048576x2, .i32⟩
  | 60 => ⟨S32x1048576, .f32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i32⟩
  | 67 => ⟨S1048576, .i32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S1048576x1, .i32⟩
  | 76 => ⟨S1048576x1, .i32⟩
  | 77 => ⟨S1048576x2, .i32⟩
  | 78 => ⟨S32x1048576, .f32⟩
  | 79 => ⟨S_, .f32⟩
  | 80 => ⟨S1048576, .f32⟩
  | 81 => ⟨S1048576, .f32⟩
  | 82 => ⟨S1x1048576, .f32⟩
  | 83 => ⟨S32x1048576, .f32⟩
  | 84 => ⟨S32x1048576, .f32⟩
  | 85 => ⟨S_, .f32⟩
  | 86 => ⟨S1048576, .f32⟩
  | 87 => ⟨S1048576, .f32⟩
  | 88 => ⟨S1x1048576, .f32⟩
  | 89 => ⟨S32x1048576, .f32⟩
  | 90 => ⟨S32x1048576, .f32⟩
  | 91 => ⟨S1x1048576, .f32⟩
  | 92 => ⟨S32x1048576, .f32⟩
  | 93 => ⟨S32x1048576, .f32⟩
  | 94 => ⟨S_, .f32⟩
  | 95 => ⟨S1048576, .f32⟩
  | 96 => ⟨S1048576, .f32⟩
  | 97 => ⟨S1x1048576, .f32⟩
  | 98 => ⟨S32x1048576, .f32⟩
  | 99 => ⟨S32x1048576, .f32⟩
  | 100 => ⟨S32x1048576, .f32⟩
  | 101 => ⟨S_, .f32⟩
  | 102 => ⟨S1048576, .f32⟩
  | 103 => ⟨S1048576, .f32⟩
  | 104 => ⟨S1x1048576, .f32⟩
  | 105 => ⟨S32x1048576, .f32⟩
  | 106 => ⟨S32x1048576, .f32⟩
  | 107 => ⟨S1x1048576, .f32⟩
  | 108 => ⟨S32x1048576, .f32⟩
  | 109 => ⟨S32x1048576, .f32⟩
  | 110 => ⟨S32x1048576, .f32⟩
  | 111 => ⟨S1x1048576, .f32⟩
  | 112 => ⟨S32x1048576, .f32⟩
  | 113 => ⟨S32x1048576, .f32⟩
  | 114 => ⟨S1x1048576, .f32⟩
  | 115 => ⟨S32x1048576, .f32⟩
  | 116 => ⟨S32x1048576, .f32⟩
  | 117 => ⟨S32x1048576, .f32⟩
  | 118 => ⟨S1048576x32, .f32⟩
  | 119 => ⟨S8192x128x32, .f32⟩
  | 120 => ⟨S8192x128x32, .f32⟩
  | 121 => ⟨S8192x128x32, .f32⟩
  | 122 => ⟨S8192x128, .f32⟩
  | 123 => ⟨S8192x128x1, .f32⟩
  | _ => ⟨S8192x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x128x3, .f32⟩

abbrev bufTy : (tb : Table) → Fin (tcTables nBuf tb) → BufTy
  | .hbm, ⟨i, _⟩ => hbmTy i
  | .local _ .vmem, ⟨0, _⟩ => ⟨S64x128x32, .f32⟩
  | .local _ .vmem, ⟨1, _⟩ => ⟨S64x128x32, .f32⟩
  | .local _ .vmem, ⟨2, _⟩ => ⟨S64x128x32, .f32⟩
  | .local _ .vmem, ⟨3, _⟩ => ⟨S64x128x32, .f32⟩
  | .local _ .vmem, ⟨4, _⟩ => ⟨S64x128x32, .f32⟩
  | .local _ .vmem, ⟨5, _⟩ => ⟨S64x128x32, .f32⟩
  | .local _ .vmem, ⟨6, _⟩ => ⟨S64x128, .f32⟩
  | .local _ .vmem, ⟨7, _⟩ => ⟨S64x128, .f32⟩
  | _, _ => ⟨S8192x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_cst_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_9 : Ref sig .tc := ⟨.hbm, 78, rfl⟩
abbrev main_c_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v40 : Ref sig .tc := ⟨.hbm, 85, rfl⟩
abbrev main_c_11 : Ref sig .tc := ⟨.hbm, 86, rfl⟩
abbrev main_v41 : Ref sig .tc := ⟨.hbm, 87, rfl⟩
abbrev main_v42 : Ref sig .tc := ⟨.hbm, 88, rfl⟩
abbrev main_c_12 : Ref sig .tc := ⟨.hbm, 89, rfl⟩
abbrev main_c_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v43 : Ref sig .tc := ⟨.hbm, 96, rfl⟩
abbrev main_v44 : Ref sig .tc := ⟨.hbm, 97, rfl⟩
abbrev main_c_14 : Ref sig .tc := ⟨.hbm, 98, rfl⟩
abbrev main_c_15 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v45 : Ref sig .tc := ⟨.hbm, 105, rfl⟩
abbrev main_c_16 : Ref sig .tc := ⟨.hbm, 106, rfl⟩
abbrev main_v46 : Ref sig .tc := ⟨.hbm, 107, rfl⟩
abbrev main_v47 : Ref sig .tc := ⟨.hbm, 108, rfl⟩
abbrev main_c_17 : Ref sig .tc := ⟨.hbm, 109, rfl⟩
abbrev main_c_18 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v48 : Ref sig .tc := ⟨.hbm, 116, rfl⟩
abbrev main_c_19 : Ref sig .tc := ⟨.hbm, 117, rfl⟩
abbrev main_v49 : Ref sig .tc := ⟨.hbm, 118, rfl⟩
abbrev main_v50 : Ref sig .tc := ⟨.hbm, 119, rfl⟩
abbrev main_c_20 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_c_21 : Ref sig .tc := ⟨.hbm, 124, rfl⟩
abbrev main_v54 : Ref sig .tc := ⟨.hbm, 125, rfl⟩
abbrev main_v55 : Ref sig .tc := ⟨.hbm, 126, rfl⟩
abbrev main_c_22 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_c_23 : Ref sig .tc := ⟨.hbm, 135, rfl⟩
abbrev main_v63 : Ref sig .tc := ⟨.hbm, 136, rfl⟩
abbrev main_v64 : Ref sig .tc := ⟨.hbm, 137, rfl⟩
abbrev main_c_24 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_c_25 : Ref sig .tc := ⟨.hbm, 142, rfl⟩
abbrev main_v68 : Ref sig .tc := ⟨.hbm, 143, rfl⟩
abbrev main_v69 : Ref sig .tc := ⟨.hbm, 144, rfl⟩
abbrev main_c_26 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_c_27 : Ref sig .tc := ⟨.hbm, 153, rfl⟩
abbrev main_v77 : Ref sig .tc := ⟨.hbm, 154, rfl⟩
abbrev main_v78 : Ref sig .tc := ⟨.hbm, 155, rfl⟩
abbrev main_c_28 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_c_29 : Ref sig .tc := ⟨.hbm, 160, rfl⟩
abbrev main_v82 : Ref sig .tc := ⟨.hbm, 161, rfl⟩
abbrev main_v83 : Ref sig .tc := ⟨.hbm, 162, rfl⟩
abbrev main_c_30 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_c_31 : Ref sig .tc := ⟨.hbm, 171, rfl⟩
abbrev main_v91 : Ref sig .tc := ⟨.hbm, 172, rfl⟩
abbrev main_v92 : Ref sig .tc := ⟨.hbm, 173, rfl⟩
abbrev main_c_32 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_c_33 : Ref sig .tc := ⟨.hbm, 178, rfl⟩
abbrev main_v96 : Ref sig .tc := ⟨.hbm, 179, rfl⟩
abbrev main_v97 : Ref sig .tc := ⟨.hbm, 180, rfl⟩
abbrev main_c_34 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_cst_35 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_cst_36 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_cst_37 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_38 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_call5_c : Ref sig .tc := ⟨.hbm, 229, rfl⟩
abbrev main_call5_v0 : Ref sig .tc := ⟨.hbm, 230, rfl⟩
abbrev main_call5_v1 : Ref sig .tc := ⟨.hbm, 231, rfl⟩
abbrev main_call5_c_0 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_c_1 : Ref sig .tc := ⟨.hbm, 237, rfl⟩
abbrev main_call5_c_2 : Ref sig .tc := ⟨.hbm, 238, rfl⟩
abbrev main_call5_v6 : Ref sig .tc := ⟨.hbm, 239, rfl⟩
abbrev main_call5_v7 : Ref sig .tc := ⟨.hbm, 240, rfl⟩
abbrev main_call5_v8 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_c_3 : Ref sig .tc := ⟨.hbm, 245, rfl⟩
abbrev main_call5_v12 : Ref sig .tc := ⟨.hbm, 246, rfl⟩
abbrev main_call5_v13 : Ref sig .tc := ⟨.hbm, 247, rfl⟩
abbrev main_call5_v14 : Ref sig .tc := ⟨.hbm, 248, rfl⟩
abbrev main_call5_cst : Ref sig .tc := ⟨.hbm, 249, rfl⟩
abbrev main_call5_v15 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_cst_39 : Ref sig .tc := ⟨.hbm, 254, rfl⟩
abbrev main_v144 : Ref sig .tc := ⟨.hbm, 255, rfl⟩
abbrev main_v145 : Ref sig .tc := ⟨.hbm, 256, rfl⟩
abbrev main_cst_40 : Ref sig .tc := ⟨.hbm, 257, rfl⟩
abbrev main_v146 : Ref sig .tc := ⟨.hbm, 258, rfl⟩
abbrev main_v147 : Ref sig .tc := ⟨.hbm, 259, rfl⟩
abbrev main_cst_41 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_42 : Ref sig .tc := ⟨.hbm, 265, rfl⟩
abbrev main_v152 : Ref sig .tc := ⟨.hbm, 266, rfl⟩
abbrev main_v153 : Ref sig .tc := ⟨.hbm, 267, rfl⟩
abbrev main_cst_43 : Ref sig .tc := ⟨.hbm, 268, rfl⟩
abbrev main_v154 : Ref sig .tc := ⟨.hbm, 269, rfl⟩
abbrev main_v155 : Ref sig .tc := ⟨.hbm, 270, rfl⟩
abbrev main_cst_44 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_c_45 : Ref sig .tc := ⟨.hbm, 279, rfl⟩
abbrev main_c_46 : Ref sig .tc := ⟨.hbm, 280, rfl⟩
abbrev main_call6_v0 : Ref sig .tc := ⟨.hbm, 281, rfl⟩
abbrev main_call6_v1 : Ref sig .tc := ⟨.hbm, 282, rfl⟩
abbrev main_call6_v2 : Ref sig .tc := ⟨.hbm, 283, rfl⟩
abbrev main_call6_v3 : Ref sig .tc := ⟨.hbm, 284, rfl⟩
abbrev main_call6_v4 : Ref sig .tc := ⟨.hbm, 285, rfl⟩
abbrev main_v163 : Ref sig .tc := ⟨.hbm, 286, rfl⟩
abbrev main_c_47 : Ref sig .tc := ⟨.hbm, 287, rfl⟩
abbrev main_v164 : Ref sig .tc := ⟨.hbm, 288, rfl⟩
abbrev main_v165 : Ref sig .tc := ⟨.hbm, 289, rfl⟩
abbrev main_c_48 : Ref sig .tc := ⟨.hbm, 290, rfl⟩
abbrev main_c_49 : Ref sig .tc := ⟨.hbm, 291, rfl⟩
abbrev main_call7_v0 : Ref sig .tc := ⟨.hbm, 292, rfl⟩
abbrev main_call7_v1 : Ref sig .tc := ⟨.hbm, 293, rfl⟩
abbrev main_call7_v2 : Ref sig .tc := ⟨.hbm, 294, rfl⟩
abbrev main_call7_v3 : Ref sig .tc := ⟨.hbm, 295, rfl⟩
abbrev main_call7_v4 : Ref sig .tc := ⟨.hbm, 296, rfl⟩
abbrev main_v166 : Ref sig .tc := ⟨.hbm, 297, rfl⟩
abbrev main_v167 : Ref sig .tc := ⟨.hbm, 298, rfl⟩
abbrev main_c_50 : Ref sig .tc := ⟨.hbm, 299, rfl⟩
abbrev main_c_51 : Ref sig .tc := ⟨.hbm, 300, rfl⟩
abbrev main_call8_v0 : Ref sig .tc := ⟨.hbm, 301, rfl⟩
abbrev main_call8_v1 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_v168 : Ref sig .tc := ⟨.hbm, 306, rfl⟩
abbrev main_c_52 : Ref sig .tc := ⟨.hbm, 307, rfl⟩
abbrev main_v169 : Ref sig .tc := ⟨.hbm, 308, rfl⟩
abbrev main_v170 : Ref sig .tc := ⟨.hbm, 309, rfl⟩
abbrev main_c_53 : Ref sig .tc := ⟨.hbm, 310, rfl⟩
abbrev main_c_54 : Ref sig .tc := ⟨.hbm, 311, rfl⟩
abbrev main_call9_v0 : Ref sig .tc := ⟨.hbm, 312, rfl⟩
abbrev main_call9_v1 : Ref sig .tc := ⟨.hbm, 313, rfl⟩
abbrev main_call9_v2 : Ref sig .tc := ⟨.hbm, 314, rfl⟩
abbrev main_call9_v3 : Ref sig .tc := ⟨.hbm, 315, rfl⟩
abbrev main_call9_v4 : Ref sig .tc := ⟨.hbm, 316, rfl⟩
abbrev main_v171 : Ref sig .tc := ⟨.hbm, 317, rfl⟩
abbrev main_c_55 : Ref sig .tc := ⟨.hbm, 318, rfl⟩
abbrev main_v172 : Ref sig .tc := ⟨.hbm, 319, rfl⟩
abbrev main_v173 : Ref sig .tc := ⟨.hbm, 320, rfl⟩
abbrev main_c_56 : Ref sig .tc := ⟨.hbm, 321, rfl⟩
abbrev main_v174 : Ref sig .tc := ⟨.hbm, 322, rfl⟩
abbrev main_v175 : Ref sig .tc := ⟨.hbm, 323, rfl⟩
abbrev main_v176 : Ref sig .tc := ⟨.hbm, 324, rfl⟩
abbrev main_c_57 : Ref sig .tc := ⟨.hbm, 325, rfl⟩
abbrev main_v177 : Ref sig .tc := ⟨.hbm, 326, rfl⟩
abbrev main_v178 : Ref sig .tc := ⟨.hbm, 327, rfl⟩
abbrev main_c_58 : Ref sig .tc := ⟨.hbm, 328, rfl⟩
abbrev main_v179 : Ref sig .tc := ⟨.hbm, 329, rfl⟩
abbrev main_v180 : Ref sig .tc := ⟨.hbm, 330, rfl⟩
abbrev main_v181 : Ref sig .tc := ⟨.hbm, 331, rfl⟩
abbrev main_v182 : Ref sig .tc := ⟨.hbm, 332, rfl⟩
abbrev main_v183 : Ref sig .tc := ⟨.hbm, 333, rfl⟩
abbrev main_v184 : Ref sig .tc := ⟨.hbm, 334, rfl⟩
abbrev main_v185 : Ref sig .tc := ⟨.hbm, 335, rfl⟩
abbrev main_c_59 : Ref sig .tc := ⟨.hbm, 336, rfl⟩
abbrev main_v186 : Ref sig .tc := ⟨.hbm, 337, rfl⟩
abbrev main_v187 : Ref sig .tc := ⟨.hbm, 338, rfl⟩
abbrev main_c_60 : Ref sig .tc := ⟨.hbm, 339, rfl⟩
abbrev main_v188 : Ref sig .tc := ⟨.hbm, 340, rfl⟩
abbrev main_v189 : Ref sig .tc := ⟨.hbm, 341, rfl⟩
abbrev main_v190 : Ref sig .tc := ⟨.hbm, 342, rfl⟩
abbrev main_c_61 : Ref sig .tc := ⟨.hbm, 343, rfl⟩
abbrev main_v191 : Ref sig .tc := ⟨.hbm, 344, rfl⟩
abbrev main_v192 : Ref sig .tc := ⟨.hbm, 345, rfl⟩
abbrev main_c_62 : Ref sig .tc := ⟨.hbm, 346, rfl⟩
abbrev main_v193 : Ref sig .tc := ⟨.hbm, 347, rfl⟩
abbrev main_v194 : Ref sig .tc := ⟨.hbm, 348, rfl⟩
abbrev main_v195 : Ref sig .tc := ⟨.hbm, 349, rfl⟩
abbrev main_v196 : Ref sig .tc := ⟨.hbm, 350, rfl⟩
abbrev main_v197 : Ref sig .tc := ⟨.hbm, 351, rfl⟩
abbrev main_v198 : Ref sig .tc := ⟨.hbm, 352, rfl⟩
abbrev main_v199 : Ref sig .tc := ⟨.hbm, 353, rfl⟩
abbrev main_c_63 : Ref sig .tc := ⟨.hbm, 354, rfl⟩
abbrev main_v200 : Ref sig .tc := ⟨.hbm, 355, rfl⟩
abbrev main_v201 : Ref sig .tc := ⟨.hbm, 356, rfl⟩
abbrev main_c_64 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_c_65 : Ref sig .tc := ⟨.hbm, 361, rfl⟩
abbrev main_v205 : Ref sig .tc := ⟨.hbm, 362, rfl⟩
abbrev main_v206 : Ref sig .tc := ⟨.hbm, 363, rfl⟩
abbrev main_c_66 : Ref sig .tc := ⟨.hbm, 364, rfl⟩
abbrev main_v207 : Ref sig .tc := ⟨.hbm, 365, rfl⟩
abbrev main_v208 : Ref sig .tc := ⟨.hbm, 366, rfl⟩
abbrev main_v209 : Ref sig .tc := ⟨.hbm, 367, rfl⟩
abbrev main_v210 : Ref sig .tc := ⟨.hbm, 368, rfl⟩
abbrev main_v211 : Ref sig .tc := ⟨.hbm, 369, rfl⟩
abbrev main_v212 : Ref sig .tc := ⟨.hbm, 370, rfl⟩
abbrev main_v213 : Ref sig .tc := ⟨.hbm, 371, rfl⟩
abbrev main_c_67 : Ref sig .tc := ⟨.hbm, 372, rfl⟩
abbrev main_v214 : Ref sig .tc := ⟨.hbm, 373, rfl⟩
abbrev main_v215 : Ref sig .tc := ⟨.hbm, 374, rfl⟩
abbrev main_c_68 : Ref sig .tc := ⟨.hbm, 375, rfl⟩
abbrev main_v216 : Ref sig .tc := ⟨.hbm, 376, rfl⟩
abbrev main_v217 : Ref sig .tc := ⟨.hbm, 377, rfl⟩
abbrev main_v218 : Ref sig .tc := ⟨.hbm, 378, rfl⟩
abbrev main_c_69 : Ref sig .tc := ⟨.hbm, 379, rfl⟩
abbrev main_v219 : Ref sig .tc := ⟨.hbm, 380, rfl⟩
abbrev main_v220 : Ref sig .tc := ⟨.hbm, 381, rfl⟩
abbrev main_c_70 : Ref sig .tc := ⟨.hbm, 382, rfl⟩
abbrev main_v221 : Ref sig .tc := ⟨.hbm, 383, rfl⟩
abbrev main_v222 : Ref sig .tc := ⟨.hbm, 384, rfl⟩
abbrev main_v223 : Ref sig .tc := ⟨.hbm, 385, rfl⟩
abbrev main_v224 : Ref sig .tc := ⟨.hbm, 386, rfl⟩
abbrev main_v225 : Ref sig .tc := ⟨.hbm, 387, rfl⟩
abbrev main_v226 : Ref sig .tc := ⟨.hbm, 388, rfl⟩
abbrev main_v227 : Ref sig .tc := ⟨.hbm, 389, rfl⟩
abbrev main_cst_71 : Ref sig .tc := ⟨.hbm, 390, rfl⟩
abbrev main_v228 : Ref sig .tc := ⟨.hbm, 391, rfl⟩
abbrev main_v229 : Ref sig .tc := ⟨.hbm, 392, rfl⟩
abbrev main_v230 : Ref sig .tc := ⟨.hbm, 393, rfl⟩
abbrev main_v231 : Ref sig .tc := ⟨.hbm, 394, rfl⟩
abbrev main_v232 : Ref sig .tc := ⟨.hbm, 395, rfl⟩
abbrev main_cst_72 : Ref sig .tc := ⟨.hbm, 396, rfl⟩
abbrev main_v233 : Ref sig .tc := ⟨.hbm, 397, rfl⟩
abbrev main_v234 : Ref sig .tc := ⟨.hbm, 398, rfl⟩
abbrev main_v235 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_cst_73 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_v246 : Ref sig .tc := ⟨.hbm, 411, rfl⟩
abbrev main_cst_74 : Ref sig .tc := ⟨.hbm, 412, rfl⟩
abbrev main_v247 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_v255 : Ref sig .tc := ⟨.hbm, 421, rfl⟩
abbrev main_v256 : Ref sig .tc := ⟨.hbm, 422, rfl⟩
abbrev main_v257 : Ref sig .tc := ⟨.hbm, 423, rfl⟩
abbrev main_v258 : Ref sig .tc := ⟨.hbm, 424, rfl⟩
abbrev main_v259 : Ref sig .tc := ⟨.hbm, 425, rfl⟩
abbrev main_v260 : Ref sig .tc := ⟨.hbm, 426, rfl⟩
abbrev main_v261 : Ref sig .tc := ⟨.hbm, 427, rfl⟩
abbrev main_v262 : Ref sig .tc := ⟨.hbm, 428, rfl⟩
abbrev main_v263 : Ref sig .tc := ⟨.hbm, 429, rfl⟩
abbrev main_call10_c : Ref sig .tc := ⟨.hbm, 430, rfl⟩
abbrev main_call10_v0 : Ref sig .tc := ⟨.hbm, 431, rfl⟩
abbrev main_call10_v1 : Ref sig .tc := ⟨.hbm, 432, rfl⟩
abbrev main_call10_c_0 : Ref sig .tc := ⟨.hbm, 433, rfl⟩
abbrev main_call10_v2 : Ref sig .tc := ⟨.hbm, 434, rfl⟩
abbrev main_call10_v3 : Ref sig .tc := ⟨.hbm, 435, rfl⟩
abbrev main_call10_v4 : Ref sig .tc := ⟨.hbm, 436, rfl⟩
abbrev main_call10_v5 : Ref sig .tc := ⟨.hbm, 437, rfl⟩
abbrev main_call10_c_1 : Ref sig .tc := ⟨.hbm, 438, rfl⟩
abbrev main_call10_c_2 : Ref sig .tc := ⟨.hbm, 439, rfl⟩
abbrev main_call10_v6 : Ref sig .tc := ⟨.hbm, 440, rfl⟩
abbrev main_call10_v7 : Ref sig .tc := ⟨.hbm, 441, rfl⟩
abbrev main_call10_v8 : Ref sig .tc := ⟨.hbm, 442, rfl⟩
abbrev main_call10_v9 : Ref sig .tc := ⟨.hbm, 443, rfl⟩
abbrev main_call10_v10 : Ref sig .tc := ⟨.hbm, 444, rfl⟩
abbrev main_call10_v11 : Ref sig .tc := ⟨.hbm, 445, rfl⟩
abbrev main_call10_c_3 : Ref sig .tc := ⟨.hbm, 446, rfl⟩
abbrev main_call10_v12 : Ref sig .tc := ⟨.hbm, 447, rfl⟩
abbrev main_call10_v13 : Ref sig .tc := ⟨.hbm, 448, rfl⟩
abbrev main_call10_v14 : Ref sig .tc := ⟨.hbm, 449, rfl⟩
abbrev main_call10_cst : Ref sig .tc := ⟨.hbm, 450, rfl⟩
abbrev main_call10_v15 : Ref sig .tc := ⟨.hbm, 451, rfl⟩
abbrev main_v264 : Ref sig .tc := ⟨.hbm, 452, rfl⟩
abbrev main_v265 : Ref sig .tc := ⟨.hbm, 453, rfl⟩
abbrev main_v266 : Ref sig .tc := ⟨.hbm, 454, rfl⟩
abbrev main_cst_75 : Ref sig .tc := ⟨.hbm, 455, rfl⟩
abbrev main_v267 : Ref sig .tc := ⟨.hbm, 456, rfl⟩
abbrev main_v268 : Ref sig .tc := ⟨.hbm, 457, rfl⟩
abbrev main_cst_76 : Ref sig .tc := ⟨.hbm, 458, rfl⟩
abbrev main_v269 : Ref sig .tc := ⟨.hbm, 459, rfl⟩
abbrev main_v270 : Ref sig .tc := ⟨.hbm, 460, rfl⟩
abbrev main_cst_77 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_cst_78 : Ref sig .tc := ⟨.hbm, 466, rfl⟩
abbrev main_v275 : Ref sig .tc := ⟨.hbm, 467, rfl⟩
abbrev main_v276 : Ref sig .tc := ⟨.hbm, 468, rfl⟩
abbrev main_cst_79 : Ref sig .tc := ⟨.hbm, 469, rfl⟩
abbrev main_v277 : Ref sig .tc := ⟨.hbm, 470, rfl⟩
abbrev main_v278 : Ref sig .tc := ⟨.hbm, 471, rfl⟩
abbrev main_cst_80 : Ref sig .tc := ⟨.hbm, 472, rfl⟩
abbrev main_v279 : Ref sig .tc := ⟨.hbm, 473, rfl⟩
abbrev main_v280 : Ref sig .tc := ⟨.hbm, 474, rfl⟩
abbrev main_v281 : Ref sig .tc := ⟨.hbm, 475, rfl⟩
abbrev main_v282 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_c_81 : Ref sig .tc := ⟨.hbm, 480, rfl⟩
abbrev main_c_82 : Ref sig .tc := ⟨.hbm, 481, rfl⟩
abbrev main_call11_v0 : Ref sig .tc := ⟨.hbm, 482, rfl⟩
abbrev main_call11_v1 : Ref sig .tc := ⟨.hbm, 483, rfl⟩
abbrev main_call11_v2 : Ref sig .tc := ⟨.hbm, 484, rfl⟩
abbrev main_call11_v3 : Ref sig .tc := ⟨.hbm, 485, rfl⟩
abbrev main_call11_v4 : Ref sig .tc := ⟨.hbm, 486, rfl⟩
abbrev main_v286 : Ref sig .tc := ⟨.hbm, 487, rfl⟩
abbrev main_c_83 : Ref sig .tc := ⟨.hbm, 488, rfl⟩
abbrev main_v287 : Ref sig .tc := ⟨.hbm, 489, rfl⟩
abbrev main_v288 : Ref sig .tc := ⟨.hbm, 490, rfl⟩
abbrev main_c_84 : Ref sig .tc := ⟨.hbm, 491, rfl⟩
abbrev main_c_85 : Ref sig .tc := ⟨.hbm, 492, rfl⟩
abbrev main_call12_v0 : Ref sig .tc := ⟨.hbm, 493, rfl⟩
abbrev main_call12_v1 : Ref sig .tc := ⟨.hbm, 494, rfl⟩
abbrev main_call12_v2 : Ref sig .tc := ⟨.hbm, 495, rfl⟩
abbrev main_call12_v3 : Ref sig .tc := ⟨.hbm, 496, rfl⟩
abbrev main_call12_v4 : Ref sig .tc := ⟨.hbm, 497, rfl⟩
abbrev main_v289 : Ref sig .tc := ⟨.hbm, 498, rfl⟩
abbrev main_v290 : Ref sig .tc := ⟨.hbm, 499, rfl⟩
abbrev main_c_86 : Ref sig .tc := ⟨.hbm, 500, rfl⟩
abbrev main_c_87 : Ref sig .tc := ⟨.hbm, 501, rfl⟩
abbrev main_call13_v0 : Ref sig .tc := ⟨.hbm, 502, rfl⟩
abbrev main_call13_v1 : Ref sig .tc := ⟨.hbm, 503, rfl⟩
abbrev main_call13_v2 : Ref sig .tc := ⟨.hbm, 504, rfl⟩
abbrev main_call13_v3 : Ref sig .tc := ⟨.hbm, 505, rfl⟩
abbrev main_call13_v4 : Ref sig .tc := ⟨.hbm, 506, rfl⟩
abbrev main_v291 : Ref sig .tc := ⟨.hbm, 507, rfl⟩
abbrev main_c_88 : Ref sig .tc := ⟨.hbm, 508, rfl⟩
abbrev main_v292 : Ref sig .tc := ⟨.hbm, 509, rfl⟩
abbrev main_v293 : Ref sig .tc := ⟨.hbm, 510, rfl⟩
abbrev main_c_89 : Ref sig .tc := ⟨.hbm, 511, rfl⟩
abbrev main_c_90 : Ref sig .tc := ⟨.hbm, 512, rfl⟩
abbrev main_call14_v0 : Ref sig .tc := ⟨.hbm, 513, rfl⟩
abbrev main_call14_v1 : Ref sig .tc := ⟨.hbm, 514, rfl⟩
abbrev main_call14_v2 : Ref sig .tc := ⟨.hbm, 515, rfl⟩
abbrev main_call14_v3 : Ref sig .tc := ⟨.hbm, 516, rfl⟩
abbrev main_call14_v4 : Ref sig .tc := ⟨.hbm, 517, rfl⟩
abbrev main_v294 : Ref sig .tc := ⟨.hbm, 518, rfl⟩
abbrev main_c_91 : Ref sig .tc := ⟨.hbm, 519, rfl⟩
abbrev main_v295 : Ref sig .tc := ⟨.hbm, 520, rfl⟩
abbrev main_v296 : Ref sig .tc := ⟨.hbm, 521, rfl⟩
abbrev main_c_92 : Ref sig .tc := ⟨.hbm, 522, rfl⟩
abbrev main_v297 : Ref sig .tc := ⟨.hbm, 523, rfl⟩
abbrev main_v298 : Ref sig .tc := ⟨.hbm, 524, rfl⟩
abbrev main_v299 : Ref sig .tc := ⟨.hbm, 525, rfl⟩
abbrev main_c_93 : Ref sig .tc := ⟨.hbm, 526, rfl⟩
abbrev main_v300 : Ref sig .tc := ⟨.hbm, 527, rfl⟩
abbrev main_v301 : Ref sig .tc := ⟨.hbm, 528, rfl⟩
abbrev main_c_94 : Ref sig .tc := ⟨.hbm, 529, rfl⟩
abbrev main_v302 : Ref sig .tc := ⟨.hbm, 530, rfl⟩
abbrev main_v303 : Ref sig .tc := ⟨.hbm, 531, rfl⟩
abbrev main_v304 : Ref sig .tc := ⟨.hbm, 532, rfl⟩
abbrev main_v305 : Ref sig .tc := ⟨.hbm, 533, rfl⟩
abbrev main_v306 : Ref sig .tc := ⟨.hbm, 534, rfl⟩
abbrev main_v307 : Ref sig .tc := ⟨.hbm, 535, rfl⟩
abbrev main_v308 : Ref sig .tc := ⟨.hbm, 536, rfl⟩
abbrev main_c_95 : Ref sig .tc := ⟨.hbm, 537, rfl⟩
abbrev main_v309 : Ref sig .tc := ⟨.hbm, 538, rfl⟩
abbrev main_v310 : Ref sig .tc := ⟨.hbm, 539, rfl⟩
abbrev main_c_96 : Ref sig .tc := ⟨.hbm, 540, rfl⟩
abbrev main_v311 : Ref sig .tc := ⟨.hbm, 541, rfl⟩
abbrev main_v312 : Ref sig .tc := ⟨.hbm, 542, rfl⟩
abbrev main_v313 : Ref sig .tc := ⟨.hbm, 543, rfl⟩
abbrev main_c_97 : Ref sig .tc := ⟨.hbm, 544, rfl⟩
abbrev main_v314 : Ref sig .tc := ⟨.hbm, 545, rfl⟩
abbrev main_v315 : Ref sig .tc := ⟨.hbm, 546, rfl⟩
abbrev main_c_98 : Ref sig .tc := ⟨.hbm, 547, rfl⟩
abbrev main_v316 : Ref sig .tc := ⟨.hbm, 548, rfl⟩
abbrev main_v317 : Ref sig .tc := ⟨.hbm, 549, rfl⟩
abbrev main_v318 : Ref sig .tc := ⟨.hbm, 550, rfl⟩
abbrev main_v319 : Ref sig .tc := ⟨.hbm, 551, rfl⟩
abbrev main_v320 : Ref sig .tc := ⟨.hbm, 552, rfl⟩
abbrev main_v321 : Ref sig .tc := ⟨.hbm, 553, rfl⟩
abbrev main_v322 : Ref sig .tc := ⟨.hbm, 554, rfl⟩
abbrev main_c_99 : Ref sig .tc := ⟨.hbm, 555, rfl⟩
abbrev main_v323 : Ref sig .tc := ⟨.hbm, 556, rfl⟩
abbrev main_v324 : Ref sig .tc := ⟨.hbm, 557, rfl⟩
abbrev main_c_100 : Ref sig .tc := ⟨.hbm, 558, rfl⟩
abbrev main_v325 : Ref sig .tc := ⟨.hbm, 559, rfl⟩
abbrev main_v326 : Ref sig .tc := ⟨.hbm, 560, rfl⟩
abbrev main_v327 : Ref sig .tc := ⟨.hbm, 561, rfl⟩
abbrev main_c_101 : Ref sig .tc := ⟨.hbm, 562, rfl⟩
abbrev main_v328 : Ref sig .tc := ⟨.hbm, 563, rfl⟩
abbrev main_v329 : Ref sig .tc := ⟨.hbm, 564, rfl⟩
abbrev main_c_102 : Ref sig .tc := ⟨.hbm, 565, rfl⟩
abbrev main_v330 : Ref sig .tc := ⟨.hbm, 566, rfl⟩
abbrev main_v331 : Ref sig .tc := ⟨.hbm, 567, rfl⟩
abbrev main_v332 : Ref sig .tc := ⟨.hbm, 568, rfl⟩
abbrev main_v333 : Ref sig .tc := ⟨.hbm, 569, rfl⟩
abbrev main_v334 : Ref sig .tc := ⟨.hbm, 570, rfl⟩
abbrev main_v335 : Ref sig .tc := ⟨.hbm, 571, rfl⟩
abbrev main_v336 : Ref sig .tc := ⟨.hbm, 572, rfl⟩
abbrev main_c_103 : Ref sig .tc := ⟨.hbm, 573, rfl⟩
abbrev main_v337 : Ref sig .tc := ⟨.hbm, 574, rfl⟩
abbrev main_v338 : Ref sig .tc := ⟨.hbm, 575, rfl⟩
abbrev main_c_104 : Ref sig .tc := ⟨.hbm, 576, rfl⟩
abbrev main_v339 : Ref sig .tc := ⟨.hbm, 577, rfl⟩
abbrev main_v340 : Ref sig .tc := ⟨.hbm, 578, rfl⟩
abbrev main_v341 : Ref sig .tc := ⟨.hbm, 579, rfl⟩
abbrev main_c_105 : Ref sig .tc := ⟨.hbm, 580, rfl⟩
abbrev main_v342 : Ref sig .tc := ⟨.hbm, 581, rfl⟩
abbrev main_v343 : Ref sig .tc := ⟨.hbm, 582, rfl⟩
abbrev main_c_106 : Ref sig .tc := ⟨.hbm, 583, rfl⟩
abbrev main_v344 : Ref sig .tc := ⟨.hbm, 584, rfl⟩
abbrev main_v345 : Ref sig .tc := ⟨.hbm, 585, rfl⟩
abbrev main_v346 : Ref sig .tc := ⟨.hbm, 586, rfl⟩
abbrev main_v347 : Ref sig .tc := ⟨.hbm, 587, rfl⟩
abbrev main_v348 : Ref sig .tc := ⟨.hbm, 588, rfl⟩
abbrev main_v349 : Ref sig .tc := ⟨.hbm, 589, rfl⟩
abbrev main_v350 : Ref sig .tc := ⟨.hbm, 590, rfl⟩
abbrev main_cst_107 : Ref sig .tc := ⟨.hbm, 591, rfl⟩
abbrev main_v351 : Ref sig .tc := ⟨.hbm, 592, rfl⟩
abbrev main_v352 : Ref sig .tc := ⟨.hbm, 593, rfl⟩
abbrev main_v353 : Ref sig .tc := ⟨.hbm, 594, rfl⟩
abbrev main_v354 : Ref sig .tc := ⟨.hbm, 595, rfl⟩
abbrev main_v355 : Ref sig .tc := ⟨.hbm, 596, rfl⟩
abbrev main_cst_108 : Ref sig .tc := ⟨.hbm, 597, rfl⟩
abbrev main_v356 : Ref sig .tc := ⟨.hbm, 598, rfl⟩
abbrev main_v357 : Ref sig .tc := ⟨.hbm, 599, rfl⟩
abbrev main_v358 : Ref sig .tc := ⟨.hbm, 600, rfl⟩
abbrev main_v359 : Ref sig .tc := ⟨.hbm, 601, rfl⟩
abbrev main_v360 : Ref sig .tc := ⟨.hbm, 602, rfl⟩
abbrev main_v361 : Ref sig .tc := ⟨.hbm, 603, rfl⟩
abbrev main_v362 : Ref sig .tc := ⟨.hbm, 604, rfl⟩
abbrev main_v363 : Ref sig .tc := ⟨.hbm, 605, rfl⟩
abbrev main_cst_109 : Ref sig .tc := ⟨.hbm, 606, rfl⟩
abbrev main_v364 : Ref sig .tc := ⟨.hbm, 607, rfl⟩
abbrev main_v365 : Ref sig .tc := ⟨.hbm, 608, rfl⟩
abbrev main_v366 : Ref sig .tc := ⟨.hbm, 609, rfl⟩
abbrev main_v367 : Ref sig .tc := ⟨.hbm, 610, rfl⟩
abbrev main_v368 : Ref sig .tc := ⟨.hbm, 611, rfl⟩
abbrev main_v369 : Ref sig .tc := ⟨.hbm, 612, rfl⟩
abbrev main_cst_110 : Ref sig .tc := ⟨.hbm, 613, rfl⟩
abbrev main_v370 : Ref sig .tc := ⟨.hbm, 614, rfl⟩
abbrev main_v371 : Ref sig .tc := ⟨.hbm, 615, rfl⟩
abbrev main_v372 : Ref sig .tc := ⟨.hbm, 616, rfl⟩
abbrev main_v373 : Ref sig .tc := ⟨.hbm, 617, rfl⟩
abbrev main_v374 : Ref sig .tc := ⟨.hbm, 618, rfl⟩
abbrev main_v375 : Ref sig .tc := ⟨.hbm, 619, rfl⟩
abbrev main_v376 : Ref sig .tc := ⟨.hbm, 620, rfl⟩
abbrev main_v377 : Ref sig .tc := ⟨.hbm, 621, rfl⟩
abbrev main_v378 : Ref sig .tc := ⟨.hbm, 622, rfl⟩
abbrev main_v379 : Ref sig .tc := ⟨.hbm, 623, rfl⟩
abbrev main_v380 : Ref sig .tc := ⟨.hbm, 624, rfl⟩
abbrev main_v381 : Ref sig .tc := ⟨.hbm, 625, rfl⟩
abbrev main_v382 : Ref sig .tc := ⟨.hbm, 626, rfl⟩
abbrev main_v383 : Ref sig .tc := ⟨.hbm, 627, rfl⟩
abbrev main_v384 : Ref sig .tc := ⟨.hbm, 628, rfl⟩
abbrev main_v385 : Ref sig .tc := ⟨.hbm, 629, rfl⟩
abbrev main_v386 : Ref sig .tc := ⟨.hbm, 630, rfl⟩
abbrev main_v387 : Ref sig .tc := ⟨.hbm, 631, rfl⟩
abbrev main_v388 : Ref sig .tc := ⟨.hbm, 632, rfl⟩
abbrev main_v389 : Ref sig .tc := ⟨.hbm, 633, rfl⟩
abbrev main_v390 : Ref sig .tc := ⟨.hbm, 634, rfl⟩
abbrev main_v391 : Ref sig .tc := ⟨.hbm, 635, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3_S1x3_0_0 : S2x3.Slices ![0, 0] S1x3
  shapeCasts_S1x3_S3 : S1x3.ShapeCasts S3
  bcast_S3_S1x1x3_2 : S3.BroadcastsInDim S1x1x3 (![2] : Fin 1 → Fin S1x1x3.rank)
  bcast_S1x1x3_S8192x128x3_0_1_2 : S1x1x3.BroadcastsInDim S8192x128x3 (![0, 1, 2] : Fin 3 → Fin S8192x128x3.rank)
  slices_S2x3_S1x3_1_0 : S2x3.Slices ![1, 0] S1x3
  bcast_S_S3 : S_.BroadcastsInDim S3 (![] : Fin 0 → Fin S3.rank)
  bcast_S_S8192x128x3 : S_.BroadcastsInDim S8192x128x3 (![] : Fin 0 → Fin S8192x128x3.rank)
  shapeCasts_S8192x128x3_S1048576x3 : S8192x128x3.ShapeCasts S1048576x3
  bcast_S_S2 : S_.BroadcastsInDim S2 (![] : Fin 0 → Fin S2.rank)
  bcast_S2_S2x1_0 : S2.BroadcastsInDim S2x1 (![0] : Fin 1 → Fin S2x1.rank)
  bcast_S_S2x1 : S_.BroadcastsInDim S2x1 (![] : Fin 0 → Fin S2x1.rank)
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  reducesTo_S2x1_S2_d1 : S2x1.ReducesTo [1] S2
  h_S_ : 0 < S_.numel
  bcast_S2_S1048576x2_1 : S2.BroadcastsInDim S1048576x2 (![1] : Fin 1 → Fin S1048576x2.rank)
  bcast_S_S1048576x2 : S_.BroadcastsInDim S1048576x2 (![] : Fin 0 → Fin S1048576x2.rank)
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S1048576_S1x1048576_1 : S1048576.BroadcastsInDim S1x1048576 (![1] : Fin 1 → Fin S1x1048576.rank)
  bcast_S1x1048576_S32x1048576_0_1 : S1x1048576.BroadcastsInDim S32x1048576 (![0, 1] : Fin 2 → Fin S32x1048576.rank)
  transposes_S32x1048576_S1048576x32_1_0 : S32x1048576.Transposes [1, 0] S1048576x32
  shapeCasts_S1048576x32_S8192x128x32 : S1048576x32.ShapeCasts S8192x128x32
  inb_S64x128x32_S64x128x32_0_0_0 : ∀ a, (![0, 0, 0] : Fin 3 → Nat) a + S64x128x32.size a ≤ S64x128x32.size a
  h_S64x128x32 : 0 < S64x128x32.numel
  shapeCasts_S64x128x32_S64x128x32 : S64x128x32.ShapeCasts S64x128x32
  reduces_S64x128x32_S64x128 : S64x128x32.Reduces [2] S64x128
  inb_S64x128_S64x128_0_0 : ∀ a, (![0, 0] : Fin 2 → Nat) a + S64x128.size a ≤ S64x128.size a
  h_S64x128 : 0 < S64x128.numel
  shapeCasts_S8192x128_S8192x128x1 : S8192x128.ShapeCasts S8192x128x1
  gather_S1048576x3_S2x1_S1048576x2_0_1_n_n_1_1_10485761_wf : GatherDims.WF S1048576x3 S2x1 S1048576x2 [0] [1] [] [1] [] 1 ![1048576, 1]
  gather_S32x512x512_S1048576x2_S32x1048576_0_12_n_n_12_1_3211_wf : GatherDims.WF S32x512x512 S1048576x2 S32x1048576 [0] [1, 2] [] [1, 2] [] 1 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x32.size a ≤ S8192x128x32.size a
  hwx0_0 : ∀ i : grid0.Coords, EltTy.bits .f32 = 32 ∨ (Rect.block (s := S8192x128x32) S64x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x32.size a ≤ S8192x128x32.size a
  hwx0_1 : ∀ i : grid0.Coords, EltTy.bits .f32 = 32 ∨ (Rect.block (s := S8192x128x32) S64x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x32.size a ≤ S8192x128x32.size a
  hwx0_2 : ∀ i : grid0.Coords, EltTy.bits .f32 = 32 ∨ (Rect.block (s := S8192x128x32) S64x128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S8192x128.size a
  hwx0_3 : ∀ i : grid0.Coords, EltTy.bits .f32 = 32 ∨ (Rect.block (s := S8192x128) S64x128.size (cc0_transform_3 i) (hinb0_3 i)).WholeWords (EltTy.packing .f32)

variable [Facts₀]

def gather_S1048576x3_S2x1_S1048576x2_0_1_n_n_1_1_10485761 : GatherDims S1048576x3 S2x1 S1048576x2 where
  offsetDims := [0]
  collapsedSliceDims := [1]
  operandBatchingDims := []
  startIndicesBatchingDims := []
  startIndexMap := [1]
  indexVectorDim := 1
  sliceSizes := ![1048576, 1]
  wf := gather_S1048576x3_S2x1_S1048576x2_0_1_n_n_1_1_10485761_wf
def gather_S32x512x512_S1048576x2_S32x1048576_0_12_n_n_12_1_3211 : GatherDims S32x512x512 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x512x512_S1048576x2_S32x1048576_0_12_n_n_12_1_3211_wf

abbrev win0_0 : Pipeline.Window sig grid0 :=
  Pipeline.Window.ofSpec (Memref.whole main_v387) S64x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v388) S64x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v389) S64x128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v390) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128x3 : Shape := ⟨3, ![8192, 128, 3]⟩
abbrev S32x512x512 : Shape := ⟨3, ![32, 512, 512]⟩
abbrev S2x3 : Shape := ⟨2, ![2, 3]⟩
abbrev S2 : Shape := ⟨1, ![2]⟩
abbrev S1x3 : Shape := ⟨2, ![1, 3]⟩
abbrev S3 : Shape := ⟨1, ![3]⟩
abbrev S1x1x3 : Shape := ⟨3, ![1, 1, 3]⟩
abbrev S_ : Shape := ⟨0, ![]⟩
abbrev S1048576x3 : Shape := ⟨2, ![1048576, 3]⟩
abbrev S2x1 : Shape := ⟨2, ![2, 1]⟩
abbrev S1048576x2 : Shape := ⟨2, ![1048576, 2]⟩
abbrev S1048576x1 : Shape := ⟨2, ![1048576, 1]⟩
abbrev S1048576 : Shape := ⟨1, ![1048576]⟩
abbrev S32x1048576 : Shape := ⟨2, ![32, 1048576]⟩
abbrev S1x1048576 : Shape := ⟨2, ![1, 1048576]⟩
abbrev S1048576x32 : Shape := ⟨2, ![1048576, 32]⟩
abbrev S8192x128x1 : Shape := ⟨3, ![8192, 128, 1]⟩

abbrev nBuf : Space → Nat
  | .hbm => 598
  | .vmem => 0
  | .smem => 0
  | _ => 0

abbrev hbmTy0_0 (i : Nat) : BufTy := match i % 128 with
  | 0 => ⟨S8192x128x3, .f32⟩
  | 1 => ⟨S32x512x512, .f32⟩
  | 2 => ⟨S32x512x512, .f32⟩
  | 3 => ⟨S32x512x512, .f32⟩
  | 4 => ⟨S2x3, .f32⟩
  | 5 => ⟨S2, .i32⟩
  | 6 => ⟨S2, .i32⟩
  | 7 => ⟨S2, .i32⟩
  | 8 => ⟨S1x3, .f32⟩
  | 9 => ⟨S3, .f32⟩
  | 10 => ⟨S1x1x3, .f32⟩
  | 11 => ⟨S8192x128x3, .f32⟩
  | 12 => ⟨S8192x128x3, .f32⟩
  | 13 => ⟨S1x3, .f32⟩
  | 14 => ⟨S3, .f32⟩
  | 15 => ⟨S1x3, .f32⟩
  | 16 => ⟨S3, .f32⟩
  | 17 => ⟨S3, .f32⟩
  | 18 => ⟨S_, .f32⟩
  | 19 => ⟨S3, .f32⟩
  | 20 => ⟨S3, .f32⟩
  | 21 => ⟨S1x1x3, .f32⟩
  | 22 => ⟨S8192x128x3, .f32⟩
  | 23 => ⟨S8192x128x3, .f32⟩
  | 24 => ⟨S_, .f32⟩
  | 25 => ⟨S8192x128x3, .f32⟩
  | 26 => ⟨S8192x128x3, .f32⟩
  | 27 => ⟨S1048576x3, .f32⟩
  | 28 => ⟨S_, .i32⟩
  | 29 => ⟨S2, .i32⟩
  | 30 => ⟨S2, .i1⟩
  | 31 => ⟨S_, .i32⟩
  | 32 => ⟨S2, .i32⟩
  | 33 => ⟨S2, .i32⟩
  | 34 => ⟨S2, .i32⟩
  | 35 => ⟨S2x1, .i32⟩
  | 36 => ⟨S1048576x2, .f32⟩
  | 37 => ⟨S1048576x1, .f32⟩
  | 38 => ⟨S1048576, .f32⟩
  | 39 => ⟨S_, .f32⟩
  | 40 => ⟨S1048576, .f32⟩
  | 41 => ⟨S1048576, .f32⟩
  | 42 => ⟨S_, .f32⟩
  | 43 => ⟨S1048576, .f32⟩
  | 44 => ⟨S1048576, .f32⟩
  | 45 => ⟨S_, .f32⟩
  | 46 => ⟨S1048576, .f32⟩
  | 47 => ⟨S1048576, .f32⟩
  | 48 => ⟨S1048576x1, .f32⟩
  | 49 => ⟨S1048576, .f32⟩
  | 50 => ⟨S_, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S1048576, .f32⟩
  | 61 => ⟨S1048576, .f32⟩
  | 62 => ⟨S1048576, .f32⟩
  | 63 => ⟨S1048576, .i32⟩
  | 64 => ⟨S_, .i32⟩
  | 65 => ⟨S_, .i32⟩
  | 66 => ⟨S_, .i32⟩
  | 67 => ⟨S1048576, .i32⟩
  | 68 => ⟨S1048576, .i32⟩
  | 69 => ⟨S_, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S_, .i32⟩
  | 76 => ⟨S_, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S1048576, .i32⟩
  | 84 => ⟨S_, .i32⟩
  | 85 => ⟨S_, .i32⟩
  | 86 => ⟨S_, .i32⟩
  | 87 => ⟨S1048576, .i32⟩
  | 88 => ⟨S1048576, .i32⟩
  | 89 => ⟨S_, .i32⟩
  | 90 => ⟨S1048576, .i32⟩
  | 91 => ⟨S1048576, .i32⟩
  | 92 => ⟨S_, .i32⟩
  | 93 => ⟨S1048576, .i32⟩
  | 94 => ⟨S1048576, .i32⟩
  | 95 => ⟨S_, .i32⟩
  | 96 => ⟨S_, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S_, .i32⟩
  | 104 => ⟨S1048576, .i32⟩
  | 105 => ⟨S1048576, .i1⟩
  | 106 => ⟨S_, .i32⟩
  | 107 => ⟨S1048576, .i32⟩
  | 108 => ⟨S1048576, .i32⟩
  | 109 => ⟨S1048576, .i32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S1048576x1, .i32⟩
  | 118 => ⟨S1048576x1, .i32⟩
  | 119 => ⟨S1048576x2, .i32⟩
  | 120 => ⟨S32x1048576, .f32⟩
  | 121 => ⟨S_, .i32⟩
  | 122 => ⟨S1048576, .i32⟩
  | 123 => ⟨S1048576, .i1⟩
  | 124 => ⟨S_, .i32⟩
  | 125 => ⟨S1048576, .i32⟩
  | 126 => ⟨S1048576, .i32⟩
  | 127 => ⟨S1048576, .i32⟩
  | _ => ⟨S8192x128x3, .f32⟩

abbrev hbmTy0_1 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S1048576x1, .i32⟩
  | 8 => ⟨S1048576x1, .i32⟩
  | 9 => ⟨S1048576x2, .i32⟩
  | 10 => ⟨S32x1048576, .f32⟩
  | 11 => ⟨S_, .i32⟩
  | 12 => ⟨S1048576, .i32⟩
  | 13 => ⟨S1048576, .i1⟩
  | 14 => ⟨S_, .i32⟩
  | 15 => ⟨S1048576, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S1048576x1, .i32⟩
  | 27 => ⟨S1048576x2, .i32⟩
  | 28 => ⟨S32x1048576, .f32⟩
  | 29 => ⟨S_, .i32⟩
  | 30 => ⟨S1048576, .i32⟩
  | 31 => ⟨S1048576, .i1⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S1048576x1, .i32⟩
  | 44 => ⟨S1048576x1, .i32⟩
  | 45 => ⟨S1048576x2, .i32⟩
  | 46 => ⟨S32x1048576, .f32⟩
  | 47 => ⟨S_, .f32⟩
  | 48 => ⟨S1048576, .f32⟩
  | 49 => ⟨S1048576, .f32⟩
  | 50 => ⟨S1x1048576, .f32⟩
  | 51 => ⟨S32x1048576, .f32⟩
  | 52 => ⟨S32x1048576, .f32⟩
  | 53 => ⟨S_, .f32⟩
  | 54 => ⟨S1048576, .f32⟩
  | 55 => ⟨S1048576, .f32⟩
  | 56 => ⟨S1x1048576, .f32⟩
  | 57 => ⟨S32x1048576, .f32⟩
  | 58 => ⟨S32x1048576, .f32⟩
  | 59 => ⟨S1x1048576, .f32⟩
  | 60 => ⟨S32x1048576, .f32⟩
  | 61 => ⟨S32x1048576, .f32⟩
  | 62 => ⟨S_, .f32⟩
  | 63 => ⟨S1048576, .f32⟩
  | 64 => ⟨S1048576, .f32⟩
  | 65 => ⟨S1x1048576, .f32⟩
  | 66 => ⟨S32x1048576, .f32⟩
  | 67 => ⟨S32x1048576, .f32⟩
  | 68 => ⟨S32x1048576, .f32⟩
  | 69 => ⟨S_, .f32⟩
  | 70 => ⟨S1048576, .f32⟩
  | 71 => ⟨S1048576, .f32⟩
  | 72 => ⟨S1x1048576, .f32⟩
  | 73 => ⟨S32x1048576, .f32⟩
  | 74 => ⟨S32x1048576, .f32⟩
  | 75 => ⟨S1x1048576, .f32⟩
  | 76 => ⟨S32x1048576, .f32⟩
  | 77 => ⟨S32x1048576, .f32⟩
  | 78 => ⟨S32x1048576, .f32⟩
  | 79 => ⟨S1x1048576, .f32⟩
  | 80 => ⟨S32x1048576, .f32⟩
  | 81 => ⟨S32x1048576, .f32⟩
  | 82 => ⟨S1x1048576, .f32⟩
  | 83 => ⟨S32x1048576, .f32⟩
  | 84 => ⟨S32x1048576, .f32⟩
  | 85 => ⟨S32x1048576, .f32⟩
  | 86 => ⟨S1048576x32, .f32⟩
  | 87 => ⟨S_, .i32⟩
  | 88 => ⟨S2, .i32⟩
  | 89 => ⟨S2, .i1⟩
  | 90 => ⟨S_, .i32⟩
  | 91 => ⟨S2, .i32⟩
  | 92 => ⟨S2, .i32⟩
  | 93 => ⟨S2, .i32⟩
  | 94 => ⟨S2x1, .i32⟩
  | 95 => ⟨S1048576x2, .f32⟩
  | 96 => ⟨S1048576x1, .f32⟩
  | 97 => ⟨S1048576, .f32⟩
  | 98 => ⟨S_, .f32⟩
  | 99 => ⟨S1048576, .f32⟩
  | 100 => ⟨S1048576, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576x1, .f32⟩
  | 108 => ⟨S1048576, .f32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S_, .f32⟩
  | 116 => ⟨S1048576, .f32⟩
  | 117 => ⟨S1048576, .f32⟩
  | 118 => ⟨S1048576, .f32⟩
  | 119 => ⟨S1048576, .f32⟩
  | 120 => ⟨S1048576, .f32⟩
  | 121 => ⟨S1048576, .f32⟩
  | 122 => ⟨S1048576, .i32⟩
  | 123 => ⟨S_, .i32⟩
  | 124 => ⟨S_, .i32⟩
  | 125 => ⟨S_, .i32⟩
  | 126 => ⟨S1048576, .i32⟩
  | 127 => ⟨S1048576, .i32⟩
  | _ => ⟨S8192x128x3, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S_, .i32⟩
  | 8 => ⟨S_, .i32⟩
  | 9 => ⟨S1048576, .i32⟩
  | 10 => ⟨S1048576, .i32⟩
  | 11 => ⟨S_, .i32⟩
  | 12 => ⟨S1048576, .i32⟩
  | 13 => ⟨S1048576, .i32⟩
  | 14 => ⟨S1048576, .i32⟩
  | 15 => ⟨S_, .i32⟩
  | 16 => ⟨S_, .i32⟩
  | 17 => ⟨S_, .i32⟩
  | 18 => ⟨S1048576, .i32⟩
  | 19 => ⟨S1048576, .i32⟩
  | 20 => ⟨S_, .i32⟩
  | 21 => ⟨S1048576, .i32⟩
  | 22 => ⟨S1048576, .i32⟩
  | 23 => ⟨S_, .i32⟩
  | 24 => ⟨S1048576, .i32⟩
  | 25 => ⟨S1048576, .i32⟩
  | 26 => ⟨S_, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i1⟩
  | 37 => ⟨S_, .i32⟩
  | 38 => ⟨S1048576, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S1048576x1, .i32⟩
  | 50 => ⟨S1048576x2, .i32⟩
  | 51 => ⟨S32x1048576, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S1048576x1, .i32⟩
  | 68 => ⟨S1048576x2, .i32⟩
  | 69 => ⟨S32x1048576, .f32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S1048576x1, .i32⟩
  | 85 => ⟨S1048576x1, .i32⟩
  | 86 => ⟨S1048576x2, .i32⟩
  | 87 => ⟨S32x1048576, .f32⟩
  | 88 => ⟨S_, .i32⟩
  | 89 => ⟨S1048576, .i32⟩
  | 90 => ⟨S1048576, .i1⟩
  | 91 => ⟨S_, .i32⟩
  | 92 => ⟨S1048576, .i32⟩
  | 93 => ⟨S1048576, .i32⟩
  | 94 => ⟨S1048576, .i32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x1, .i32⟩
  | 104 => ⟨S1048576x2, .i32⟩
  | 105 => ⟨S32x1048576, .f32⟩
  | 106 => ⟨S_, .f32⟩
  | 107 => ⟨S1048576, .f32⟩
  | 108 => ⟨S1048576, .f32⟩
  | 109 => ⟨S1x1048576, .f32⟩
  | 110 => ⟨S32x1048576, .f32⟩
  | 111 => ⟨S32x1048576, .f32⟩
  | 112 => ⟨S_, .f32⟩
  | 113 => ⟨S1048576, .f32⟩
  | 114 => ⟨S1048576, .f32⟩
  | 115 => ⟨S1x1048576, .f32⟩
  | 116 => ⟨S32x1048576, .f32⟩
  | 117 => ⟨S32x1048576, .f32⟩
  | 118 => ⟨S1x1048576, .f32⟩
  | 119 => ⟨S32x1048576, .f32⟩
  | 120 => ⟨S32x1048576, .f32⟩
  | 121 => ⟨S_, .f32⟩
  | 122 => ⟨S1048576, .f32⟩
  | 123 => ⟨S1048576, .f32⟩
  | 124 => ⟨S1x1048576, .f32⟩
  | 125 => ⟨S32x1048576, .f32⟩
  | 126 => ⟨S32x1048576, .f32⟩
  | 127 => ⟨S32x1048576, .f32⟩
  | _ => ⟨S8192x128x3, .f32⟩

abbrev hbmTy0_3 (i : Nat) : BufTy := match i % 128 with
  | 0 => ⟨S_, .f32⟩
  | 1 => ⟨S1048576, .f32⟩
  | 2 => ⟨S1048576, .f32⟩
  | 3 => ⟨S1x1048576, .f32⟩
  | 4 => ⟨S32x1048576, .f32⟩
  | 5 => ⟨S32x1048576, .f32⟩
  | 6 => ⟨S1x1048576, .f32⟩
  | 7 => ⟨S32x1048576, .f32⟩
  | 8 => ⟨S32x1048576, .f32⟩
  | 9 => ⟨S32x1048576, .f32⟩
  | 10 => ⟨S1x1048576, .f32⟩
  | 11 => ⟨S32x1048576, .f32⟩
  | 12 => ⟨S32x1048576, .f32⟩
  | 13 => ⟨S1x1048576, .f32⟩
  | 14 => ⟨S32x1048576, .f32⟩
  | 15 => ⟨S32x1048576, .f32⟩
  | 16 => ⟨S32x1048576, .f32⟩
  | 17 => ⟨S1048576x32, .f32⟩
  | 18 => ⟨S1048576x32, .f32⟩
  | 19 => ⟨S_, .i32⟩
  | 20 => ⟨S2, .i32⟩
  | 21 => ⟨S2, .i1⟩
  | 22 => ⟨S_, .i32⟩
  | 23 => ⟨S2, .i32⟩
  | 24 => ⟨S2, .i32⟩
  | 25 => ⟨S2, .i32⟩
  | 26 => ⟨S2x1, .i32⟩
  | 27 => ⟨S1048576x2, .f32⟩
  | 28 => ⟨S1048576x1, .f32⟩
  | 29 => ⟨S1048576, .f32⟩
  | 30 => ⟨S_, .f32⟩
  | 31 => ⟨S1048576, .f32⟩
  | 32 => ⟨S1048576, .f32⟩
  | 33 => ⟨S_, .f32⟩
  | 34 => ⟨S1048576, .f32⟩
  | 35 => ⟨S1048576, .f32⟩
  | 36 => ⟨S_, .f32⟩
  | 37 => ⟨S1048576, .f32⟩
  | 38 => ⟨S1048576, .f32⟩
  | 39 => ⟨S1048576x1, .f32⟩
  | 40 => ⟨S1048576, .f32⟩
  | 41 => ⟨S_, .f32⟩
  | 42 => ⟨S1048576, .f32⟩
  | 43 => ⟨S1048576, .f32⟩
  | 44 => ⟨S_, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .f32⟩
  | 51 => ⟨S1048576, .f32⟩
  | 52 => ⟨S1048576, .f32⟩
  | 53 => ⟨S1048576, .f32⟩
  | 54 => ⟨S1048576, .i32⟩
  | 55 => ⟨S_, .i32⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S_, .i32⟩
  | 64 => ⟨S1048576, .i32⟩
  | 65 => ⟨S1048576, .i32⟩
  | 66 => ⟨S_, .i32⟩
  | 67 => ⟨S_, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S_, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S_, .i32⟩
  | 84 => ⟨S1048576, .i32⟩
  | 85 => ⟨S1048576, .i32⟩
  | 86 => ⟨S_, .i32⟩
  | 87 => ⟨S_, .i32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S_, .i32⟩
  | 102 => ⟨S1048576, .i32⟩
  | 103 => ⟨S1048576, .i1⟩
  | 104 => ⟨S_, .i32⟩
  | 105 => ⟨S1048576, .i32⟩
  | 106 => ⟨S1048576, .i32⟩
  | 107 => ⟨S1048576, .i32⟩
  | 108 => ⟨S1048576x1, .i32⟩
  | 109 => ⟨S1048576x1, .i32⟩
  | 110 => ⟨S1048576x2, .i32⟩
  | 111 => ⟨S32x1048576, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S8192x128x3, .f32⟩

abbrev hbmTy0_4 (i : Nat) : BufTy := match i % 128 with
  | 0 => ⟨S1048576x2, .i32⟩
  | 1 => ⟨S32x1048576, .f32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S_, .i32⟩
  | 10 => ⟨S1048576, .i32⟩
  | 11 => ⟨S1048576, .i1⟩
  | 12 => ⟨S_, .i32⟩
  | 13 => ⟨S1048576, .i32⟩
  | 14 => ⟨S1048576, .i32⟩
  | 15 => ⟨S1048576, .i32⟩
  | 16 => ⟨S1048576x1, .i32⟩
  | 17 => ⟨S1048576x1, .i32⟩
  | 18 => ⟨S1048576x2, .i32⟩
  | 19 => ⟨S32x1048576, .f32⟩
  | 20 => ⟨S_, .i32⟩
  | 21 => ⟨S1048576, .i32⟩
  | 22 => ⟨S1048576, .i1⟩
  | 23 => ⟨S_, .i32⟩
  | 24 => ⟨S1048576, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x1, .i32⟩
  | 36 => ⟨S1048576x2, .i32⟩
  | 37 => ⟨S32x1048576, .f32⟩
  | 38 => ⟨S_, .f32⟩
  | 39 => ⟨S1048576, .f32⟩
  | 40 => ⟨S1048576, .f32⟩
  | 41 => ⟨S1x1048576, .f32⟩
  | 42 => ⟨S32x1048576, .f32⟩
  | 43 => ⟨S32x1048576, .f32⟩
  | 44 => ⟨S_, .f32⟩
  | 45 => ⟨S1048576, .f32⟩
  | 46 => ⟨S1048576, .f32⟩
  | 47 => ⟨S1x1048576, .f32⟩
  | 48 => ⟨S32x1048576, .f32⟩
  | 49 => ⟨S32x1048576, .f32⟩
  | 50 => ⟨S1x1048576, .f32⟩
  | 51 => ⟨S32x1048576, .f32⟩
  | 52 => ⟨S32x1048576, .f32⟩
  | 53 => ⟨S_, .f32⟩
  | 54 => ⟨S1048576, .f32⟩
  | 55 => ⟨S1048576, .f32⟩
  | 56 => ⟨S1x1048576, .f32⟩
  | 57 => ⟨S32x1048576, .f32⟩
  | 58 => ⟨S32x1048576, .f32⟩
  | 59 => ⟨S32x1048576, .f32⟩
  | 60 => ⟨S_, .f32⟩
  | 61 => ⟨S1048576, .f32⟩
  | 62 => ⟨S1048576, .f32⟩
  | 63 => ⟨S1x1048576, .f32⟩
  | 64 => ⟨S32x1048576, .f32⟩
  | 65 => ⟨S32x1048576, .f32⟩
  | 66 => ⟨S1x1048576, .f32⟩
  | 67 => ⟨S32x1048576, .f32⟩
  | 68 => ⟨S32x1048576, .f32⟩
  | 69 => ⟨S32x1048576, .f32⟩
  | 70 => ⟨S1x1048576, .f32⟩
  | 71 => ⟨S32x1048576, .f32⟩
  | 72 => ⟨S32x1048576, .f32⟩
  | 73 => ⟨S1x1048576, .f32⟩
  | 74 => ⟨S32x1048576, .f32⟩
  | 75 => ⟨S32x1048576, .f32⟩
  | 76 => ⟨S32x1048576, .f32⟩
  | 77 => ⟨S1048576x32, .f32⟩
  | 78 => ⟨S1048576x32, .f32⟩
  | 79 => ⟨S_, .f32⟩
  | 80 => ⟨S1048576, .f32⟩
  | 81 => ⟨S_, .f32⟩
  | 82 => ⟨S1048576, .f32⟩
  | 83 => ⟨S1048576, .f32⟩
  | 84 => ⟨S8192x128x1, .f32⟩
  | 85 => ⟨S8192x128x1, .f32⟩
  | _ => ⟨S8192x128x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x128x3, .f32⟩

abbrev bufTy : (tb : Table) → Fin (tcTables nBuf tb) → BufTy
  | .hbm, ⟨i, _⟩ => hbmTy i
  | _, _ => ⟨S8192x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_11 : Ref sig .tc := ⟨.hbm, 64, rfl⟩
abbrev main_c_12 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_c_15 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v49 : Ref sig .tc := ⟨.hbm, 82, rfl⟩
abbrev main_v50 : Ref sig .tc := ⟨.hbm, 83, rfl⟩
abbrev main_c_16 : Ref sig .tc := ⟨.hbm, 84, rfl⟩
abbrev main_c_17 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v51 : Ref sig .tc := ⟨.hbm, 91, rfl⟩
abbrev main_c_18 : Ref sig .tc := ⟨.hbm, 92, rfl⟩
abbrev main_v52 : Ref sig .tc := ⟨.hbm, 93, rfl⟩
abbrev main_v53 : Ref sig .tc := ⟨.hbm, 94, rfl⟩
abbrev main_c_19 : Ref sig .tc := ⟨.hbm, 95, rfl⟩
abbrev main_c_20 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v54 : Ref sig .tc := ⟨.hbm, 102, rfl⟩
abbrev main_c_21 : Ref sig .tc := ⟨.hbm, 103, rfl⟩
abbrev main_v55 : Ref sig .tc := ⟨.hbm, 104, rfl⟩
abbrev main_v56 : Ref sig .tc := ⟨.hbm, 105, rfl⟩
abbrev main_c_22 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_23 : Ref sig .tc := ⟨.hbm, 110, rfl⟩
abbrev main_v60 : Ref sig .tc := ⟨.hbm, 111, rfl⟩
abbrev main_v61 : Ref sig .tc := ⟨.hbm, 112, rfl⟩
abbrev main_c_24 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_25 : Ref sig .tc := ⟨.hbm, 121, rfl⟩
abbrev main_v69 : Ref sig .tc := ⟨.hbm, 122, rfl⟩
abbrev main_v70 : Ref sig .tc := ⟨.hbm, 123, rfl⟩
abbrev main_c_26 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_27 : Ref sig .tc := ⟨.hbm, 128, rfl⟩
abbrev main_v74 : Ref sig .tc := ⟨.hbm, 129, rfl⟩
abbrev main_v75 : Ref sig .tc := ⟨.hbm, 130, rfl⟩
abbrev main_c_28 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_29 : Ref sig .tc := ⟨.hbm, 139, rfl⟩
abbrev main_v83 : Ref sig .tc := ⟨.hbm, 140, rfl⟩
abbrev main_v84 : Ref sig .tc := ⟨.hbm, 141, rfl⟩
abbrev main_c_30 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_c_31 : Ref sig .tc := ⟨.hbm, 146, rfl⟩
abbrev main_v88 : Ref sig .tc := ⟨.hbm, 147, rfl⟩
abbrev main_v89 : Ref sig .tc := ⟨.hbm, 148, rfl⟩
abbrev main_c_32 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_33 : Ref sig .tc := ⟨.hbm, 157, rfl⟩
abbrev main_v97 : Ref sig .tc := ⟨.hbm, 158, rfl⟩
abbrev main_v98 : Ref sig .tc := ⟨.hbm, 159, rfl⟩
abbrev main_c_34 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_35 : Ref sig .tc := ⟨.hbm, 164, rfl⟩
abbrev main_v102 : Ref sig .tc := ⟨.hbm, 165, rfl⟩
abbrev main_v103 : Ref sig .tc := ⟨.hbm, 166, rfl⟩
abbrev main_c_36 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_37 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_38 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_39 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_cst_40 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_c_41 : Ref sig .tc := ⟨.hbm, 215, rfl⟩
abbrev main_v147 : Ref sig .tc := ⟨.hbm, 216, rfl⟩
abbrev main_v148 : Ref sig .tc := ⟨.hbm, 217, rfl⟩
abbrev main_c_42 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_cst_43 : Ref sig .tc := ⟨.hbm, 226, rfl⟩
abbrev main_v156 : Ref sig .tc := ⟨.hbm, 227, rfl⟩
abbrev main_v157 : Ref sig .tc := ⟨.hbm, 228, rfl⟩
abbrev main_cst_44 : Ref sig .tc := ⟨.hbm, 229, rfl⟩
abbrev main_v158 : Ref sig .tc := ⟨.hbm, 230, rfl⟩
abbrev main_v159 : Ref sig .tc := ⟨.hbm, 231, rfl⟩
abbrev main_cst_45 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_cst_46 : Ref sig .tc := ⟨.hbm, 237, rfl⟩
abbrev main_v164 : Ref sig .tc := ⟨.hbm, 238, rfl⟩
abbrev main_v165 : Ref sig .tc := ⟨.hbm, 239, rfl⟩
abbrev main_cst_47 : Ref sig .tc := ⟨.hbm, 240, rfl⟩
abbrev main_v166 : Ref sig .tc := ⟨.hbm, 241, rfl⟩
abbrev main_v167 : Ref sig .tc := ⟨.hbm, 242, rfl⟩
abbrev main_cst_48 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_c_49 : Ref sig .tc := ⟨.hbm, 251, rfl⟩
abbrev main_c_50 : Ref sig .tc := ⟨.hbm, 252, rfl⟩
abbrev main_call4_v0 : Ref sig .tc := ⟨.hbm, 253, rfl⟩
abbrev main_call4_v1 : Ref sig .tc := ⟨.hbm, 254, rfl⟩
abbrev main_call4_v2 : Ref sig .tc := ⟨.hbm, 255, rfl⟩
abbrev main_call4_v3 : Ref sig .tc := ⟨.hbm, 256, rfl⟩
abbrev main_call4_v4 : Ref sig .tc := ⟨.hbm, 257, rfl⟩
abbrev main_v175 : Ref sig .tc := ⟨.hbm, 258, rfl⟩
abbrev main_c_51 : Ref sig .tc := ⟨.hbm, 259, rfl⟩
abbrev main_v176 : Ref sig .tc := ⟨.hbm, 260, rfl⟩
abbrev main_v177 : Ref sig .tc := ⟨.hbm, 261, rfl⟩
abbrev main_c_52 : Ref sig .tc := ⟨.hbm, 262, rfl⟩
abbrev main_c_53 : Ref sig .tc := ⟨.hbm, 263, rfl⟩
abbrev main_call5_v0 : Ref sig .tc := ⟨.hbm, 264, rfl⟩
abbrev main_call5_v1 : Ref sig .tc := ⟨.hbm, 265, rfl⟩
abbrev main_call5_v2 : Ref sig .tc := ⟨.hbm, 266, rfl⟩
abbrev main_call5_v3 : Ref sig .tc := ⟨.hbm, 267, rfl⟩
abbrev main_call5_v4 : Ref sig .tc := ⟨.hbm, 268, rfl⟩
abbrev main_v178 : Ref sig .tc := ⟨.hbm, 269, rfl⟩
abbrev main_v179 : Ref sig .tc := ⟨.hbm, 270, rfl⟩
abbrev main_c_54 : Ref sig .tc := ⟨.hbm, 271, rfl⟩
abbrev main_c_55 : Ref sig .tc := ⟨.hbm, 272, rfl⟩
abbrev main_call6_v0 : Ref sig .tc := ⟨.hbm, 273, rfl⟩
abbrev main_call6_v1 : Ref sig .tc := ⟨.hbm, 274, rfl⟩
abbrev main_call6_v2 : Ref sig .tc := ⟨.hbm, 275, rfl⟩
abbrev main_call6_v3 : Ref sig .tc := ⟨.hbm, 276, rfl⟩
abbrev main_call6_v4 : Ref sig .tc := ⟨.hbm, 277, rfl⟩
abbrev main_v180 : Ref sig .tc := ⟨.hbm, 278, rfl⟩
abbrev main_c_56 : Ref sig .tc := ⟨.hbm, 279, rfl⟩
abbrev main_v181 : Ref sig .tc := ⟨.hbm, 280, rfl⟩
abbrev main_v182 : Ref sig .tc := ⟨.hbm, 281, rfl⟩
abbrev main_c_57 : Ref sig .tc := ⟨.hbm, 282, rfl⟩
abbrev main_c_58 : Ref sig .tc := ⟨.hbm, 283, rfl⟩
abbrev main_call7_v0 : Ref sig .tc := ⟨.hbm, 284, rfl⟩
abbrev main_call7_v1 : Ref sig .tc := ⟨.hbm, 285, rfl⟩
abbrev main_call7_v2 : Ref sig .tc := ⟨.hbm, 286, rfl⟩
abbrev main_call7_v3 : Ref sig .tc := ⟨.hbm, 287, rfl⟩
abbrev main_call7_v4 : Ref sig .tc := ⟨.hbm, 288, rfl⟩
abbrev main_v183 : Ref sig .tc := ⟨.hbm, 289, rfl⟩
abbrev main_c_59 : Ref sig .tc := ⟨.hbm, 290, rfl⟩
abbrev main_v184 : Ref sig .tc := ⟨.hbm, 291, rfl⟩
abbrev main_v185 : Ref sig .tc := ⟨.hbm, 292, rfl⟩
abbrev main_c_60 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_c_61 : Ref sig .tc := ⟨.hbm, 297, rfl⟩
abbrev main_v189 : Ref sig .tc := ⟨.hbm, 298, rfl⟩
abbrev main_v190 : Ref sig .tc := ⟨.hbm, 299, rfl⟩
abbrev main_c_62 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_c_63 : Ref sig .tc := ⟨.hbm, 308, rfl⟩
abbrev main_v198 : Ref sig .tc := ⟨.hbm, 309, rfl⟩
abbrev main_v199 : Ref sig .tc := ⟨.hbm, 310, rfl⟩
abbrev main_c_64 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_c_65 : Ref sig .tc := ⟨.hbm, 315, rfl⟩
abbrev main_v203 : Ref sig .tc := ⟨.hbm, 316, rfl⟩
abbrev main_v204 : Ref sig .tc := ⟨.hbm, 317, rfl⟩
abbrev main_c_66 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_c_67 : Ref sig .tc := ⟨.hbm, 326, rfl⟩
abbrev main_v212 : Ref sig .tc := ⟨.hbm, 327, rfl⟩
abbrev main_v213 : Ref sig .tc := ⟨.hbm, 328, rfl⟩
abbrev main_c_68 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_c_69 : Ref sig .tc := ⟨.hbm, 333, rfl⟩
abbrev main_v217 : Ref sig .tc := ⟨.hbm, 334, rfl⟩
abbrev main_v218 : Ref sig .tc := ⟨.hbm, 335, rfl⟩
abbrev main_c_70 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_c_71 : Ref sig .tc := ⟨.hbm, 344, rfl⟩
abbrev main_v226 : Ref sig .tc := ⟨.hbm, 345, rfl⟩
abbrev main_v227 : Ref sig .tc := ⟨.hbm, 346, rfl⟩
abbrev main_c_72 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_c_73 : Ref sig .tc := ⟨.hbm, 351, rfl⟩
abbrev main_v231 : Ref sig .tc := ⟨.hbm, 352, rfl⟩
abbrev main_v232 : Ref sig .tc := ⟨.hbm, 353, rfl⟩
abbrev main_c_74 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_cst_75 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_cst_76 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_cst_77 : Ref sig .tc := ⟨.hbm, 377, rfl⟩
abbrev main_v253 : Ref sig .tc := ⟨.hbm, 378, rfl⟩
abbrev main_v254 : Ref sig .tc := ⟨.hbm, 379, rfl⟩
abbrev main_v255 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_cst_78 : Ref sig .tc := ⟨.hbm, 384, rfl⟩
abbrev main_v259 : Ref sig .tc := ⟨.hbm, 385, rfl⟩
abbrev main_v260 : Ref sig .tc := ⟨.hbm, 386, rfl⟩
abbrev main_v261 : Ref sig .tc := ⟨.hbm, 387, rfl⟩
abbrev main_v262 : Ref sig .tc := ⟨.hbm, 388, rfl⟩
abbrev main_v263 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_c_79 : Ref sig .tc := ⟨.hbm, 403, rfl⟩
abbrev main_v277 : Ref sig .tc := ⟨.hbm, 404, rfl⟩
abbrev main_v278 : Ref sig .tc := ⟨.hbm, 405, rfl⟩
abbrev main_c_80 : Ref sig .tc := ⟨.hbm, 406, rfl⟩
abbrev main_v279 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_v283 : Ref sig .tc := ⟨.hbm, 411, rfl⟩
abbrev main_v284 : Ref sig .tc := ⟨.hbm, 412, rfl⟩
abbrev main_v285 : Ref sig .tc := ⟨.hbm, 413, rfl⟩
abbrev main_cst_81 : Ref sig .tc := ⟨.hbm, 414, rfl⟩
abbrev main_v286 : Ref sig .tc := ⟨.hbm, 415, rfl⟩
abbrev main_v287 : Ref sig .tc := ⟨.hbm, 416, rfl⟩
abbrev main_cst_82 : Ref sig .tc := ⟨.hbm, 417, rfl⟩
abbrev main_v288 : Ref sig .tc := ⟨.hbm, 418, rfl⟩
abbrev main_v289 : Ref sig .tc := ⟨.hbm, 419, rfl⟩
abbrev main_cst_83 : Ref sig .tc := ⟨.hbm, 420, rfl⟩
abbrev main_v290 : Ref sig .tc := ⟨.hbm, 421, rfl⟩
abbrev main_v291 : Ref sig .tc := ⟨.hbm, 422, rfl⟩
abbrev main_v292 : Ref sig .tc := ⟨.hbm, 423, rfl⟩
abbrev main_v293 : Ref sig .tc := ⟨.hbm, 424, rfl⟩
abbrev main_cst_84 : Ref sig .tc := ⟨.hbm, 425, rfl⟩
abbrev main_v294 : Ref sig .tc := ⟨.hbm, 426, rfl⟩
abbrev main_v295 : Ref sig .tc := ⟨.hbm, 427, rfl⟩
abbrev main_cst_85 : Ref sig .tc := ⟨.hbm, 428, rfl⟩
abbrev main_v296 : Ref sig .tc := ⟨.hbm, 429, rfl⟩
abbrev main_v297 : Ref sig .tc := ⟨.hbm, 430, rfl⟩
abbrev main_cst_86 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_c_87 : Ref sig .tc := ⟨.hbm, 439, rfl⟩
abbrev main_c_88 : Ref sig .tc := ⟨.hbm, 440, rfl⟩
abbrev main_call8_v0 : Ref sig .tc := ⟨.hbm, 441, rfl⟩
abbrev main_call8_v1 : Ref sig .tc := ⟨.hbm, 442, rfl⟩
abbrev main_call8_v2 : Ref sig .tc := ⟨.hbm, 443, rfl⟩
abbrev main_call8_v3 : Ref sig .tc := ⟨.hbm, 444, rfl⟩
abbrev main_call8_v4 : Ref sig .tc := ⟨.hbm, 445, rfl⟩
abbrev main_v305 : Ref sig .tc := ⟨.hbm, 446, rfl⟩
abbrev main_c_89 : Ref sig .tc := ⟨.hbm, 447, rfl⟩
abbrev main_v306 : Ref sig .tc := ⟨.hbm, 448, rfl⟩
abbrev main_v307 : Ref sig .tc := ⟨.hbm, 449, rfl⟩
abbrev main_c_90 : Ref sig .tc := ⟨.hbm, 450, rfl⟩
abbrev main_c_91 : Ref sig .tc := ⟨.hbm, 451, rfl⟩
abbrev main_call9_v0 : Ref sig .tc := ⟨.hbm, 452, rfl⟩
abbrev main_call9_v1 : Ref sig .tc := ⟨.hbm, 453, rfl⟩
abbrev main_call9_v2 : Ref sig .tc := ⟨.hbm, 454, rfl⟩
abbrev main_call9_v3 : Ref sig .tc := ⟨.hbm, 455, rfl⟩
abbrev main_call9_v4 : Ref sig .tc := ⟨.hbm, 456, rfl⟩
abbrev main_v308 : Ref sig .tc := ⟨.hbm, 457, rfl⟩
abbrev main_v309 : Ref sig .tc := ⟨.hbm, 458, rfl⟩
abbrev main_c_92 : Ref sig .tc := ⟨.hbm, 459, rfl⟩
abbrev main_c_93 : Ref sig .tc := ⟨.hbm, 460, rfl⟩
abbrev main_call10_v0 : Ref sig .tc := ⟨.hbm, 461, rfl⟩
abbrev main_call10_v1 : Ref sig .tc := ⟨.hbm, 462, rfl⟩
abbrev main_call10_v2 : Ref sig .tc := ⟨.hbm, 463, rfl⟩
abbrev main_call10_v3 : Ref sig .tc := ⟨.hbm, 464, rfl⟩
abbrev main_call10_v4 : Ref sig .tc := ⟨.hbm, 465, rfl⟩
abbrev main_v310 : Ref sig .tc := ⟨.hbm, 466, rfl⟩
abbrev main_c_94 : Ref sig .tc := ⟨.hbm, 467, rfl⟩
abbrev main_v311 : Ref sig .tc := ⟨.hbm, 468, rfl⟩
abbrev main_v312 : Ref sig .tc := ⟨.hbm, 469, rfl⟩
abbrev main_c_95 : Ref sig .tc := ⟨.hbm, 470, rfl⟩
abbrev main_c_96 : Ref sig .tc := ⟨.hbm, 471, rfl⟩
abbrev main_call11_v0 : Ref sig .tc := ⟨.hbm, 472, rfl⟩
abbrev main_call11_v1 : Ref sig .tc := ⟨.hbm, 473, rfl⟩
abbrev main_call11_v2 : Ref sig .tc := ⟨.hbm, 474, rfl⟩
abbrev main_call11_v3 : Ref sig .tc := ⟨.hbm, 475, rfl⟩
abbrev main_call11_v4 : Ref sig .tc := ⟨.hbm, 476, rfl⟩
abbrev main_v313 : Ref sig .tc := ⟨.hbm, 477, rfl⟩
abbrev main_c_97 : Ref sig .tc := ⟨.hbm, 478, rfl⟩
abbrev main_v314 : Ref sig .tc := ⟨.hbm, 479, rfl⟩
abbrev main_v315 : Ref sig .tc := ⟨.hbm, 480, rfl⟩
abbrev main_c_98 : Ref sig .tc := ⟨.hbm, 481, rfl⟩
abbrev main_v316 : Ref sig .tc := ⟨.hbm, 482, rfl⟩
abbrev main_v317 : Ref sig .tc := ⟨.hbm, 483, rfl⟩
abbrev main_v318 : Ref sig .tc := ⟨.hbm, 484, rfl⟩
abbrev main_c_99 : Ref sig .tc := ⟨.hbm, 485, rfl⟩
abbrev main_v319 : Ref sig .tc := ⟨.hbm, 486, rfl⟩
abbrev main_v320 : Ref sig .tc := ⟨.hbm, 487, rfl⟩
abbrev main_c_100 : Ref sig .tc := ⟨.hbm, 488, rfl⟩
abbrev main_v321 : Ref sig .tc := ⟨.hbm, 489, rfl⟩
abbrev main_v322 : Ref sig .tc := ⟨.hbm, 490, rfl⟩
abbrev main_v323 : Ref sig .tc := ⟨.hbm, 491, rfl⟩
abbrev main_v324 : Ref sig .tc := ⟨.hbm, 492, rfl⟩
abbrev main_v325 : Ref sig .tc := ⟨.hbm, 493, rfl⟩
abbrev main_v326 : Ref sig .tc := ⟨.hbm, 494, rfl⟩
abbrev main_v327 : Ref sig .tc := ⟨.hbm, 495, rfl⟩
abbrev main_c_101 : Ref sig .tc := ⟨.hbm, 496, rfl⟩
abbrev main_v328 : Ref sig .tc := ⟨.hbm, 497, rfl⟩
abbrev main_v329 : Ref sig .tc := ⟨.hbm, 498, rfl⟩
abbrev main_c_102 : Ref sig .tc := ⟨.hbm, 499, rfl⟩
abbrev main_v330 : Ref sig .tc := ⟨.hbm, 500, rfl⟩
abbrev main_v331 : Ref sig .tc := ⟨.hbm, 501, rfl⟩
abbrev main_v332 : Ref sig .tc := ⟨.hbm, 502, rfl⟩
abbrev main_c_103 : Ref sig .tc := ⟨.hbm, 503, rfl⟩
abbrev main_v333 : Ref sig .tc := ⟨.hbm, 504, rfl⟩
abbrev main_v334 : Ref sig .tc := ⟨.hbm, 505, rfl⟩
abbrev main_c_104 : Ref sig .tc := ⟨.hbm, 506, rfl⟩
abbrev main_v335 : Ref sig .tc := ⟨.hbm, 507, rfl⟩
abbrev main_v336 : Ref sig .tc := ⟨.hbm, 508, rfl⟩
abbrev main_v337 : Ref sig .tc := ⟨.hbm, 509, rfl⟩
abbrev main_v338 : Ref sig .tc := ⟨.hbm, 510, rfl⟩
abbrev main_v339 : Ref sig .tc := ⟨.hbm, 511, rfl⟩
abbrev main_v340 : Ref sig .tc := ⟨.hbm, 512, rfl⟩
abbrev main_v341 : Ref sig .tc := ⟨.hbm, 513, rfl⟩
abbrev main_c_105 : Ref sig .tc := ⟨.hbm, 514, rfl⟩
abbrev main_v342 : Ref sig .tc := ⟨.hbm, 515, rfl⟩
abbrev main_v343 : Ref sig .tc := ⟨.hbm, 516, rfl⟩
abbrev main_c_106 : Ref sig .tc := ⟨.hbm, 517, rfl⟩
abbrev main_v344 : Ref sig .tc := ⟨.hbm, 518, rfl⟩
abbrev main_v345 : Ref sig .tc := ⟨.hbm, 519, rfl⟩
abbrev main_v346 : Ref sig .tc := ⟨.hbm, 520, rfl⟩
abbrev main_c_107 : Ref sig .tc := ⟨.hbm, 521, rfl⟩
abbrev main_v347 : Ref sig .tc := ⟨.hbm, 522, rfl⟩
abbrev main_v348 : Ref sig .tc := ⟨.hbm, 523, rfl⟩
abbrev main_c_108 : Ref sig .tc := ⟨.hbm, 524, rfl⟩
abbrev main_v349 : Ref sig .tc := ⟨.hbm, 525, rfl⟩
abbrev main_v350 : Ref sig .tc := ⟨.hbm, 526, rfl⟩
abbrev main_v351 : Ref sig .tc := ⟨.hbm, 527, rfl⟩
abbrev main_v352 : Ref sig .tc := ⟨.hbm, 528, rfl⟩
abbrev main_v353 : Ref sig .tc := ⟨.hbm, 529, rfl⟩
abbrev main_v354 : Ref sig .tc := ⟨.hbm, 530, rfl⟩
abbrev main_v355 : Ref sig .tc := ⟨.hbm, 531, rfl⟩
abbrev main_c_109 : Ref sig .tc := ⟨.hbm, 532, rfl⟩
abbrev main_v356 : Ref sig .tc := ⟨.hbm, 533, rfl⟩
abbrev main_v357 : Ref sig .tc := ⟨.hbm, 534, rfl⟩
abbrev main_c_110 : Ref sig .tc := ⟨.hbm, 535, rfl⟩
abbrev main_v358 : Ref sig .tc := ⟨.hbm, 536, rfl⟩
abbrev main_v359 : Ref sig .tc := ⟨.hbm, 537, rfl⟩
abbrev main_v360 : Ref sig .tc := ⟨.hbm, 538, rfl⟩
abbrev main_c_111 : Ref sig .tc := ⟨.hbm, 539, rfl⟩
abbrev main_v361 : Ref sig .tc := ⟨.hbm, 540, rfl⟩
abbrev main_v362 : Ref sig .tc := ⟨.hbm, 541, rfl⟩
abbrev main_c_112 : Ref sig .tc := ⟨.hbm, 542, rfl⟩
abbrev main_v363 : Ref sig .tc := ⟨.hbm, 543, rfl⟩
abbrev main_v364 : Ref sig .tc := ⟨.hbm, 544, rfl⟩
abbrev main_v365 : Ref sig .tc := ⟨.hbm, 545, rfl⟩
abbrev main_v366 : Ref sig .tc := ⟨.hbm, 546, rfl⟩
abbrev main_v367 : Ref sig .tc := ⟨.hbm, 547, rfl⟩
abbrev main_v368 : Ref sig .tc := ⟨.hbm, 548, rfl⟩
abbrev main_v369 : Ref sig .tc := ⟨.hbm, 549, rfl⟩
abbrev main_cst_113 : Ref sig .tc := ⟨.hbm, 550, rfl⟩
abbrev main_v370 : Ref sig .tc := ⟨.hbm, 551, rfl⟩
abbrev main_v371 : Ref sig .tc := ⟨.hbm, 552, rfl⟩
abbrev main_v372 : Ref sig .tc := ⟨.hbm, 553, rfl⟩
abbrev main_v373 : Ref sig .tc := ⟨.hbm, 554, rfl⟩
abbrev main_v374 : Ref sig .tc := ⟨.hbm, 555, rfl⟩
abbrev main_cst_114 : Ref sig .tc := ⟨.hbm, 556, rfl⟩
abbrev main_v375 : Ref sig .tc := ⟨.hbm, 557, rfl⟩
abbrev main_v376 : Ref sig .tc := ⟨.hbm, 558, rfl⟩
abbrev main_v377 : Ref sig .tc := ⟨.hbm, 559, rfl⟩
abbrev main_v378 : Ref sig .tc := ⟨.hbm, 560, rfl⟩
abbrev main_v379 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_cst_115 : Ref sig .tc := ⟨.hbm, 565, rfl⟩
abbrev main_v383 : Ref sig .tc := ⟨.hbm, 566, rfl⟩
abbrev main_v384 : Ref sig .tc := ⟨.hbm, 567, rfl⟩
abbrev main_v385 : Ref sig .tc := ⟨.hbm, 568, rfl⟩
abbrev main_v386 : Ref sig .tc := ⟨.hbm, 569, rfl⟩
abbrev main_v387 : Ref sig .tc := ⟨.hbm, 570, rfl⟩
abbrev main_v388 : Ref sig .tc := ⟨.hbm, 571, rfl⟩
abbrev main_cst_116 : Ref sig .tc := ⟨.hbm, 572, rfl⟩
abbrev main_v389 : Ref sig .tc := ⟨.hbm, 573, rfl⟩
abbrev main_v390 : Ref sig .tc := ⟨.hbm, 574, rfl⟩
abbrev main_v391 : Ref sig .tc := ⟨.hbm, 575, rfl⟩
abbrev main_v392 : Ref sig .tc := ⟨.hbm, 576, rfl⟩
abbrev main_v393 : Ref sig .tc := ⟨.hbm, 577, rfl⟩
abbrev main_v394 : Ref sig .tc := ⟨.hbm, 578, rfl⟩
abbrev main_v395 : Ref sig .tc := ⟨.hbm, 579, rfl⟩
abbrev main_v396 : Ref sig .tc := ⟨.hbm, 580, rfl⟩
abbrev main_v397 : Ref sig .tc := ⟨.hbm, 581, rfl⟩
abbrev main_v398 : Ref sig .tc := ⟨.hbm, 582, rfl⟩
abbrev main_v399 : Ref sig .tc := ⟨.hbm, 583, rfl⟩
abbrev main_v400 : Ref sig .tc := ⟨.hbm, 584, rfl⟩
abbrev main_v401 : Ref sig .tc := ⟨.hbm, 585, rfl⟩
abbrev main_v402 : Ref sig .tc := ⟨.hbm, 586, rfl⟩
abbrev main_v403 : Ref sig .tc := ⟨.hbm, 587, rfl⟩
abbrev main_v404 : Ref sig .tc := ⟨.hbm, 588, rfl⟩
abbrev main_v405 : Ref sig .tc := ⟨.hbm, 589, rfl⟩
abbrev main_v406 : Ref sig .tc := ⟨.hbm, 590, rfl⟩
abbrev main_cst_117 : Ref sig .tc := ⟨.hbm, 591, rfl⟩
abbrev main_v407 : Ref sig .tc := ⟨.hbm, 592, rfl⟩
abbrev main_cst_118 : Ref sig .tc := ⟨.hbm, 593, rfl⟩
abbrev main_v408 : Ref sig .tc := ⟨.hbm, 594, rfl⟩
abbrev main_v409 : Ref sig .tc := ⟨.hbm, 595, rfl⟩
abbrev main_v410 : Ref sig .tc := ⟨.hbm, 596, rfl⟩
abbrev main_v411 : Ref sig .tc := ⟨.hbm, 597, rfl⟩

abbrev nD : Nat := 1
abbrev τ : Topo := Topo.v7x

variable {F : FTy → Type} [FloatOps F]

class Facts₀ : Prop where
  slices_S2x3_S1x3_0_0 : S2x3.Slices ![0, 0] S1x3
  shapeCasts_S1x3_S3 : S1x3.ShapeCasts S3
  bcast_S3_S1x1x3_2 : S3.BroadcastsInDim S1x1x3 (![2] : Fin 1 → Fin S1x1x3.rank)
  bcast_S1x1x3_S8192x128x3_0_1_2 : S1x1x3.BroadcastsInDim S8192x128x3 (![0, 1, 2] : Fin 3 → Fin S8192x128x3.rank)
  slices_S2x3_S1x3_1_0 : S2x3.Slices ![1, 0] S1x3
  bcast_S_S3 : S_.BroadcastsInDim S3 (![] : Fin 0 → Fin S3.rank)
  bcast_S_S8192x128x3 : S_.BroadcastsInDim S8192x128x3 (![] : Fin 0 → Fin S8192x128x3.rank)
  shapeCasts_S8192x128x3_S1048576x3 : S8192x128x3.ShapeCasts S1048576x3
  bcast_S_S2 : S_.BroadcastsInDim S2 (![] : Fin 0 → Fin S2.rank)
  bcast_S2_S2x1_0 : S2.BroadcastsInDim S2x1 (![0] : Fin 1 → Fin S2x1.rank)
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S1048576_S1x1048576_1 : S1048576.BroadcastsInDim S1x1048576 (![1] : Fin 1 → Fin S1x1048576.rank)
  bcast_S1x1048576_S32x1048576_0_1 : S1x1048576.BroadcastsInDim S32x1048576 (![0, 1] : Fin 2 → Fin S32x1048576.rank)
  transposes_S32x1048576_S1048576x32_1_0 : S32x1048576.Transposes [1, 0] S1048576x32
  reducesTo_S1048576x32_S1048576_d1 : S1048576x32.ReducesTo [1] S1048576
  h_S_ : 0 < S_.numel
  shapeCasts_S1048576_S8192x128x1 : S1048576.ShapeCasts S8192x128x1
  gather_S1048576x3_S2x1_S1048576x2_0_1_n_n_1_1_10485761_wf : GatherDims.WF S1048576x3 S2x1 S1048576x2 [0] [1] [] [1] [] 1 ![1048576, 1]
  gather_S32x512x512_S1048576x2_S32x1048576_0_12_n_n_12_1_3211_wf : GatherDims.WF S32x512x512 S1048576x2 S32x1048576 [0] [1, 2] [] [1, 2] [] 1 ![32, 1, 1]

variable [Facts₀]

def gather_S1048576x3_S2x1_S1048576x2_0_1_n_n_1_1_10485761 : GatherDims S1048576x3 S2x1 S1048576x2 where
  offsetDims := [0]
  collapsedSliceDims := [1]
  operandBatchingDims := []
  startIndicesBatchingDims := []
  startIndexMap := [1]
  indexVectorDim := 1
  sliceSizes := ![1048576, 1]
  wf := gather_S1048576x3_S2x1_S1048576x2_0_1_n_n_1_1_10485761_wf
def gather_S32x512x512_S1048576x2_S32x1048576_0_12_n_n_12_1_3211 : GatherDims S32x512x512 S1048576x2 S32x1048576 where
  offsetDims := [0]
  collapsedSliceDims := [1, 2]
  operandBatchingDims := []
  startIndicesBatchingDims := []
  startIndexMap := [1, 2]
  indexVectorDim := 1
  sliceSizes := ![32, 1, 1]
  wf := gather_S32x512x512_S1048576x2_S32x1048576_0_12_n_n_12_1_3211_wf

class Facts : Prop extends Facts₀ where

variable [Facts]
-- ==== Proof.RefOps0.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it0_0 : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.unary main_arg4 main_v0 ((extractStridedSlice S1x3 ![0, 0] · slices_S2x3_S1x3_0_0) : (⟨S2x3, .f32⟩ : BufTy).Contents (Elt F) → (⟨S1x3, .f32⟩ : BufTy).Contents (Elt F)),
    StableHlo.reshape main_v0 main_v1 rfl shapeCasts_S1x3_S3,
    StableHlo.unary main_v1 main_v2 (broadcastInDim S1x1x3 ![2] bcast_S3_S1x1x3_2 : (⟨S3, .f32⟩ : BufTy).Contents (Elt F) → (⟨S1x1x3, .f32⟩ : BufTy).Contents (Elt F)),
    StableHlo.unary main_v2 main_v3 (broadcastInDim S8192x128x3 ![0, 1, 2] bcast_S1x1x3_S8192x128x3_0_1_2 : (⟨S1x1x3, .f32⟩ : BufTy).Contents (Elt F) → (⟨S8192x128x3, .f32⟩ : BufTy).Contents (Elt F)),
    StableHlo.binary main_arg0 main_v3 main_v4 (subf : (⟨S8192x128x3, .f32⟩ : BufTy).Contents (Elt F) → (⟨S8192x128x3, .f32⟩ : BufTy).Contents (Elt F) → (⟨S8192x128x3, .f32⟩ : BufTy).Contents (Elt F)),
    StableHlo.unary main_arg4 main_v5 ((extractStridedSlice S1x3 ![1, 0] · slices_S2x3_S1x3_1_0) : (⟨S2x3, .f32⟩ : BufTy).Contents (Elt F) → (⟨S1x3, .f32⟩ : BufTy).Contents (Elt F)),
    StableHlo.reshape main_v5 main_v6 rfl shapeCasts_S1x3_S3,
    StableHlo.unary main_arg4 main_v7 ((extractStridedSlice S1x3 ![0, 0] · slices_S2x3_S1x3_0_0) : (⟨S2x3, .f32⟩ : BufTy).Contents (Elt F) → (⟨S1x3, .f32⟩ : BufTy).Contents (Elt F)),
    StableHlo.reshape main_v7 main_v8 rfl shapeCasts_S1x3_S3,
    StableHlo.binary main_v6 main_v8 main_v9 (subf : (⟨S3, .f32⟩ : BufTy).Contents (Elt F) → (⟨S3, .f32⟩ : BufTy).Contents (Elt F) → (⟨S3, .f32⟩ : BufTy).Contents (Elt F)),
    StableHlo.nullary main_cst (constant S_ .f32 0x40000000#32),
    StableHlo.unary main_cst main_v10 (broadcastInDim S3 ![] bcast_S_S3 : (⟨S_, .f32⟩ : BufTy).Contents (Elt F) → (⟨S3, .f32⟩ : BufTy).Contents (Elt F)),
    StableHlo.binary main_v10 main_v9 main_v11 (Host.divf : (⟨S3, .f32⟩ : BufTy).Contents (Elt F) → (⟨S3, .f32⟩ : BufTy).Contents (Elt F) → (⟨S3, .f32⟩ : BufTy).Contents (Elt F)),
    StableHlo.unary main_v11 main_v12 (broadcastInDim S1x1x3 ![2] bcast_S3_S1x1x3_2 : (⟨S3, .f32⟩ : BufTy).Contents (Elt F) → (⟨S1x1x3, .f32⟩ : BufTy).Contents (Elt F)),
    StableHlo.unary main_v12 main_v13 (broadcastInDim S8192x128x3 ![0, 1, 2] bcast_S1x1x3_S8192x128x3_0_1_2 : (⟨S1x1x3, .f32⟩ : BufTy).Contents (Elt F) → (⟨S8192x128x3, .f32⟩ : BufTy).Contents (Elt F)),
    StableHlo.binary main_v4 main_v13 main_v14 (mulf : (⟨S8192x128x3, .f32⟩ : BufTy).Contents (Elt F) → (⟨S8192x128x3, .f32⟩ : BufTy).Contents (Elt F) → (⟨S8192x128x3, .f32⟩ : BufTy).Contents (Elt F)),
    StableHlo.nullary main_cst_2 (constant S_ .f32 0x3F800000#32),
    StableHlo.unary main_cst_2 main_v15 (broadcastInDim S8192x128x3 ![] bcast_S_S8192x128x3 : (⟨S_, .f32⟩ : BufTy).Contents (Elt F) → (⟨S8192x128x3, .f32⟩ : BufTy).Contents (Elt F)),
    StableHlo.binary main_v14 main_v15 main_v16 (subf : (⟨S8192x128x3, .f32⟩ : BufTy).Contents (Elt F) → (⟨S8192x128x3, .f32⟩ : BufTy).Contents (Elt F) → (⟨S8192x128x3, .f32⟩ : BufTy).Contents (Elt F)),
    StableHlo.reshape main_v16 main_v17 rfl shapeCasts_S8192x128x3_S1048576x3 ]
theorem it0_0_sub : (it0_0 : List (HloOp τ sig (Elt F))).Forall fun op => op.bufs ⊆ tcRefs τ sig :=
  ⟨nullary_bufs_sub .., nullary_bufs_sub .., nullary_bufs_sub .., unary_bufs_sub .., reshape_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., unary_bufs_sub .., binary_bufs_sub .., nullary_bufs_sub .., unary_bufs_sub .., binary_bufs_sub .., reshape_bufs_sub ..⟩
theorem it0_0_fresh : (it0_0 : List (HloOp τ sig (Elt F))).Forall fun op => op.fresh = ∅ := by
  simp only [List.Forall]; repeat' constructor
theorem it0_0_keeps (a : Ref sig .tc) (ha : a = main_arg0 ∨ a = main_arg1 ∨ a = main_arg2 ∨ a = main_arg3 ∨ a = main_arg4) :
    (it0_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it0_1 : List (HloOp τ sig (Elt F)) :=
  [ StableHlo.nullary main_c_3 (constantI S_ 32 0#32),
    StableHlo.unary main_c_3 main_v18 (broadcastInDim S2 ![] bcast_S_S2 : (⟨S_, .i32⟩ : BufTy).Contents (Elt F) → (⟨S2, .i32⟩ : BufTy).Contents (Elt F)),
    StableHlo.binary main_c main_v18 main_v19 (cmpi .slt : (⟨S2, .i32⟩ : BufTy).Contents (Elt F) → (⟨S2, .i32⟩ : BufTy).Contents (Elt F) → (⟨S2, .i1⟩ : BufTy).Contents (Elt F)),
    StableHlo.nullary main_c_4 (constantI S_ 32 3#32),
    StableHlo.unary main_c_4 main_v20 (broadcastInDim S2 ![] bcast_S_S2 : (⟨S_, .i32⟩ : BufTy).Contents (Elt F) → (⟨S2, .i32⟩ : BufTy).Contents (Elt F)),
    StableHlo.binary main_c main_v20 main_v21 (addi : (⟨S2, .i32⟩ : BufTy).Contents (Elt F) → (⟨S2, .i32⟩ : BufTy).Contents (Elt F) → (⟨S2, .i32⟩ : BufTy).Contents (Elt F)),
    StableHlo.ternary main_v19 main_v21 main_c main_v22 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v22 main_v23 (broadcastInDim S2x1 ![0] bcast_S2_S2x1_0 : (⟨S2, .i32⟩ : BufTy).Contents (Elt F) → (⟨S2x1, .i32⟩ : BufTy).Contents (Elt F)),
    StableHlo.binary main_v17 main_v23 main_v24 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)) ]
theorem it0_1_sub : (it0_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem it0_1_fresh : (it0_1 : List (HloOp τ sig (Elt F))).Forall fun op => op.fresh = ∅ := by
  simp only [List.Forall]; repeat' constructor
theorem it0_1_keeps (a : Ref sig .tc) (ha : a = main_arg0 ∨ a = main_arg1 ∨ a = main_arg2 ∨ a = main_arg3 ∨ a = main_arg4) :
    (it0_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it0_2 : List (HloOp τ sig (Elt F)) :=
  [ StableHlo.unary main_v24 main_v25 ((extractStridedSlice S1048576x1 ![0, 0] · slices_S1048576x2_S1048576x1_0_0) : (⟨S1048576x2, .f32⟩ : BufTy).Contents (Elt F) → (⟨S1048576x1, .f32⟩ : BufTy).Contents (Elt F)),
    StableHlo.reshape main_v25 main_v26 rfl shapeCasts_S1048576x1_S1048576,
    StableHlo.nullary main_cst_5 (constant S_ .f32 0x3F800000#32),
    StableHlo.unary main_cst_5 main_v27 (broadcastInDim S1048576 ![] bcast_S_S1048576 : (⟨S_, .f32⟩ : BufTy).Contents (Elt F) → (⟨S1048576, .f32⟩ : BufTy).Contents (Elt F)),
    StableHlo.binary main_v26 main_v27 main_v28 (addf : (⟨S1048576, .f32⟩ : BufTy).Contents (Elt F) → (⟨S1048576, .f32⟩ : BufTy).Contents (Elt F) → (⟨S1048576, .f32⟩ : BufTy).Contents (Elt F)),
    StableHlo.nullary main_cst_6 (constant S_ .f32 0x3F000000#32),
    StableHlo.unary main_cst_6 main_v29 (broadcastInDim S1048576 ![] bcast_S_S1048576 : (⟨S_, .f32⟩ : BufTy).Contents (Elt F) → (⟨S1048576, .f32⟩ : BufTy).Contents (Elt F)),
    StableHlo.binary main_v28 main_v29 main_v30 (mulf : (⟨S1048576, .f32⟩ : BufTy).Contents (Elt F) → (⟨S1048576, .f32⟩ : BufTy).Contents (Elt F) → (⟨S1048576, .f32⟩ : BufTy).Contents (Elt F)),
    StableHlo.nullary main_cst_7 (constant S_ .f32 0x43FF8000#32),
    StableHlo.unary main_cst_7 main_v31 (broadcastInDim S1048576 ![] bcast_S_S1048576 : (⟨S_, .f32⟩ : BufTy).Contents (Elt F) → (⟨S1048576, .f32⟩ : BufTy).Contents (Elt F)),
    StableHlo.binary main_v30 main_v31 main_v32 (mulf : (⟨S1048576, .f32⟩ : BufTy).Contents (Elt F) → (⟨S1048576, .f32⟩ : BufTy).Contents (Elt F) → (⟨S1048576, .f32⟩ : BufTy).Contents (Elt F)),
    StableHlo.unary main_v24 main_v33 ((extractStridedSlice S1048576x1 ![0, 1] · slices_S1048576x2_S1048576x1_0_1) : (⟨S1048576x2, .f32⟩ : BufTy).Contents (Elt F) → (⟨S1048576x1, .f32⟩ : BufTy).Contents (Elt F)),
    StableHlo.reshape main_v33 main_v34 rfl shapeCasts_S1048576x1_S1048576,
    StableHlo.nullary main_cst_8 (constant S_ .f32 0x3F800000#32),
    StableHlo.unary main_cst_8 main_v35 (broadcastInDim S1048576 ![] bcast_S_S1048576 : (⟨S_, .f32⟩ : BufTy).Contents (Elt F) → (⟨S1048576, .f32⟩ : BufTy).Contents (Elt F)),
    StableHlo.binary main_v34 main_v35 main_v36 (addf : (⟨S1048576, .f32⟩ : BufTy).Contents (Elt F) → (⟨S1048576, .f32⟩ : BufTy).Contents (Elt F) → (⟨S1048576, .f32⟩ : BufTy).Contents (Elt F)),
    StableHlo.nullary main_cst_9 (constant S_ .f32 0x3F000000#32),
    StableHlo.unary main_cst_9 main_v37 (broadcastInDim S1048576 ![] bcast_S_S1048576 : (⟨S_, .f32⟩ : BufTy).Contents (Elt F) → (⟨S1048576, .f32⟩ : BufTy).Contents (Elt F)),
    StableHlo.binary main_v36 main_v37 main_v38 (mulf : (⟨S1048576, .f32⟩ : BufTy).Contents (Elt F) → (⟨S1048576, .f32⟩ : BufTy).Contents (Elt F) → (⟨S1048576, .f32⟩ : BufTy).Contents (Elt F)),
    StableHlo.nullary main_cst_10 (constant S_ .f32 0x43FF8000#32),
    StableHlo.unary main_cst_10 main_v39 (broadcastInDim S1048576 ![] bcast_S_S1048576 : (⟨S_, .f32⟩ : BufTy).Contents (Elt F) → (⟨S1048576, .f32⟩ : BufTy).Contents (Elt F)),
    StableHlo.binary main_v38 main_v39 main_v40 (mulf : (⟨S1048576, .f32⟩ : BufTy).Contents (Elt F) → (⟨S1048576, .f32⟩ : BufTy).Contents (Elt F) → (⟨S1048576, .f32⟩ : BufTy).Contents (Elt F)),
    StableHlo.unary main_v32 main_v41 (Host.floor : (⟨S1048576, .f32⟩ : BufTy).Contents (Elt F) → (⟨S1048576, .f32⟩ : BufTy).Contents (Elt F)),
    StableHlo.unary main_v40 main_v42 (Host.floor : (⟨S1048576, .f32⟩ : BufTy).Contents (Elt F) → (⟨S1048576, .f32⟩ : BufTy).Contents (Elt F)),
    StableHlo.binary main_v32 main_v41 main_v43 (subf : (⟨S1048576, .f32⟩ : BufTy).Contents (Elt F) → (⟨S1048576, .f32⟩ : BufTy).Contents (Elt F) → (⟨S1048576, .f32⟩ : BufTy).Contents (Elt F)),
    StableHlo.binary main_v40 main_v42 main_v44 (subf : (⟨S1048576, .f32⟩ : BufTy).Contents (Elt F) → (⟨S1048576, .f32⟩ : BufTy).Contents (Elt F) → (⟨S1048576, .f32⟩ : BufTy).Contents (Elt F)),
    StableHlo.unary main_v41 main_v45 (fptosi 32 : (⟨S1048576, .f32⟩ : BufTy).Contents (Elt F) → (⟨S1048576, .i32⟩ : BufTy).Contents (Elt F)),
    StableHlo.nullary main_c_11 (constantI S_ 32 0#32) ]
theorem it0_2_sub : (it0_2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub ..⟩
theorem it0_2_fresh : (it0_2 : List (HloOp τ sig (Elt F))).Forall fun op => op.fresh = ∅ := by
  simp only [List.Forall]; repeat' constructor
theorem it0_2_keeps (a : Ref sig .tc) (ha : a = main_arg0 ∨ a = main_arg1 ∨ a = main_arg2 ∨ a = main_arg3 ∨ a = main_arg4) :
    (it0_2 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part0_chain (c : Dev nD) : main_part0 (F := F) c = (Pipeline.chainK
  [ seq it0_0,
    seq it0_1 ]
  (seq it0_2) : Prog (TpuEff nD τ sig (Elt F) (Pipeline.Sig Λ₀ (Fin 0) fun p => (pcfgs (F := F) p).Adm) .tc) PUnit) := by
  chain_rfl

end Cert.ReferenceIdeal.RefRun

end
-- ==== Proof.RefOps1.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it1_0 : List (HloOp τ sig (Elt F)) :=
  [ StableHlo.nullary main_c_12 (constantI S_ 32 511#32) ]
theorem it1_0_sub : (it1_0 : List (HloOp τ sig (Elt F))).Forall fun op => op.bufs ⊆ tcRefs τ sig :=
  nullary_bufs_sub ..
theorem it1_0_fresh : (it1_0 : List (HloOp τ sig (Elt F))).Forall fun op => op.fresh = ∅ := by
  simp only [List.Forall]; repeat' constructor
theorem it1_0_keeps (a : Ref sig .tc) (ha : a = main_arg0 ∨ a = main_arg1 ∨ a = main_arg2 ∨ a = main_arg3 ∨ a = main_arg4) :
    (it1_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_1 : List (HloOp τ sig (Elt F)) :=
  [ StableHlo.TRef.unary (.of main_c_11 : StableHlo.TRef sig ⟨S_, .i32⟩) main_call0.v0 id,
    StableHlo.TRef.unary main_call0.v0 main_call0.v1 (broadcastInDim S1048576 ![] bcast_S_S1048576),
    StableHlo.TRef.binary main_call0.v1 (.of main_v45 : StableHlo.TRef sig ⟨S1048576, .i32⟩) main_call0.v2 maxsi,
    StableHlo.TRef.unary (.of main_c_12 : StableHlo.TRef sig ⟨S_, .i32⟩) main_call0.v3 id,
    StableHlo.TRef.unary main_call0.v3 main_call0.v4 (broadcastInDim S1048576 ![] bcast_S_S1048576),
    StableHlo.TRef.binary main_call0.v4 main_call0.v2 main_call0.v5 minsi ]
theorem it1_1_sub : (it1_1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it1_1_fresh : (it1_1 : List (HloOp τ sig (Elt F))).Forall fun op => op.fresh = ∅ := by
  simp only [List.Forall]; repeat' constructor
theorem it1_1_keeps (a : Ref sig .tc) (ha : a = main_arg0 ∨ a = main_arg1 ∨ a = main_arg2 ∨ a = main_arg3 ∨ a = main_arg4) :
    (it1_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_2 : List (HloOp τ sig (Elt F)) :=
  [ StableHlo.nullary main_c_13 (constantI S_ 32 1#32),
    StableHlo.unary main_c_13 main_v47 (broadcastInDim S1048576 ![] bcast_S_S1048576 : (⟨S_, .i32⟩ : BufTy).Contents (Elt F) → (⟨S1048576, .i32⟩ : BufTy).Contents (Elt F)),
    StableHlo.binary main_v46 main_v47 main_v48 (addi : (⟨S1048576, .i32⟩ : BufTy).Contents (Elt F) → (⟨S1048576, .i32⟩ : BufTy).Contents (Elt F) → (⟨S1048576, .i32⟩ : BufTy).Contents (Elt F)),
    StableHlo.nullary main_c_14 (constantI S_ 32 0#32),
    StableHlo.nullary main_c_15 (constantI S_ 32 511#32) ]
theorem it1_2_sub : (it1_2 : List (HloOp τ sig (Elt F))).Forall fun op => op.bufs ⊆ tcRefs τ sig :=
  ⟨nullary_bufs_sub .., unary_bufs_sub .., binary_bufs_sub .., nullary_bufs_sub .., nullary_bufs_sub ..⟩
theorem it1_2_fresh : (it1_2 : List (HloOp τ sig (Elt F))).Forall fun op => op.fresh = ∅ := by
  simp only [List.Forall]; repeat' constructor
theorem it1_2_keeps (a : Ref sig .tc) (ha : a = main_arg0 ∨ a = main_arg1 ∨ a = main_arg2 ∨ a = main_arg3 ∨ a = main_arg4) :
    (it1_2 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_3 : List (HloOp τ sig (Elt F)) :=
  [ StableHlo.TRef.unary (.of main_c_14 : StableHlo.TRef sig ⟨S_, .i32⟩) main_call1.v0 id,
    StableHlo.TRef.unary main_call1.v0 main_call1.v1 (broadcastInDim S1048576 ![] bcast_S_S1048576),
    StableHlo.TRef.binary main_call1.v1 (.of main_v48 : StableHlo.TRef sig ⟨S1048576, .i32⟩) main_call1.v2 maxsi,
    StableHlo.TRef.unary (.of main_c_15 : StableHlo.TRef sig ⟨S_, .i32⟩) main_call1.v3 id,
    StableHlo.TRef.unary main_call1.v3 main_call1.v4 (broadcastInDim S1048576 ![] bcast_S_S1048576),
    StableHlo.TRef.binary main_call1.v4 main_call1.v2 main_call1.v5 minsi ]
theorem it1_3_sub : (it1_3 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it1_3_fresh : (it1_3 : List (HloOp τ sig (Elt F))).Forall fun op => op.fresh = ∅ := by
  simp only [List.Forall]; repeat' constructor
theorem it1_3_keeps (a : Ref sig .tc) (ha : a = main_arg0 ∨ a = main_arg1 ∨ a = main_arg2 ∨ a = main_arg3 ∨ a = main_arg4) :
    (it1_3 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_4 : List (HloOp τ sig (Elt F)) :=
  [ StableHlo.unary main_v42 main_v50 (fptosi 32 : (⟨S1048576, .f32⟩ : BufTy).Contents (Elt F) → (⟨S1048576, .i32⟩ : BufTy).Contents (Elt F)),
    StableHlo.nullary main_c_16 (constantI S_ 32 0#32),
    StableHlo.nullary main_c_17 (constantI S_ 32 511#32) ]
theorem it1_4_sub : (it1_4 : List (HloOp τ sig (Elt F))).Forall fun op => op.bufs ⊆ tcRefs τ sig :=
  ⟨unary_bufs_sub .., nullary_bufs_sub .., nullary_bufs_sub ..⟩
theorem it1_4_fresh : (it1_4 : List (HloOp τ sig (Elt F))).Forall fun op => op.fresh = ∅ := by
  simp only [List.Forall]; repeat' constructor
theorem it1_4_keeps (a : Ref sig .tc) (ha : a = main_arg0 ∨ a = main_arg1 ∨ a = main_arg2 ∨ a = main_arg3 ∨ a = main_arg4) :
    (it1_4 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_5 : List (HloOp τ sig (Elt F)) :=
  [ StableHlo.TRef.unary (.of main_c_16 : StableHlo.TRef sig ⟨S_, .i32⟩) main_call2.v0 id,
    StableHlo.TRef.unary main_call2.v0 main_call2.v1 (broadcastInDim S1048576 ![] bcast_S_S1048576),
    StableHlo.TRef.binary main_call2.v1 (.of main_v50 : StableHlo.TRef sig ⟨S1048576, .i32⟩) main_call2.v2 maxsi,
    StableHlo.TRef.unary (.of main_c_17 : StableHlo.TRef sig ⟨S_, .i32⟩) main_call2.v3 id,
    StableHlo.TRef.unary main_call2.v3 main_call2.v4 (broadcastInDim S1048576 ![] bcast_S_S1048576),
    StableHlo.TRef.binary main_call2.v4 main_call2.v2 main_call2.v5 minsi ]
theorem it1_5_sub : (it1_5 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it1_5_fresh : (it1_5 : List (HloOp τ sig (Elt F))).Forall fun op => op.fresh = ∅ := by
  simp only [List.Forall]; repeat' constructor
theorem it1_5_keeps (a : Ref sig .tc) (ha : a = main_arg0 ∨ a = main_arg1 ∨ a = main_arg2 ∨ a = main_arg3 ∨ a = main_arg4) :
    (it1_5 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_6 : List (HloOp τ sig (Elt F)) :=
  [ StableHlo.nullary main_c_18 (constantI S_ 32 1#32),
    StableHlo.unary main_c_18 main_v52 (broadcastInDim S1048576 ![] bcast_S_S1048576 : (⟨S_, .i32⟩ : BufTy).Contents (Elt F) → (⟨S1048576, .i32⟩ : BufTy).Contents (Elt F)),
    StableHlo.binary main_v51 main_v52 main_v53 (addi : (⟨S1048576, .i32⟩ : BufTy).Contents (Elt F) → (⟨S1048576, .i32⟩ : BufTy).Contents (Elt F) → (⟨S1048576, .i32⟩ : BufTy).Contents (Elt F)),
    StableHlo.nullary main_c_19 (constantI S_ 32 0#32),
    StableHlo.nullary main_c_20 (constantI S_ 32 511#32) ]
theorem it1_6_sub : (it1_6 : List (HloOp τ sig (Elt F))).Forall fun op => op.bufs ⊆ tcRefs τ sig :=
  ⟨nullary_bufs_sub .., unary_bufs_sub .., binary_bufs_sub .., nullary_bufs_sub .., nullary_bufs_sub ..⟩
theorem it1_6_fresh : (it1_6 : List (HloOp τ sig (Elt F))).Forall fun op => op.fresh = ∅ := by
  simp only [List.Forall]; repeat' constructor
theorem it1_6_keeps (a : Ref sig .tc) (ha : a = main_arg0 ∨ a = main_arg1 ∨ a = main_arg2 ∨ a = main_arg3 ∨ a = main_arg4) :
    (it1_6 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_7 : List (HloOp τ sig (Elt F)) :=
  [ StableHlo.TRef.unary (.of main_c_19 : StableHlo.TRef sig ⟨S_, .i32⟩) main_call3.v0 id,
    StableHlo.TRef.unary main_call3.v0 main_call3.v1 (broadcastInDim S1048576 ![] bcast_S_S1048576),
    StableHlo.TRef.binary main_call3.v1 (.of main_v53 : StableHlo.TRef sig ⟨S1048576, .i32⟩) main_call3.v2 maxsi,
    StableHlo.TRef.unary (.of main_c_20 : StableHlo.TRef sig ⟨S_, .i32⟩) main_call3.v3 id,
    StableHlo.TRef.unary main_call3.v3 main_call3.v4 (broadcastInDim S1048576 ![] bcast_S_S1048576),
    StableHlo.TRef.binary main_call3.v4 main_call3.v2 main_call3.v5 minsi ]
theorem it1_7_sub : (it1_7 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it1_7_fresh : (it1_7 : List (HloOp τ sig (Elt F))).Forall fun op => op.fresh = ∅ := by
  simp only [List.Forall]; repeat' constructor
theorem it1_7_keeps (a : Ref sig .tc) (ha : a = main_arg0 ∨ a = main_arg1 ∨ a = main_arg2 ∨ a = main_arg3 ∨ a = main_arg4) :
    (it1_7 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it1_8 : List (HloOp τ sig (Elt F)) :=
  [ StableHlo.nullary main_c_21 (constantI S_ 32 0#32),
    StableHlo.unary main_c_21 main_v55 (broadcastInDim S1048576 ![] bcast_S_S1048576 : (⟨S_, .i32⟩ : BufTy).Contents (Elt F) → (⟨S1048576, .i32⟩ : BufTy).Contents (Elt F)),
    StableHlo.binary main_v51 main_v55 main_v56 (cmpi .slt : (⟨S1048576, .i32⟩ : BufTy).Contents (Elt F) → (⟨S1048576, .i32⟩ : BufTy).Contents (Elt F) → (⟨S1048576, .i1⟩ : BufTy).Contents (Elt F)),
    StableHlo.nullary main_c_22 (constantI S_ 32 512#32),
    StableHlo.unary main_c_22 main_v57 (broadcastInDim S1048576 ![] bcast_S_S1048576 : (⟨S_, .i32⟩ : BufTy).Contents (Elt F) → (⟨S1048576, .i32⟩ : BufTy).Contents (Elt F)),
    StableHlo.binary main_v51 main_v57 main_v58 (addi : (⟨S1048576, .i32⟩ : BufTy).Contents (Elt F) → (⟨S1048576, .i32⟩ : BufTy).Contents (Elt F) → (⟨S1048576, .i32⟩ : BufTy).Contents (Elt F)),
    StableHlo.ternary main_v56 main_v58 main_v51 main_v59 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_23 (constantI S_ 32 0#32),
    StableHlo.unary main_c_23 main_v60 (broadcastInDim S1048576 ![] bcast_S_S1048576 : (⟨S_, .i32⟩ : BufTy).Contents (Elt F) → (⟨S1048576, .i32⟩ : BufTy).Contents (Elt F)),
    StableHlo.binary main_v46 main_v60 main_v61 (cmpi .slt : (⟨S1048576, .i32⟩ : BufTy).Contents (Elt F) → (⟨S1048576, .i32⟩ : BufTy).Contents (Elt F) → (⟨S1048576, .i1⟩ : BufTy).Contents (Elt F)),
    StableHlo.nullary main_c_24 (constantI S_ 32 512#32),
    StableHlo.unary main_c_24 main_v62 (broadcastInDim S1048576 ![] bcast_S_S1048576 : (⟨S_, .i32⟩ : BufTy).Contents (Elt F) → (⟨S1048576, .i32⟩ : BufTy).Contents (Elt F)),
    StableHlo.binary main_v46 main_v62 main_v63 (addi : (⟨S1048576, .i32⟩ : BufTy).Contents (Elt F) → (⟨S1048576, .i32⟩ : BufTy).Contents (Elt F) → (⟨S1048576, .i32⟩ : BufTy).Contents (Elt F)),
    StableHlo.ternary main_v61 main_v63 main_v46 main_v64 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v59 main_v65 (broadcastInDim S1048576x1 ![0] bcast_S1048576_S1048576x1_0 : (⟨S1048576, .i32⟩ : BufTy).Contents (Elt F) → (⟨S1048576x1, .i32⟩ : BufTy).Contents (Elt F)),
    StableHlo.unary main_v64 main_v66 (broadcastInDim S1048576x1 ![0] bcast_S1048576_S1048576x1_0 : (⟨S1048576, .i32⟩ : BufTy).Contents (Elt F) → (⟨S1048576x1, .i32⟩ : BufTy).Contents (Elt F)),
    StableHlo.binary main_v65 main_v66 main_v67 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v67 main_v68 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_25 (constantI S_ 32 0#32),
    StableHlo.unary main_c_25 main_v69 (broadcastInDim S1048576 ![] bcast_S_S1048576 : (⟨S_, .i32⟩ : BufTy).Contents (Elt F) → (⟨S1048576, .i32⟩ : BufTy).Contents (Elt F)),
    StableHlo.binary main_v51 main_v69 main_v70 (cmpi .slt : (⟨S1048576, .i32⟩ : BufTy).Contents (Elt F) → (⟨S1048576, .i32⟩ : BufTy).Contents (Elt F) → (⟨S1048576, .i1⟩ : BufTy).Contents (Elt F)),
    StableHlo.nullary main_c_26 (constantI S_ 32 512#32),
    StableHlo.unary main_c_26 main_v71 (broadcastInDim S1048576 ![] bcast_S_S1048576 : (⟨S_, .i32⟩ : BufTy).Contents (Elt F) → (⟨S1048576, .i32⟩ : BufTy).Contents (Elt F)),
    StableHlo.binary main_v51 main_v71 main_v72 (addi : (⟨S1048576, .i32⟩ : BufTy).Contents (Elt F) → (⟨S1048576, .i32⟩ : BufTy).Contents (Elt F) → (⟨S1048576, .i32⟩ : BufTy).Contents (Elt F)),
    StableHlo.ternary main_v70 main_v72 main_v51 main_v73 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_27 (constantI S_ 32 0#32),
    StableHlo.unary main_c_27 main_v74 (broadcastInDim S1048576 ![] bcast_S_S1048576 : (⟨S_, .i32⟩ : BufTy).Contents (Elt F) → (⟨S1048576, .i32⟩ : BufTy).Contents (Elt F)),
    StableHlo.binary main_v49 main_v74 main_v75 (cmpi .slt : (⟨S1048576, .i32⟩ : BufTy).Contents (Elt F) → (⟨S1048576, .i32⟩ : BufTy).Contents (Elt F) → (⟨S1048576, .i1⟩ : BufTy).Contents (Elt F)),
    StableHlo.nullary main_c_28 (constantI S_ 32 512#32),
    StableHlo.unary main_c_28 main_v76 (broadcastInDim S1048576 ![] bcast_S_S1048576 : (⟨S_, .i32⟩ : BufTy).Contents (Elt F) → (⟨S1048576, .i32⟩ : BufTy).Contents (Elt F)),
    StableHlo.binary main_v49 main_v76 main_v77 (addi : (⟨S1048576, .i32⟩ : BufTy).Contents (Elt F) → (⟨S1048576, .i32⟩ : BufTy).Contents (Elt F) → (⟨S1048576, .i32⟩ : BufTy).Contents (Elt F)),
    StableHlo.ternary main_v75 main_v77 main_v49 main_v78 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v73 main_v79 (broadcastInDim S1048576x1 ![0] bcast_S1048576_S1048576x1_0 : (⟨S1048576, .i32⟩ : BufTy).Contents (Elt F) → (⟨S1048576x1, .i32⟩ : BufTy).Contents (Elt F)),
    StableHlo.unary main_v78 main_v80 (broadcastInDim S1048576x1 ![0] bcast_S1048576_S1048576x1_0 : (⟨S1048576, .i32⟩ : BufTy).Contents (Elt F) → (⟨S1048576x1, .i32⟩ : BufTy).Contents (Elt F)),
    StableHlo.binary main_v79 main_v80 main_v81 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v81 main_v82 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_29 (constantI S_ 32 0#32),
    StableHlo.unary main_c_29 main_v83 (broadcastInDim S1048576 ![] bcast_S_S1048576 : (⟨S_, .i32⟩ : BufTy).Contents (Elt F) → (⟨S1048576, .i32⟩ : BufTy).Contents (Elt F)),
    StableHlo.binary main_v54 main_v83 main_v84 (cmpi .slt : (⟨S1048576, .i32⟩ : BufTy).Contents (Elt F) → (⟨S1048576, .i32⟩ : BufTy).Contents (Elt F) → (⟨S1048576, .i1⟩ : BufTy).Contents (Elt F)),
    StableHlo.nullary main_c_30 (constantI S_ 32 512#32),
    StableHlo.unary main_c_30 main_v85 (broadcastInDim S1048576 ![] bcast_S_S1048576 : (⟨S_, .i32⟩ : BufTy).Contents (Elt F) → (⟨S1048576, .i32⟩ : BufTy).Contents (Elt F)),
    StableHlo.binary main_v54 main_v85 main_v86 (addi : (⟨S1048576, .i32⟩ : BufTy).Contents (Elt F) → (⟨S1048576, .i32⟩ : BufTy).Contents (Elt F) → (⟨S1048576, .i32⟩ : BufTy).Contents (Elt F)) ]
theorem it1_8_sub : (it1_8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub ..⟩
theorem it1_8_fresh : (it1_8 : List (HloOp τ sig (Elt F))).Forall fun op => op.fresh = ∅ := by
  simp only [List.Forall]; repeat' constructor
theorem it1_8_keeps (a : Ref sig .tc) (ha : a = main_arg0 ∨ a = main_arg1 ∨ a = main_arg2 ∨ a = main_arg3 ∨ a = main_arg4) :
    (it1_8 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part1_chain (c : Dev nD) : main_part1 (F := F) c = (Pipeline.chainK
  [ seq it1_0,
    seq it1_1,
    seq it1_2,
    seq it1_3,
    seq it1_4,
    seq it1_5,
    seq it1_6,
    seq it1_7 ]
  (seq it1_8) : Prog (TpuEff nD τ sig (Elt F) (Pipeline.Sig Λ₀ (Fin 0) fun p => (pcfgs (F := F) p).Adm) .tc) PUnit) := by
  chain_rfl

end Cert.ReferenceIdeal.RefRun

end
-- ==== Proof.RefOps2.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it2_0 : List (HloOp τ sig (Elt F)) :=
  [ StableHlo.ternary main_v84 main_v86 main_v54 main_v87 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_31 (constantI S_ 32 0#32),
    StableHlo.unary main_c_31 main_v88 (broadcastInDim S1048576 ![] bcast_S_S1048576 : (⟨S_, .i32⟩ : BufTy).Contents (Elt F) → (⟨S1048576, .i32⟩ : BufTy).Contents (Elt F)),
    StableHlo.binary main_v46 main_v88 main_v89 (cmpi .slt : (⟨S1048576, .i32⟩ : BufTy).Contents (Elt F) → (⟨S1048576, .i32⟩ : BufTy).Contents (Elt F) → (⟨S1048576, .i1⟩ : BufTy).Contents (Elt F)),
    StableHlo.nullary main_c_32 (constantI S_ 32 512#32),
    StableHlo.unary main_c_32 main_v90 (broadcastInDim S1048576 ![] bcast_S_S1048576 : (⟨S_, .i32⟩ : BufTy).Contents (Elt F) → (⟨S1048576, .i32⟩ : BufTy).Contents (Elt F)),
    StableHlo.binary main_v46 main_v90 main_v91 (addi : (⟨S1048576, .i32⟩ : BufTy).Contents (Elt F) → (⟨S1048576, .i32⟩ : BufTy).Contents (Elt F) → (⟨S1048576, .i32⟩ : BufTy).Contents (Elt F)),
    StableHlo.ternary main_v89 main_v91 main_v46 main_v92 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v87 main_v93 (broadcastInDim S1048576x1 ![0] bcast_S1048576_S1048576x1_0 : (⟨S1048576, .i32⟩ : BufTy).Contents (Elt F) → (⟨S1048576x1, .i32⟩ : BufTy).Contents (Elt F)),
    StableHlo.unary main_v92 main_v94 (broadcastInDim S1048576x1 ![0] bcast_S1048576_S1048576x1_0 : (⟨S1048576, .i32⟩ : BufTy).Contents (Elt F) → (⟨S1048576x1, .i32⟩ : BufTy).Contents (Elt F)),
    StableHlo.binary main_v93 main_v94 main_v95 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v95 main_v96 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_33 (constantI S_ 32 0#32),
    StableHlo.unary main_c_33 main_v97 (broadcastInDim S1048576 ![] bcast_S_S1048576 : (⟨S_, .i32⟩ : BufTy).Contents (Elt F) → (⟨S1048576, .i32⟩ : BufTy).Contents (Elt F)),
    StableHlo.binary main_v54 main_v97 main_v98 (cmpi .slt : (⟨S1048576, .i32⟩ : BufTy).Contents (Elt F) → (⟨S1048576, .i32⟩ : BufTy).Contents (Elt F) → (⟨S1048576, .i1⟩ : BufTy).Contents (Elt F)),
    StableHlo.nullary main_c_34 (constantI S_ 32 512#32),
    StableHlo.unary main_c_34 main_v99 (broadcastInDim S1048576 ![] bcast_S_S1048576 : (⟨S_, .i32⟩ : BufTy).Contents (Elt F) → (⟨S1048576, .i32⟩ : BufTy).Contents (Elt F)),
    StableHlo.binary main_v54 main_v99 main_v100 (addi : (⟨S1048576, .i32⟩ : BufTy).Contents (Elt F) → (⟨S1048576, .i32⟩ : BufTy).Contents (Elt F) → (⟨S1048576, .i32⟩ : BufTy).Contents (Elt F)),
    StableHlo.ternary main_v98 main_v100 main_v54 main_v101 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_35 (constantI S_ 32 0#32),
    StableHlo.unary main_c_35 main_v102 (broadcastInDim S1048576 ![] bcast_S_S1048576 : (⟨S_, .i32⟩ : BufTy).Contents (Elt F) → (⟨S1048576, .i32⟩ : BufTy).Contents (Elt F)),
    StableHlo.binary main_v49 main_v102 main_v103 (cmpi .slt : (⟨S1048576, .i32⟩ : BufTy).Contents (Elt F) → (⟨S1048576, .i32⟩ : BufTy).Contents (Elt F) → (⟨S1048576, .i1⟩ : BufTy).Contents (Elt F)),
    StableHlo.nullary main_c_36 (constantI S_ 32 512#32),
    StableHlo.unary main_c_36 main_v104 (broadcastInDim S1048576 ![] bcast_S_S1048576 : (⟨S_, .i32⟩ : BufTy).Contents (Elt F) → (⟨S1048576, .i32⟩ : BufTy).Contents (Elt F)),
    StableHlo.binary main_v49 main_v104 main_v105 (addi : (⟨S1048576, .i32⟩ : BufTy).Contents (Elt F) → (⟨S1048576, .i32⟩ : BufTy).Contents (Elt F) → (⟨S1048576, .i32⟩ : BufTy).Contents (Elt F)),
    StableHlo.ternary main_v103 main_v105 main_v49 main_v106 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v101 main_v107 (broadcastInDim S1048576x1 ![0] bcast_S1048576_S1048576x1_0 : (⟨S1048576, .i32⟩ : BufTy).Contents (Elt F) → (⟨S1048576x1, .i32⟩ : BufTy).Contents (Elt F)),
    StableHlo.unary main_v106 main_v108 (broadcastInDim S1048576x1 ![0] bcast_S1048576_S1048576x1_0 : (⟨S1048576, .i32⟩ : BufTy).Contents (Elt F) → (⟨S1048576x1, .i32⟩ : BufTy).Contents (Elt F)),
    StableHlo.binary main_v107 main_v108 main_v109 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg1 main_v109 main_v110 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_cst_37 (constant S_ .f32 0x3F800000#32),
    StableHlo.unary main_cst_37 main_v111 (broadcastInDim S1048576 ![] bcast_S_S1048576 : (⟨S_, .f32⟩ : BufTy).Contents (Elt F) → (⟨S1048576, .f32⟩ : BufTy).Contents (Elt F)),
    StableHlo.binary main_v111 main_v43 main_v112 (subf : (⟨S1048576, .f32⟩ : BufTy).Contents (Elt F) → (⟨S1048576, .f32⟩ : BufTy).Contents (Elt F) → (⟨S1048576, .f32⟩ : BufTy).Contents (Elt F)),
    StableHlo.unary main_v112 main_v113 (broadcastInDim S1x1048576 ![1] bcast_S1048576_S1x1048576_1 : (⟨S1048576, .f32⟩ : BufTy).Contents (Elt F) → (⟨S1x1048576, .f32⟩ : BufTy).Contents (Elt F)),
    StableHlo.unary main_v113 main_v114 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v68 main_v114 main_v115 (mulf : (⟨S32x1048576, .f32⟩ : BufTy).Contents (Elt F) → (⟨S32x1048576, .f32⟩ : BufTy).Contents (Elt F) → (⟨S32x1048576, .f32⟩ : BufTy).Contents (Elt F)),
    StableHlo.nullary main_cst_38 (constant S_ .f32 0x3F800000#32),
    StableHlo.unary main_cst_38 main_v116 (broadcastInDim S1048576 ![] bcast_S_S1048576 : (⟨S_, .f32⟩ : BufTy).Contents (Elt F) → (⟨S1048576, .f32⟩ : BufTy).Contents (Elt F)),
    StableHlo.binary main_v116 main_v44 main_v117 (subf : (⟨S1048576, .f32⟩ : BufTy).Contents (Elt F) → (⟨S1048576, .f32⟩ : BufTy).Contents (Elt F) → (⟨S1048576, .f32⟩ : BufTy).Contents (Elt F)),
    StableHlo.unary main_v117 main_v118 (broadcastInDim S1x1048576 ![1] bcast_S1048576_S1x1048576_1 : (⟨S1048576, .f32⟩ : BufTy).Contents (Elt F) → (⟨S1x1048576, .f32⟩ : BufTy).Contents (Elt F)),
    StableHlo.unary main_v118 main_v119 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v115 main_v119 main_v120 (mulf : (⟨S32x1048576, .f32⟩ : BufTy).Contents (Elt F) → (⟨S32x1048576, .f32⟩ : BufTy).Contents (Elt F) → (⟨S32x1048576, .f32⟩ : BufTy).Contents (Elt F)),
    StableHlo.unary main_v43 main_v121 (broadcastInDim S1x1048576 ![1] bcast_S1048576_S1x1048576_1 : (⟨S1048576, .f32⟩ : BufTy).Contents (Elt F) → (⟨S1x1048576, .f32⟩ : BufTy).Contents (Elt F)),
    StableHlo.unary main_v121 main_v122 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v82 main_v122 main_v123 (mulf : (⟨S32x1048576, .f32⟩ : BufTy).Contents (Elt F) → (⟨S32x1048576, .f32⟩ : BufTy).Contents (Elt F) → (⟨S32x1048576, .f32⟩ : BufTy).Contents (Elt F)),
    StableHlo.nullary main_cst_39 (constant S_ .f32 0x3F800000#32),
    StableHlo.unary main_cst_39 main_v124 (broadcastInDim S1048576 ![] bcast_S_S1048576 : (⟨S_, .f32⟩ : BufTy).Contents (Elt F) → (⟨S1048576, .f32⟩ : BufTy).Contents (Elt F)),
    StableHlo.binary main_v124 main_v44 main_v125 (subf : (⟨S1048576, .f32⟩ : BufTy).Contents (Elt F) → (⟨S1048576, .f32⟩ : BufTy).Contents (Elt F) → (⟨S1048576, .f32⟩ : BufTy).Contents (Elt F)),
    StableHlo.unary main_v125 main_v126 (broadcastInDim S1x1048576 ![1] bcast_S1048576_S1x1048576_1 : (⟨S1048576, .f32⟩ : BufTy).Contents (Elt F) → (⟨S1x1048576, .f32⟩ : BufTy).Contents (Elt F)),
    StableHlo.unary main_v126 main_v127 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v123 main_v127 main_v128 (mulf : (⟨S32x1048576, .f32⟩ : BufTy).Contents (Elt F) → (⟨S32x1048576, .f32⟩ : BufTy).Contents (Elt F) → (⟨S32x1048576, .f32⟩ : BufTy).Contents (Elt F)),
    StableHlo.binary main_v120 main_v128 main_v129 (addf : (⟨S32x1048576, .f32⟩ : BufTy).Contents (Elt F) → (⟨S32x1048576, .f32⟩ : BufTy).Contents (Elt F) → (⟨S32x1048576, .f32⟩ : BufTy).Contents (Elt F)),
    StableHlo.nullary main_cst_40 (constant S_ .f32 0x3F800000#32),
    StableHlo.unary main_cst_40 main_v130 (broadcastInDim S1048576 ![] bcast_S_S1048576 : (⟨S_, .f32⟩ : BufTy).Contents (Elt F) → (⟨S1048576, .f32⟩ : BufTy).Contents (Elt F)),
    StableHlo.binary main_v130 main_v43 main_v131 (subf : (⟨S1048576, .f32⟩ : BufTy).Contents (Elt F) → (⟨S1048576, .f32⟩ : BufTy).Contents (Elt F) → (⟨S1048576, .f32⟩ : BufTy).Contents (Elt F)),
    StableHlo.unary main_v131 main_v132 (broadcastInDim S1x1048576 ![1] bcast_S1048576_S1x1048576_1 : (⟨S1048576, .f32⟩ : BufTy).Contents (Elt F) → (⟨S1x1048576, .f32⟩ : BufTy).Contents (Elt F)),
    StableHlo.unary main_v132 main_v133 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v96 main_v133 main_v134 (mulf : (⟨S32x1048576, .f32⟩ : BufTy).Contents (Elt F) → (⟨S32x1048576, .f32⟩ : BufTy).Contents (Elt F) → (⟨S32x1048576, .f32⟩ : BufTy).Contents (Elt F)),
    StableHlo.unary main_v44 main_v135 (broadcastInDim S1x1048576 ![1] bcast_S1048576_S1x1048576_1 : (⟨S1048576, .f32⟩ : BufTy).Contents (Elt F) → (⟨S1x1048576, .f32⟩ : BufTy).Contents (Elt F)),
    StableHlo.unary main_v135 main_v136 (broadcastInDim S32x1048576 ![0, 1] bcast_S1x1048576_S32x1048576_0_1 : (⟨S1x1048576, .f32⟩ : BufTy).Contents (Elt F) → (⟨S32x1048576, .f32⟩ : BufTy).Contents (Elt F)) ]
theorem it2_0_sub : (it2_0 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub ..⟩
theorem it2_0_fresh : (it2_0 : List (HloOp τ sig (Elt F))).Forall fun op => op.fresh = ∅ := by
  simp only [List.Forall]; repeat' constructor
theorem it2_0_keeps (a : Ref sig .tc) (ha : a = main_arg0 ∨ a = main_arg1 ∨ a = main_arg2 ∨ a = main_arg3 ∨ a = main_arg4) :
    (it2_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part2_chain (c : Dev nD) : main_part2 (F := F) c = (Pipeline.chainK
  [  ]
  (seq it2_0) : Prog (TpuEff nD τ sig (Elt F) (Pipeline.Sig Λ₀ (Fin 0) fun p => (pcfgs (F := F) p).Adm) .tc) PUnit) := by
  chain_rfl

end Cert.ReferenceIdeal.RefRun

end
-- ==== Proof.RefOps3.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it3_0 : List (HloOp τ sig (Elt F)) :=
  [ StableHlo.binary main_v134 main_v136 main_v137 (mulf : (⟨S32x1048576, .f32⟩ : BufTy).Contents (Elt F) → (⟨S32x1048576, .f32⟩ : BufTy).Contents (Elt F) → (⟨S32x1048576, .f32⟩ : BufTy).Contents (Elt F)),
    StableHlo.binary main_v129 main_v137 main_v138 (addf : (⟨S32x1048576, .f32⟩ : BufTy).Contents (Elt F) → (⟨S32x1048576, .f32⟩ : BufTy).Contents (Elt F) → (⟨S32x1048576, .f32⟩ : BufTy).Contents (Elt F)),
    StableHlo.unary main_v43 main_v139 (broadcastInDim S1x1048576 ![1] bcast_S1048576_S1x1048576_1 : (⟨S1048576, .f32⟩ : BufTy).Contents (Elt F) → (⟨S1x1048576, .f32⟩ : BufTy).Contents (Elt F)),
    StableHlo.unary main_v139 main_v140 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v110 main_v140 main_v141 (mulf : (⟨S32x1048576, .f32⟩ : BufTy).Contents (Elt F) → (⟨S32x1048576, .f32⟩ : BufTy).Contents (Elt F) → (⟨S32x1048576, .f32⟩ : BufTy).Contents (Elt F)),
    StableHlo.unary main_v44 main_v142 (broadcastInDim S1x1048576 ![1] bcast_S1048576_S1x1048576_1 : (⟨S1048576, .f32⟩ : BufTy).Contents (Elt F) → (⟨S1x1048576, .f32⟩ : BufTy).Contents (Elt F)),
    StableHlo.unary main_v142 main_v143 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v141 main_v143 main_v144 (mulf : (⟨S32x1048576, .f32⟩ : BufTy).Contents (Elt F) → (⟨S32x1048576, .f32⟩ : BufTy).Contents (Elt F) → (⟨S32x1048576, .f32⟩ : BufTy).Contents (Elt F)),
    StableHlo.binary main_v138 main_v144 main_v145 (addf : (⟨S32x1048576, .f32⟩ : BufTy).Contents (Elt F) → (⟨S32x1048576, .f32⟩ : BufTy).Contents (Elt F) → (⟨S32x1048576, .f32⟩ : BufTy).Contents (Elt F)),
    StableHlo.unary main_v145 main_v146 ((transpose S1048576x32 [1, 0] · transposes_S32x1048576_S1048576x32_1_0) : (⟨S32x1048576, .f32⟩ : BufTy).Contents (Elt F) → (⟨S1048576x32, .f32⟩ : BufTy).Contents (Elt F)) ]
theorem it3_0_sub : (it3_0 : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., binary_bufs_sub .., binary_bufs_sub .., unary_bufs_sub ..⟩
theorem it3_0_fresh : (it3_0 : List (HloOp τ sig (Elt F))).Forall fun op => op.fresh = ∅ := by
  simp only [List.Forall]; repeat' constructor
theorem it3_0_keeps (a : Ref sig .tc) (ha : a = main_arg0 ∨ a = main_arg1 ∨ a = main_arg2 ∨ a = main_arg3 ∨ a = main_arg4) :
    (it3_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_1 : List (HloOp τ sig (Elt F)) :=
  [ StableHlo.nullary main_c_41 (constantI S_ 32 0#32),
    StableHlo.unary main_c_41 main_v147 (broadcastInDim S2 ![] bcast_S_S2 : (⟨S_, .i32⟩ : BufTy).Contents (Elt F) → (⟨S2, .i32⟩ : BufTy).Contents (Elt F)),
    StableHlo.binary main_c_0 main_v147 main_v148 (cmpi .slt : (⟨S2, .i32⟩ : BufTy).Contents (Elt F) → (⟨S2, .i32⟩ : BufTy).Contents (Elt F) → (⟨S2, .i1⟩ : BufTy).Contents (Elt F)),
    StableHlo.nullary main_c_42 (constantI S_ 32 3#32),
    StableHlo.unary main_c_42 main_v149 (broadcastInDim S2 ![] bcast_S_S2 : (⟨S_, .i32⟩ : BufTy).Contents (Elt F) → (⟨S2, .i32⟩ : BufTy).Contents (Elt F)),
    StableHlo.binary main_c_0 main_v149 main_v150 (addi : (⟨S2, .i32⟩ : BufTy).Contents (Elt F) → (⟨S2, .i32⟩ : BufTy).Contents (Elt F) → (⟨S2, .i32⟩ : BufTy).Contents (Elt F)),
    StableHlo.ternary main_v148 main_v150 main_c_0 main_v151 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v151 main_v152 (broadcastInDim S2x1 ![0] bcast_S2_S2x1_0 : (⟨S2, .i32⟩ : BufTy).Contents (Elt F) → (⟨S2x1, .i32⟩ : BufTy).Contents (Elt F)),
    StableHlo.binary main_v17 main_v152 main_v153 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)) ]
theorem it3_1_sub : (it3_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem it3_1_fresh : (it3_1 : List (HloOp τ sig (Elt F))).Forall fun op => op.fresh = ∅ := by
  simp only [List.Forall]; repeat' constructor
theorem it3_1_keeps (a : Ref sig .tc) (ha : a = main_arg0 ∨ a = main_arg1 ∨ a = main_arg2 ∨ a = main_arg3 ∨ a = main_arg4) :
    (it3_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_2 : List (HloOp τ sig (Elt F)) :=
  [ StableHlo.unary main_v153 main_v154 ((extractStridedSlice S1048576x1 ![0, 0] · slices_S1048576x2_S1048576x1_0_0) : (⟨S1048576x2, .f32⟩ : BufTy).Contents (Elt F) → (⟨S1048576x1, .f32⟩ : BufTy).Contents (Elt F)),
    StableHlo.reshape main_v154 main_v155 rfl shapeCasts_S1048576x1_S1048576,
    StableHlo.nullary main_cst_43 (constant S_ .f32 0x3F800000#32),
    StableHlo.unary main_cst_43 main_v156 (broadcastInDim S1048576 ![] bcast_S_S1048576 : (⟨S_, .f32⟩ : BufTy).Contents (Elt F) → (⟨S1048576, .f32⟩ : BufTy).Contents (Elt F)),
    StableHlo.binary main_v155 main_v156 main_v157 (addf : (⟨S1048576, .f32⟩ : BufTy).Contents (Elt F) → (⟨S1048576, .f32⟩ : BufTy).Contents (Elt F) → (⟨S1048576, .f32⟩ : BufTy).Contents (Elt F)),
    StableHlo.nullary main_cst_44 (constant S_ .f32 0x3F000000#32),
    StableHlo.unary main_cst_44 main_v158 (broadcastInDim S1048576 ![] bcast_S_S1048576 : (⟨S_, .f32⟩ : BufTy).Contents (Elt F) → (⟨S1048576, .f32⟩ : BufTy).Contents (Elt F)),
    StableHlo.binary main_v157 main_v158 main_v159 (mulf : (⟨S1048576, .f32⟩ : BufTy).Contents (Elt F) → (⟨S1048576, .f32⟩ : BufTy).Contents (Elt F) → (⟨S1048576, .f32⟩ : BufTy).Contents (Elt F)),
    StableHlo.nullary main_cst_45 (constant S_ .f32 0x43FF8000#32),
    StableHlo.unary main_cst_45 main_v160 (broadcastInDim S1048576 ![] bcast_S_S1048576 : (⟨S_, .f32⟩ : BufTy).Contents (Elt F) → (⟨S1048576, .f32⟩ : BufTy).Contents (Elt F)),
    StableHlo.binary main_v159 main_v160 main_v161 (mulf : (⟨S1048576, .f32⟩ : BufTy).Contents (Elt F) → (⟨S1048576, .f32⟩ : BufTy).Contents (Elt F) → (⟨S1048576, .f32⟩ : BufTy).Contents (Elt F)),
    StableHlo.unary main_v153 main_v162 ((extractStridedSlice S1048576x1 ![0, 1] · slices_S1048576x2_S1048576x1_0_1) : (⟨S1048576x2, .f32⟩ : BufTy).Contents (Elt F) → (⟨S1048576x1, .f32⟩ : BufTy).Contents (Elt F)),
    StableHlo.reshape main_v162 main_v163 rfl shapeCasts_S1048576x1_S1048576,
    StableHlo.nullary main_cst_46 (constant S_ .f32 0x3F800000#32),
    StableHlo.unary main_cst_46 main_v164 (broadcastInDim S1048576 ![] bcast_S_S1048576 : (⟨S_, .f32⟩ : BufTy).Contents (Elt F) → (⟨S1048576, .f32⟩ : BufTy).Contents (Elt F)),
    StableHlo.binary main_v163 main_v164 main_v165 (addf : (⟨S1048576, .f32⟩ : BufTy).Contents (Elt F) → (⟨S1048576, .f32⟩ : BufTy).Contents (Elt F) → (⟨S1048576, .f32⟩ : BufTy).Contents (Elt F)),
    StableHlo.nullary main_cst_47 (constant S_ .f32 0x3F000000#32),
    StableHlo.unary main_cst_47 main_v166 (broadcastInDim S1048576 ![] bcast_S_S1048576 : (⟨S_, .f32⟩ : BufTy).Contents (Elt F) → (⟨S1048576, .f32⟩ : BufTy).Contents (Elt F)),
    StableHlo.binary main_v165 main_v166 main_v167 (mulf : (⟨S1048576, .f32⟩ : BufTy).Contents (Elt F) → (⟨S1048576, .f32⟩ : BufTy).Contents (Elt F) → (⟨S1048576, .f32⟩ : BufTy).Contents (Elt F)),
    StableHlo.nullary main_cst_48 (constant S_ .f32 0x43FF8000#32),
    StableHlo.unary main_cst_48 main_v168 (broadcastInDim S1048576 ![] bcast_S_S1048576 : (⟨S_, .f32⟩ : BufTy).Contents (Elt F) → (⟨S1048576, .f32⟩ : BufTy).Contents (Elt F)),
    StableHlo.binary main_v167 main_v168 main_v169 (mulf : (⟨S1048576, .f32⟩ : BufTy).Contents (Elt F) → (⟨S1048576, .f32⟩ : BufTy).Contents (Elt F) → (⟨S1048576, .f32⟩ : BufTy).Contents (Elt F)),
    StableHlo.unary main_v161 main_v170 (Host.floor : (⟨S1048576, .f32⟩ : BufTy).Contents (Elt F) → (⟨S1048576, .f32⟩ : BufTy).Contents (Elt F)),
    StableHlo.unary main_v169 main_v171 (Host.floor : (⟨S1048576, .f32⟩ : BufTy).Contents (Elt F) → (⟨S1048576, .f32⟩ : BufTy).Contents (Elt F)),
    StableHlo.binary main_v161 main_v170 main_v172 (subf : (⟨S1048576, .f32⟩ : BufTy).Contents (Elt F) → (⟨S1048576, .f32⟩ : BufTy).Contents (Elt F) → (⟨S1048576, .f32⟩ : BufTy).Contents (Elt F)),
    StableHlo.binary main_v169 main_v171 main_v173 (subf : (⟨S1048576, .f32⟩ : BufTy).Contents (Elt F) → (⟨S1048576, .f32⟩ : BufTy).Contents (Elt F) → (⟨S1048576, .f32⟩ : BufTy).Contents (Elt F)),
    StableHlo.unary main_v170 main_v174 (fptosi 32 : (⟨S1048576, .f32⟩ : BufTy).Contents (Elt F) → (⟨S1048576, .i32⟩ : BufTy).Contents (Elt F)),
    StableHlo.nullary main_c_49 (constantI S_ 32 0#32),
    StableHlo.nullary main_c_50 (constantI S_ 32 511#32) ]
theorem it3_2_sub : (it3_2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub ..⟩
theorem it3_2_fresh : (it3_2 : List (HloOp τ sig (Elt F))).Forall fun op => op.fresh = ∅ := by
  simp only [List.Forall]; repeat' constructor
theorem it3_2_keeps (a : Ref sig .tc) (ha : a = main_arg0 ∨ a = main_arg1 ∨ a = main_arg2 ∨ a = main_arg3 ∨ a = main_arg4) :
    (it3_2 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_3 : List (HloOp τ sig (Elt F)) :=
  [ StableHlo.TRef.unary (.of main_c_49 : StableHlo.TRef sig ⟨S_, .i32⟩) main_call4.v0 id,
    StableHlo.TRef.unary main_call4.v0 main_call4.v1 (broadcastInDim S1048576 ![] bcast_S_S1048576),
    StableHlo.TRef.binary main_call4.v1 (.of main_v174 : StableHlo.TRef sig ⟨S1048576, .i32⟩) main_call4.v2 maxsi,
    StableHlo.TRef.unary (.of main_c_50 : StableHlo.TRef sig ⟨S_, .i32⟩) main_call4.v3 id,
    StableHlo.TRef.unary main_call4.v3 main_call4.v4 (broadcastInDim S1048576 ![] bcast_S_S1048576),
    StableHlo.TRef.binary main_call4.v4 main_call4.v2 main_call4.v5 minsi ]
theorem it3_3_sub : (it3_3 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it3_3_fresh : (it3_3 : List (HloOp τ sig (Elt F))).Forall fun op => op.fresh = ∅ := by
  simp only [List.Forall]; repeat' constructor
theorem it3_3_keeps (a : Ref sig .tc) (ha : a = main_arg0 ∨ a = main_arg1 ∨ a = main_arg2 ∨ a = main_arg3 ∨ a = main_arg4) :
    (it3_3 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_4 : List (HloOp τ sig (Elt F)) :=
  [ StableHlo.nullary main_c_51 (constantI S_ 32 1#32),
    StableHlo.unary main_c_51 main_v176 (broadcastInDim S1048576 ![] bcast_S_S1048576 : (⟨S_, .i32⟩ : BufTy).Contents (Elt F) → (⟨S1048576, .i32⟩ : BufTy).Contents (Elt F)),
    StableHlo.binary main_v175 main_v176 main_v177 (addi : (⟨S1048576, .i32⟩ : BufTy).Contents (Elt F) → (⟨S1048576, .i32⟩ : BufTy).Contents (Elt F) → (⟨S1048576, .i32⟩ : BufTy).Contents (Elt F)),
    StableHlo.nullary main_c_52 (constantI S_ 32 0#32),
    StableHlo.nullary main_c_53 (constantI S_ 32 511#32) ]
theorem it3_4_sub : (it3_4 : List (HloOp τ sig (Elt F))).Forall fun op => op.bufs ⊆ tcRefs τ sig :=
  ⟨nullary_bufs_sub .., unary_bufs_sub .., binary_bufs_sub .., nullary_bufs_sub .., nullary_bufs_sub ..⟩
theorem it3_4_fresh : (it3_4 : List (HloOp τ sig (Elt F))).Forall fun op => op.fresh = ∅ := by
  simp only [List.Forall]; repeat' constructor
theorem it3_4_keeps (a : Ref sig .tc) (ha : a = main_arg0 ∨ a = main_arg1 ∨ a = main_arg2 ∨ a = main_arg3 ∨ a = main_arg4) :
    (it3_4 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_5 : List (HloOp τ sig (Elt F)) :=
  [ StableHlo.TRef.unary (.of main_c_52 : StableHlo.TRef sig ⟨S_, .i32⟩) main_call5.v0 id,
    StableHlo.TRef.unary main_call5.v0 main_call5.v1 (broadcastInDim S1048576 ![] bcast_S_S1048576),
    StableHlo.TRef.binary main_call5.v1 (.of main_v177 : StableHlo.TRef sig ⟨S1048576, .i32⟩) main_call5.v2 maxsi,
    StableHlo.TRef.unary (.of main_c_53 : StableHlo.TRef sig ⟨S_, .i32⟩) main_call5.v3 id,
    StableHlo.TRef.unary main_call5.v3 main_call5.v4 (broadcastInDim S1048576 ![] bcast_S_S1048576),
    StableHlo.TRef.binary main_call5.v4 main_call5.v2 main_call5.v5 minsi ]
theorem it3_5_sub : (it3_5 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it3_5_fresh : (it3_5 : List (HloOp τ sig (Elt F))).Forall fun op => op.fresh = ∅ := by
  simp only [List.Forall]; repeat' constructor
theorem it3_5_keeps (a : Ref sig .tc) (ha : a = main_arg0 ∨ a = main_arg1 ∨ a = main_arg2 ∨ a = main_arg3 ∨ a = main_arg4) :
    (it3_5 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_6 : List (HloOp τ sig (Elt F)) :=
  [ StableHlo.unary main_v171 main_v179 (fptosi 32 : (⟨S1048576, .f32⟩ : BufTy).Contents (Elt F) → (⟨S1048576, .i32⟩ : BufTy).Contents (Elt F)),
    StableHlo.nullary main_c_54 (constantI S_ 32 0#32),
    StableHlo.nullary main_c_55 (constantI S_ 32 511#32) ]
theorem it3_6_sub : (it3_6 : List (HloOp τ sig (Elt F))).Forall fun op => op.bufs ⊆ tcRefs τ sig :=
  ⟨unary_bufs_sub .., nullary_bufs_sub .., nullary_bufs_sub ..⟩
theorem it3_6_fresh : (it3_6 : List (HloOp τ sig (Elt F))).Forall fun op => op.fresh = ∅ := by
  simp only [List.Forall]; repeat' constructor
theorem it3_6_keeps (a : Ref sig .tc) (ha : a = main_arg0 ∨ a = main_arg1 ∨ a = main_arg2 ∨ a = main_arg3 ∨ a = main_arg4) :
    (it3_6 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_7 : List (HloOp τ sig (Elt F)) :=
  [ StableHlo.TRef.unary (.of main_c_54 : StableHlo.TRef sig ⟨S_, .i32⟩) main_call6.v0 id,
    StableHlo.TRef.unary main_call6.v0 main_call6.v1 (broadcastInDim S1048576 ![] bcast_S_S1048576),
    StableHlo.TRef.binary main_call6.v1 (.of main_v179 : StableHlo.TRef sig ⟨S1048576, .i32⟩) main_call6.v2 maxsi,
    StableHlo.TRef.unary (.of main_c_55 : StableHlo.TRef sig ⟨S_, .i32⟩) main_call6.v3 id,
    StableHlo.TRef.unary main_call6.v3 main_call6.v4 (broadcastInDim S1048576 ![] bcast_S_S1048576),
    StableHlo.TRef.binary main_call6.v4 main_call6.v2 main_call6.v5 minsi ]
theorem it3_7_sub : (it3_7 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it3_7_fresh : (it3_7 : List (HloOp τ sig (Elt F))).Forall fun op => op.fresh = ∅ := by
  simp only [List.Forall]; repeat' constructor
theorem it3_7_keeps (a : Ref sig .tc) (ha : a = main_arg0 ∨ a = main_arg1 ∨ a = main_arg2 ∨ a = main_arg3 ∨ a = main_arg4) :
    (it3_7 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it3_8 : List (HloOp τ sig (Elt F)) :=
  [ StableHlo.nullary main_c_56 (constantI S_ 32 1#32) ]
theorem it3_8_sub : (it3_8 : List (HloOp τ sig (Elt F))).Forall fun op => op.bufs ⊆ tcRefs τ sig :=
  nullary_bufs_sub ..
theorem it3_8_fresh : (it3_8 : List (HloOp τ sig (Elt F))).Forall fun op => op.fresh = ∅ := by
  simp only [List.Forall]; repeat' constructor
theorem it3_8_keeps (a : Ref sig .tc) (ha : a = main_arg0 ∨ a = main_arg1 ∨ a = main_arg2 ∨ a = main_arg3 ∨ a = main_arg4) :
    (it3_8 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part3_chain (c : Dev nD) : main_part3 (F := F) c = (Pipeline.chainK
  [ seq it3_0,
    seq it3_1,
    seq it3_2,
    seq it3_3,
    seq it3_4,
    seq it3_5,
    seq it3_6,
    seq it3_7 ]
  (seq it3_8) : Prog (TpuEff nD τ sig (Elt F) (Pipeline.Sig Λ₀ (Fin 0) fun p => (pcfgs (F := F) p).Adm) .tc) PUnit) := by
  chain_rfl

end Cert.ReferenceIdeal.RefRun

end
-- ==== Proof.RefOps4.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it4_0 : List (HloOp τ sig (Elt F)) :=
  [ StableHlo.unary main_c_56 main_v181 (broadcastInDim S1048576 ![] bcast_S_S1048576 : (⟨S_, .i32⟩ : BufTy).Contents (Elt F) → (⟨S1048576, .i32⟩ : BufTy).Contents (Elt F)),
    StableHlo.binary main_v180 main_v181 main_v182 (addi : (⟨S1048576, .i32⟩ : BufTy).Contents (Elt F) → (⟨S1048576, .i32⟩ : BufTy).Contents (Elt F) → (⟨S1048576, .i32⟩ : BufTy).Contents (Elt F)),
    StableHlo.nullary main_c_57 (constantI S_ 32 0#32),
    StableHlo.nullary main_c_58 (constantI S_ 32 511#32) ]
theorem it4_0_sub : (it4_0 : List (HloOp τ sig (Elt F))).Forall fun op => op.bufs ⊆ tcRefs τ sig :=
  ⟨unary_bufs_sub .., binary_bufs_sub .., nullary_bufs_sub .., nullary_bufs_sub ..⟩
theorem it4_0_fresh : (it4_0 : List (HloOp τ sig (Elt F))).Forall fun op => op.fresh = ∅ := by
  simp only [List.Forall]; repeat' constructor
theorem it4_0_keeps (a : Ref sig .tc) (ha : a = main_arg0 ∨ a = main_arg1 ∨ a = main_arg2 ∨ a = main_arg3 ∨ a = main_arg4) :
    (it4_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it4_1 : List (HloOp τ sig (Elt F)) :=
  [ StableHlo.TRef.unary (.of main_c_57 : StableHlo.TRef sig ⟨S_, .i32⟩) main_call7.v0 id,
    StableHlo.TRef.unary main_call7.v0 main_call7.v1 (broadcastInDim S1048576 ![] bcast_S_S1048576),
    StableHlo.TRef.binary main_call7.v1 (.of main_v182 : StableHlo.TRef sig ⟨S1048576, .i32⟩) main_call7.v2 maxsi,
    StableHlo.TRef.unary (.of main_c_58 : StableHlo.TRef sig ⟨S_, .i32⟩) main_call7.v3 id,
    StableHlo.TRef.unary main_call7.v3 main_call7.v4 (broadcastInDim S1048576 ![] bcast_S_S1048576),
    StableHlo.TRef.binary main_call7.v4 main_call7.v2 main_call7.v5 minsi ]
theorem it4_1_sub : (it4_1 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it4_1_fresh : (it4_1 : List (HloOp τ sig (Elt F))).Forall fun op => op.fresh = ∅ := by
  simp only [List.Forall]; repeat' constructor
theorem it4_1_keeps (a : Ref sig .tc) (ha : a = main_arg0 ∨ a = main_arg1 ∨ a = main_arg2 ∨ a = main_arg3 ∨ a = main_arg4) :
    (it4_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it4_2 : List (HloOp τ sig (Elt F)) :=
  [ StableHlo.nullary main_c_59 (constantI S_ 32 0#32),
    StableHlo.unary main_c_59 main_v184 (broadcastInDim S1048576 ![] bcast_S_S1048576 : (⟨S_, .i32⟩ : BufTy).Contents (Elt F) → (⟨S1048576, .i32⟩ : BufTy).Contents (Elt F)),
    StableHlo.binary main_v180 main_v184 main_v185 (cmpi .slt : (⟨S1048576, .i32⟩ : BufTy).Contents (Elt F) → (⟨S1048576, .i32⟩ : BufTy).Contents (Elt F) → (⟨S1048576, .i1⟩ : BufTy).Contents (Elt F)),
    StableHlo.nullary main_c_60 (constantI S_ 32 512#32),
    StableHlo.unary main_c_60 main_v186 (broadcastInDim S1048576 ![] bcast_S_S1048576 : (⟨S_, .i32⟩ : BufTy).Contents (Elt F) → (⟨S1048576, .i32⟩ : BufTy).Contents (Elt F)),
    StableHlo.binary main_v180 main_v186 main_v187 (addi : (⟨S1048576, .i32⟩ : BufTy).Contents (Elt F) → (⟨S1048576, .i32⟩ : BufTy).Contents (Elt F) → (⟨S1048576, .i32⟩ : BufTy).Contents (Elt F)),
    StableHlo.ternary main_v185 main_v187 main_v180 main_v188 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_61 (constantI S_ 32 0#32),
    StableHlo.unary main_c_61 main_v189 (broadcastInDim S1048576 ![] bcast_S_S1048576 : (⟨S_, .i32⟩ : BufTy).Contents (Elt F) → (⟨S1048576, .i32⟩ : BufTy).Contents (Elt F)),
    StableHlo.binary main_v175 main_v189 main_v190 (cmpi .slt : (⟨S1048576, .i32⟩ : BufTy).Contents (Elt F) → (⟨S1048576, .i32⟩ : BufTy).Contents (Elt F) → (⟨S1048576, .i1⟩ : BufTy).Contents (Elt F)),
    StableHlo.nullary main_c_62 (constantI S_ 32 512#32),
    StableHlo.unary main_c_62 main_v191 (broadcastInDim S1048576 ![] bcast_S_S1048576 : (⟨S_, .i32⟩ : BufTy).Contents (Elt F) → (⟨S1048576, .i32⟩ : BufTy).Contents (Elt F)),
    StableHlo.binary main_v175 main_v191 main_v192 (addi : (⟨S1048576, .i32⟩ : BufTy).Contents (Elt F) → (⟨S1048576, .i32⟩ : BufTy).Contents (Elt F) → (⟨S1048576, .i32⟩ : BufTy).Contents (Elt F)),
    StableHlo.ternary main_v190 main_v192 main_v175 main_v193 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v188 main_v194 (broadcastInDim S1048576x1 ![0] bcast_S1048576_S1048576x1_0 : (⟨S1048576, .i32⟩ : BufTy).Contents (Elt F) → (⟨S1048576x1, .i32⟩ : BufTy).Contents (Elt F)),
    StableHlo.unary main_v193 main_v195 (broadcastInDim S1048576x1 ![0] bcast_S1048576_S1048576x1_0 : (⟨S1048576, .i32⟩ : BufTy).Contents (Elt F) → (⟨S1048576x1, .i32⟩ : BufTy).Contents (Elt F)),
    StableHlo.binary main_v194 main_v195 main_v196 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v196 main_v197 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_63 (constantI S_ 32 0#32),
    StableHlo.unary main_c_63 main_v198 (broadcastInDim S1048576 ![] bcast_S_S1048576 : (⟨S_, .i32⟩ : BufTy).Contents (Elt F) → (⟨S1048576, .i32⟩ : BufTy).Contents (Elt F)),
    StableHlo.binary main_v180 main_v198 main_v199 (cmpi .slt : (⟨S1048576, .i32⟩ : BufTy).Contents (Elt F) → (⟨S1048576, .i32⟩ : BufTy).Contents (Elt F) → (⟨S1048576, .i1⟩ : BufTy).Contents (Elt F)),
    StableHlo.nullary main_c_64 (constantI S_ 32 512#32),
    StableHlo.unary main_c_64 main_v200 (broadcastInDim S1048576 ![] bcast_S_S1048576 : (⟨S_, .i32⟩ : BufTy).Contents (Elt F) → (⟨S1048576, .i32⟩ : BufTy).Contents (Elt F)),
    StableHlo.binary main_v180 main_v200 main_v201 (addi : (⟨S1048576, .i32⟩ : BufTy).Contents (Elt F) → (⟨S1048576, .i32⟩ : BufTy).Contents (Elt F) → (⟨S1048576, .i32⟩ : BufTy).Contents (Elt F)),
    StableHlo.ternary main_v199 main_v201 main_v180 main_v202 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_65 (constantI S_ 32 0#32),
    StableHlo.unary main_c_65 main_v203 (broadcastInDim S1048576 ![] bcast_S_S1048576 : (⟨S_, .i32⟩ : BufTy).Contents (Elt F) → (⟨S1048576, .i32⟩ : BufTy).Contents (Elt F)),
    StableHlo.binary main_v178 main_v203 main_v204 (cmpi .slt : (⟨S1048576, .i32⟩ : BufTy).Contents (Elt F) → (⟨S1048576, .i32⟩ : BufTy).Contents (Elt F) → (⟨S1048576, .i1⟩ : BufTy).Contents (Elt F)),
    StableHlo.nullary main_c_66 (constantI S_ 32 512#32),
    StableHlo.unary main_c_66 main_v205 (broadcastInDim S1048576 ![] bcast_S_S1048576 : (⟨S_, .i32⟩ : BufTy).Contents (Elt F) → (⟨S1048576, .i32⟩ : BufTy).Contents (Elt F)),
    StableHlo.binary main_v178 main_v205 main_v206 (addi : (⟨S1048576, .i32⟩ : BufTy).Contents (Elt F) → (⟨S1048576, .i32⟩ : BufTy).Contents (Elt F) → (⟨S1048576, .i32⟩ : BufTy).Contents (Elt F)),
    StableHlo.ternary main_v204 main_v206 main_v178 main_v207 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v202 main_v208 (broadcastInDim S1048576x1 ![0] bcast_S1048576_S1048576x1_0 : (⟨S1048576, .i32⟩ : BufTy).Contents (Elt F) → (⟨S1048576x1, .i32⟩ : BufTy).Contents (Elt F)),
    StableHlo.unary main_v207 main_v209 (broadcastInDim S1048576x1 ![0] bcast_S1048576_S1048576x1_0 : (⟨S1048576, .i32⟩ : BufTy).Contents (Elt F) → (⟨S1048576x1, .i32⟩ : BufTy).Contents (Elt F)),
    StableHlo.binary main_v208 main_v209 main_v210 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v210 main_v211 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_67 (constantI S_ 32 0#32),
    StableHlo.unary main_c_67 main_v212 (broadcastInDim S1048576 ![] bcast_S_S1048576 : (⟨S_, .i32⟩ : BufTy).Contents (Elt F) → (⟨S1048576, .i32⟩ : BufTy).Contents (Elt F)),
    StableHlo.binary main_v183 main_v212 main_v213 (cmpi .slt : (⟨S1048576, .i32⟩ : BufTy).Contents (Elt F) → (⟨S1048576, .i32⟩ : BufTy).Contents (Elt F) → (⟨S1048576, .i1⟩ : BufTy).Contents (Elt F)),
    StableHlo.nullary main_c_68 (constantI S_ 32 512#32),
    StableHlo.unary main_c_68 main_v214 (broadcastInDim S1048576 ![] bcast_S_S1048576 : (⟨S_, .i32⟩ : BufTy).Contents (Elt F) → (⟨S1048576, .i32⟩ : BufTy).Contents (Elt F)),
    StableHlo.binary main_v183 main_v214 main_v215 (addi : (⟨S1048576, .i32⟩ : BufTy).Contents (Elt F) → (⟨S1048576, .i32⟩ : BufTy).Contents (Elt F) → (⟨S1048576, .i32⟩ : BufTy).Contents (Elt F)),
    StableHlo.ternary main_v213 main_v215 main_v183 main_v216 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_69 (constantI S_ 32 0#32),
    StableHlo.unary main_c_69 main_v217 (broadcastInDim S1048576 ![] bcast_S_S1048576 : (⟨S_, .i32⟩ : BufTy).Contents (Elt F) → (⟨S1048576, .i32⟩ : BufTy).Contents (Elt F)),
    StableHlo.binary main_v175 main_v217 main_v218 (cmpi .slt : (⟨S1048576, .i32⟩ : BufTy).Contents (Elt F) → (⟨S1048576, .i32⟩ : BufTy).Contents (Elt F) → (⟨S1048576, .i1⟩ : BufTy).Contents (Elt F)),
    StableHlo.nullary main_c_70 (constantI S_ 32 512#32),
    StableHlo.unary main_c_70 main_v219 (broadcastInDim S1048576 ![] bcast_S_S1048576 : (⟨S_, .i32⟩ : BufTy).Contents (Elt F) → (⟨S1048576, .i32⟩ : BufTy).Contents (Elt F)),
    StableHlo.binary main_v175 main_v219 main_v220 (addi : (⟨S1048576, .i32⟩ : BufTy).Contents (Elt F) → (⟨S1048576, .i32⟩ : BufTy).Contents (Elt F) → (⟨S1048576, .i32⟩ : BufTy).Contents (Elt F)),
    StableHlo.ternary main_v218 main_v220 main_v175 main_v221 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v216 main_v222 (broadcastInDim S1048576x1 ![0] bcast_S1048576_S1048576x1_0 : (⟨S1048576, .i32⟩ : BufTy).Contents (Elt F) → (⟨S1048576x1, .i32⟩ : BufTy).Contents (Elt F)),
    StableHlo.unary main_v221 main_v223 (broadcastInDim S1048576x1 ![0] bcast_S1048576_S1048576x1_0 : (⟨S1048576, .i32⟩ : BufTy).Contents (Elt F) → (⟨S1048576x1, .i32⟩ : BufTy).Contents (Elt F)),
    StableHlo.binary main_v222 main_v223 main_v224 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v224 main_v225 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_71 (constantI S_ 32 0#32) ]
theorem it4_2_sub : (it4_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub ..⟩
theorem it4_2_fresh : (it4_2 : List (HloOp τ sig (Elt F))).Forall fun op => op.fresh = ∅ := by
  simp only [List.Forall]; repeat' constructor
theorem it4_2_keeps (a : Ref sig .tc) (ha : a = main_arg0 ∨ a = main_arg1 ∨ a = main_arg2 ∨ a = main_arg3 ∨ a = main_arg4) :
    (it4_2 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part4_chain (c : Dev nD) : main_part4 (F := F) c = (Pipeline.chainK
  [ seq it4_0,
    seq it4_1 ]
  (seq it4_2) : Prog (TpuEff nD τ sig (Elt F) (Pipeline.Sig Λ₀ (Fin 0) fun p => (pcfgs (F := F) p).Adm) .tc) PUnit) := by
  chain_rfl

end Cert.ReferenceIdeal.RefRun

end
-- ==== Proof.RefOps5.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it5_0 : List (HloOp τ sig (Elt F)) :=
  [ StableHlo.unary main_c_71 main_v226 (broadcastInDim S1048576 ![] bcast_S_S1048576 : (⟨S_, .i32⟩ : BufTy).Contents (Elt F) → (⟨S1048576, .i32⟩ : BufTy).Contents (Elt F)),
    StableHlo.binary main_v183 main_v226 main_v227 (cmpi .slt : (⟨S1048576, .i32⟩ : BufTy).Contents (Elt F) → (⟨S1048576, .i32⟩ : BufTy).Contents (Elt F) → (⟨S1048576, .i1⟩ : BufTy).Contents (Elt F)),
    StableHlo.nullary main_c_72 (constantI S_ 32 512#32),
    StableHlo.unary main_c_72 main_v228 (broadcastInDim S1048576 ![] bcast_S_S1048576 : (⟨S_, .i32⟩ : BufTy).Contents (Elt F) → (⟨S1048576, .i32⟩ : BufTy).Contents (Elt F)),
    StableHlo.binary main_v183 main_v228 main_v229 (addi : (⟨S1048576, .i32⟩ : BufTy).Contents (Elt F) → (⟨S1048576, .i32⟩ : BufTy).Contents (Elt F) → (⟨S1048576, .i32⟩ : BufTy).Contents (Elt F)),
    StableHlo.ternary main_v227 main_v229 main_v183 main_v230 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_73 (constantI S_ 32 0#32),
    StableHlo.unary main_c_73 main_v231 (broadcastInDim S1048576 ![] bcast_S_S1048576 : (⟨S_, .i32⟩ : BufTy).Contents (Elt F) → (⟨S1048576, .i32⟩ : BufTy).Contents (Elt F)),
    StableHlo.binary main_v178 main_v231 main_v232 (cmpi .slt : (⟨S1048576, .i32⟩ : BufTy).Contents (Elt F) → (⟨S1048576, .i32⟩ : BufTy).Contents (Elt F) → (⟨S1048576, .i1⟩ : BufTy).Contents (Elt F)),
    StableHlo.nullary main_c_74 (constantI S_ 32 512#32),
    StableHlo.unary main_c_74 main_v233 (broadcastInDim S1048576 ![] bcast_S_S1048576 : (⟨S_, .i32⟩ : BufTy).Contents (Elt F) → (⟨S1048576, .i32⟩ : BufTy).Contents (Elt F)),
    StableHlo.binary main_v178 main_v233 main_v234 (addi : (⟨S1048576, .i32⟩ : BufTy).Contents (Elt F) → (⟨S1048576, .i32⟩ : BufTy).Contents (Elt F) → (⟨S1048576, .i32⟩ : BufTy).Contents (Elt F)),
    StableHlo.ternary main_v232 main_v234 main_v178 main_v235 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v230 main_v236 (broadcastInDim S1048576x1 ![0] bcast_S1048576_S1048576x1_0 : (⟨S1048576, .i32⟩ : BufTy).Contents (Elt F) → (⟨S1048576x1, .i32⟩ : BufTy).Contents (Elt F)),
    StableHlo.unary main_v235 main_v237 (broadcastInDim S1048576x1 ![0] bcast_S1048576_S1048576x1_0 : (⟨S1048576, .i32⟩ : BufTy).Contents (Elt F) → (⟨S1048576x1, .i32⟩ : BufTy).Contents (Elt F)),
    StableHlo.binary main_v236 main_v237 main_v238 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg2 main_v238 main_v239 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_cst_75 (constant S_ .f32 0x3F800000#32),
    StableHlo.unary main_cst_75 main_v240 (broadcastInDim S1048576 ![] bcast_S_S1048576 : (⟨S_, .f32⟩ : BufTy).Contents (Elt F) → (⟨S1048576, .f32⟩ : BufTy).Contents (Elt F)),
    StableHlo.binary main_v240 main_v172 main_v241 (subf : (⟨S1048576, .f32⟩ : BufTy).Contents (Elt F) → (⟨S1048576, .f32⟩ : BufTy).Contents (Elt F) → (⟨S1048576, .f32⟩ : BufTy).Contents (Elt F)),
    StableHlo.unary main_v241 main_v242 (broadcastInDim S1x1048576 ![1] bcast_S1048576_S1x1048576_1 : (⟨S1048576, .f32⟩ : BufTy).Contents (Elt F) → (⟨S1x1048576, .f32⟩ : BufTy).Contents (Elt F)),
    StableHlo.unary main_v242 main_v243 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v197 main_v243 main_v244 (mulf : (⟨S32x1048576, .f32⟩ : BufTy).Contents (Elt F) → (⟨S32x1048576, .f32⟩ : BufTy).Contents (Elt F) → (⟨S32x1048576, .f32⟩ : BufTy).Contents (Elt F)),
    StableHlo.nullary main_cst_76 (constant S_ .f32 0x3F800000#32),
    StableHlo.unary main_cst_76 main_v245 (broadcastInDim S1048576 ![] bcast_S_S1048576 : (⟨S_, .f32⟩ : BufTy).Contents (Elt F) → (⟨S1048576, .f32⟩ : BufTy).Contents (Elt F)),
    StableHlo.binary main_v245 main_v173 main_v246 (subf : (⟨S1048576, .f32⟩ : BufTy).Contents (Elt F) → (⟨S1048576, .f32⟩ : BufTy).Contents (Elt F) → (⟨S1048576, .f32⟩ : BufTy).Contents (Elt F)),
    StableHlo.unary main_v246 main_v247 (broadcastInDim S1x1048576 ![1] bcast_S1048576_S1x1048576_1 : (⟨S1048576, .f32⟩ : BufTy).Contents (Elt F) → (⟨S1x1048576, .f32⟩ : BufTy).Contents (Elt F)),
    StableHlo.unary main_v247 main_v248 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v244 main_v248 main_v249 (mulf : (⟨S32x1048576, .f32⟩ : BufTy).Contents (Elt F) → (⟨S32x1048576, .f32⟩ : BufTy).Contents (Elt F) → (⟨S32x1048576, .f32⟩ : BufTy).Contents (Elt F)),
    StableHlo.unary main_v172 main_v250 (broadcastInDim S1x1048576 ![1] bcast_S1048576_S1x1048576_1 : (⟨S1048576, .f32⟩ : BufTy).Contents (Elt F) → (⟨S1x1048576, .f32⟩ : BufTy).Contents (Elt F)),
    StableHlo.unary main_v250 main_v251 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v211 main_v251 main_v252 (mulf : (⟨S32x1048576, .f32⟩ : BufTy).Contents (Elt F) → (⟨S32x1048576, .f32⟩ : BufTy).Contents (Elt F) → (⟨S32x1048576, .f32⟩ : BufTy).Contents (Elt F)),
    StableHlo.nullary main_cst_77 (constant S_ .f32 0x3F800000#32),
    StableHlo.unary main_cst_77 main_v253 (broadcastInDim S1048576 ![] bcast_S_S1048576 : (⟨S_, .f32⟩ : BufTy).Contents (Elt F) → (⟨S1048576, .f32⟩ : BufTy).Contents (Elt F)),
    StableHlo.binary main_v253 main_v173 main_v254 (subf : (⟨S1048576, .f32⟩ : BufTy).Contents (Elt F) → (⟨S1048576, .f32⟩ : BufTy).Contents (Elt F) → (⟨S1048576, .f32⟩ : BufTy).Contents (Elt F)),
    StableHlo.unary main_v254 main_v255 (broadcastInDim S1x1048576 ![1] bcast_S1048576_S1x1048576_1 : (⟨S1048576, .f32⟩ : BufTy).Contents (Elt F) → (⟨S1x1048576, .f32⟩ : BufTy).Contents (Elt F)),
    StableHlo.unary main_v255 main_v256 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v252 main_v256 main_v257 (mulf : (⟨S32x1048576, .f32⟩ : BufTy).Contents (Elt F) → (⟨S32x1048576, .f32⟩ : BufTy).Contents (Elt F) → (⟨S32x1048576, .f32⟩ : BufTy).Contents (Elt F)),
    StableHlo.binary main_v249 main_v257 main_v258 (addf : (⟨S32x1048576, .f32⟩ : BufTy).Contents (Elt F) → (⟨S32x1048576, .f32⟩ : BufTy).Contents (Elt F) → (⟨S32x1048576, .f32⟩ : BufTy).Contents (Elt F)),
    StableHlo.nullary main_cst_78 (constant S_ .f32 0x3F800000#32),
    StableHlo.unary main_cst_78 main_v259 (broadcastInDim S1048576 ![] bcast_S_S1048576 : (⟨S_, .f32⟩ : BufTy).Contents (Elt F) → (⟨S1048576, .f32⟩ : BufTy).Contents (Elt F)),
    StableHlo.binary main_v259 main_v172 main_v260 (subf : (⟨S1048576, .f32⟩ : BufTy).Contents (Elt F) → (⟨S1048576, .f32⟩ : BufTy).Contents (Elt F) → (⟨S1048576, .f32⟩ : BufTy).Contents (Elt F)),
    StableHlo.unary main_v260 main_v261 (broadcastInDim S1x1048576 ![1] bcast_S1048576_S1x1048576_1 : (⟨S1048576, .f32⟩ : BufTy).Contents (Elt F) → (⟨S1x1048576, .f32⟩ : BufTy).Contents (Elt F)),
    StableHlo.unary main_v261 main_v262 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v225 main_v262 main_v263 (mulf : (⟨S32x1048576, .f32⟩ : BufTy).Contents (Elt F) → (⟨S32x1048576, .f32⟩ : BufTy).Contents (Elt F) → (⟨S32x1048576, .f32⟩ : BufTy).Contents (Elt F)),
    StableHlo.unary main_v173 main_v264 (broadcastInDim S1x1048576 ![1] bcast_S1048576_S1x1048576_1 : (⟨S1048576, .f32⟩ : BufTy).Contents (Elt F) → (⟨S1x1048576, .f32⟩ : BufTy).Contents (Elt F)),
    StableHlo.unary main_v264 main_v265 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v263 main_v265 main_v266 (mulf : (⟨S32x1048576, .f32⟩ : BufTy).Contents (Elt F) → (⟨S32x1048576, .f32⟩ : BufTy).Contents (Elt F) → (⟨S32x1048576, .f32⟩ : BufTy).Contents (Elt F)),
    StableHlo.binary main_v258 main_v266 main_v267 (addf : (⟨S32x1048576, .f32⟩ : BufTy).Contents (Elt F) → (⟨S32x1048576, .f32⟩ : BufTy).Contents (Elt F) → (⟨S32x1048576, .f32⟩ : BufTy).Contents (Elt F)),
    StableHlo.unary main_v172 main_v268 (broadcastInDim S1x1048576 ![1] bcast_S1048576_S1x1048576_1 : (⟨S1048576, .f32⟩ : BufTy).Contents (Elt F) → (⟨S1x1048576, .f32⟩ : BufTy).Contents (Elt F)),
    StableHlo.unary main_v268 main_v269 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v239 main_v269 main_v270 (mulf : (⟨S32x1048576, .f32⟩ : BufTy).Contents (Elt F) → (⟨S32x1048576, .f32⟩ : BufTy).Contents (Elt F) → (⟨S32x1048576, .f32⟩ : BufTy).Contents (Elt F)),
    StableHlo.unary main_v173 main_v271 (broadcastInDim S1x1048576 ![1] bcast_S1048576_S1x1048576_1 : (⟨S1048576, .f32⟩ : BufTy).Contents (Elt F) → (⟨S1x1048576, .f32⟩ : BufTy).Contents (Elt F)),
    StableHlo.unary main_v271 main_v272 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v270 main_v272 main_v273 (mulf : (⟨S32x1048576, .f32⟩ : BufTy).Contents (Elt F) → (⟨S32x1048576, .f32⟩ : BufTy).Contents (Elt F) → (⟨S32x1048576, .f32⟩ : BufTy).Contents (Elt F)),
    StableHlo.binary main_v267 main_v273 main_v274 (addf : (⟨S32x1048576, .f32⟩ : BufTy).Contents (Elt F) → (⟨S32x1048576, .f32⟩ : BufTy).Contents (Elt F) → (⟨S32x1048576, .f32⟩ : BufTy).Contents (Elt F)),
    StableHlo.unary main_v274 main_v275 ((transpose S1048576x32 [1, 0] · transposes_S32x1048576_S1048576x32_1_0) : (⟨S32x1048576, .f32⟩ : BufTy).Contents (Elt F) → (⟨S1048576x32, .f32⟩ : BufTy).Contents (Elt F)) ]
theorem it5_0_sub : (it5_0 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub ..⟩
theorem it5_0_fresh : (it5_0 : List (HloOp τ sig (Elt F))).Forall fun op => op.fresh = ∅ := by
  simp only [List.Forall]; repeat' constructor
theorem it5_0_keeps (a : Ref sig .tc) (ha : a = main_arg0 ∨ a = main_arg1 ∨ a = main_arg2 ∨ a = main_arg3 ∨ a = main_arg4) :
    (it5_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it5_1 : List (HloOp τ sig (Elt F)) :=
  [ StableHlo.binary main_v146 main_v275 main_v276 (mulf : (⟨S1048576x32, .f32⟩ : BufTy).Contents (Elt F) → (⟨S1048576x32, .f32⟩ : BufTy).Contents (Elt F) → (⟨S1048576x32, .f32⟩ : BufTy).Contents (Elt F)),
    StableHlo.nullary main_c_79 (constantI S_ 32 0#32),
    StableHlo.unary main_c_79 main_v277 (broadcastInDim S2 ![] bcast_S_S2 : (⟨S_, .i32⟩ : BufTy).Contents (Elt F) → (⟨S2, .i32⟩ : BufTy).Contents (Elt F)) ]
theorem it5_1_sub : (it5_1 : List (HloOp τ sig (Elt F))).Forall fun op => op.bufs ⊆ tcRefs τ sig :=
  ⟨binary_bufs_sub .., nullary_bufs_sub .., unary_bufs_sub ..⟩
theorem it5_1_fresh : (it5_1 : List (HloOp τ sig (Elt F))).Forall fun op => op.fresh = ∅ := by
  simp only [List.Forall]; repeat' constructor
theorem it5_1_keeps (a : Ref sig .tc) (ha : a = main_arg0 ∨ a = main_arg1 ∨ a = main_arg2 ∨ a = main_arg3 ∨ a = main_arg4) :
    (it5_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part5_chain (c : Dev nD) : main_part5 (F := F) c = (Pipeline.chainK
  [ seq it5_0 ]
  (seq it5_1) : Prog (TpuEff nD τ sig (Elt F) (Pipeline.Sig Λ₀ (Fin 0) fun p => (pcfgs (F := F) p).Adm) .tc) PUnit) := by
  chain_rfl

end Cert.ReferenceIdeal.RefRun

end
-- ==== Proof.RefOps6.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it6_0 : List (HloOp τ sig (Elt F)) :=
  [ StableHlo.binary main_c_1 main_v277 main_v278 (cmpi .slt : (⟨S2, .i32⟩ : BufTy).Contents (Elt F) → (⟨S2, .i32⟩ : BufTy).Contents (Elt F) → (⟨S2, .i1⟩ : BufTy).Contents (Elt F)),
    StableHlo.nullary main_c_80 (constantI S_ 32 3#32),
    StableHlo.unary main_c_80 main_v279 (broadcastInDim S2 ![] bcast_S_S2 : (⟨S_, .i32⟩ : BufTy).Contents (Elt F) → (⟨S2, .i32⟩ : BufTy).Contents (Elt F)),
    StableHlo.binary main_c_1 main_v279 main_v280 (addi : (⟨S2, .i32⟩ : BufTy).Contents (Elt F) → (⟨S2, .i32⟩ : BufTy).Contents (Elt F) → (⟨S2, .i32⟩ : BufTy).Contents (Elt F)),
    StableHlo.ternary main_v278 main_v280 main_c_1 main_v281 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v281 main_v282 (broadcastInDim S2x1 ![0] bcast_S2_S2x1_0 : (⟨S2, .i32⟩ : BufTy).Contents (Elt F) → (⟨S2x1, .i32⟩ : BufTy).Contents (Elt F)),
    StableHlo.binary main_v17 main_v282 main_v283 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)) ]
theorem it6_0_sub : (it6_0 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub ..⟩
theorem it6_0_fresh : (it6_0 : List (HloOp τ sig (Elt F))).Forall fun op => op.fresh = ∅ := by
  simp only [List.Forall]; repeat' constructor
theorem it6_0_keeps (a : Ref sig .tc) (ha : a = main_arg0 ∨ a = main_arg1 ∨ a = main_arg2 ∨ a = main_arg3 ∨ a = main_arg4) :
    (it6_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_1 : List (HloOp τ sig (Elt F)) :=
  [ StableHlo.unary main_v283 main_v284 ((extractStridedSlice S1048576x1 ![0, 0] · slices_S1048576x2_S1048576x1_0_0) : (⟨S1048576x2, .f32⟩ : BufTy).Contents (Elt F) → (⟨S1048576x1, .f32⟩ : BufTy).Contents (Elt F)),
    StableHlo.reshape main_v284 main_v285 rfl shapeCasts_S1048576x1_S1048576,
    StableHlo.nullary main_cst_81 (constant S_ .f32 0x3F800000#32),
    StableHlo.unary main_cst_81 main_v286 (broadcastInDim S1048576 ![] bcast_S_S1048576 : (⟨S_, .f32⟩ : BufTy).Contents (Elt F) → (⟨S1048576, .f32⟩ : BufTy).Contents (Elt F)),
    StableHlo.binary main_v285 main_v286 main_v287 (addf : (⟨S1048576, .f32⟩ : BufTy).Contents (Elt F) → (⟨S1048576, .f32⟩ : BufTy).Contents (Elt F) → (⟨S1048576, .f32⟩ : BufTy).Contents (Elt F)),
    StableHlo.nullary main_cst_82 (constant S_ .f32 0x3F000000#32),
    StableHlo.unary main_cst_82 main_v288 (broadcastInDim S1048576 ![] bcast_S_S1048576 : (⟨S_, .f32⟩ : BufTy).Contents (Elt F) → (⟨S1048576, .f32⟩ : BufTy).Contents (Elt F)),
    StableHlo.binary main_v287 main_v288 main_v289 (mulf : (⟨S1048576, .f32⟩ : BufTy).Contents (Elt F) → (⟨S1048576, .f32⟩ : BufTy).Contents (Elt F) → (⟨S1048576, .f32⟩ : BufTy).Contents (Elt F)),
    StableHlo.nullary main_cst_83 (constant S_ .f32 0x43FF8000#32),
    StableHlo.unary main_cst_83 main_v290 (broadcastInDim S1048576 ![] bcast_S_S1048576 : (⟨S_, .f32⟩ : BufTy).Contents (Elt F) → (⟨S1048576, .f32⟩ : BufTy).Contents (Elt F)),
    StableHlo.binary main_v289 main_v290 main_v291 (mulf : (⟨S1048576, .f32⟩ : BufTy).Contents (Elt F) → (⟨S1048576, .f32⟩ : BufTy).Contents (Elt F) → (⟨S1048576, .f32⟩ : BufTy).Contents (Elt F)),
    StableHlo.unary main_v283 main_v292 ((extractStridedSlice S1048576x1 ![0, 1] · slices_S1048576x2_S1048576x1_0_1) : (⟨S1048576x2, .f32⟩ : BufTy).Contents (Elt F) → (⟨S1048576x1, .f32⟩ : BufTy).Contents (Elt F)),
    StableHlo.reshape main_v292 main_v293 rfl shapeCasts_S1048576x1_S1048576,
    StableHlo.nullary main_cst_84 (constant S_ .f32 0x3F800000#32),
    StableHlo.unary main_cst_84 main_v294 (broadcastInDim S1048576 ![] bcast_S_S1048576 : (⟨S_, .f32⟩ : BufTy).Contents (Elt F) → (⟨S1048576, .f32⟩ : BufTy).Contents (Elt F)),
    StableHlo.binary main_v293 main_v294 main_v295 (addf : (⟨S1048576, .f32⟩ : BufTy).Contents (Elt F) → (⟨S1048576, .f32⟩ : BufTy).Contents (Elt F) → (⟨S1048576, .f32⟩ : BufTy).Contents (Elt F)),
    StableHlo.nullary main_cst_85 (constant S_ .f32 0x3F000000#32),
    StableHlo.unary main_cst_85 main_v296 (broadcastInDim S1048576 ![] bcast_S_S1048576 : (⟨S_, .f32⟩ : BufTy).Contents (Elt F) → (⟨S1048576, .f32⟩ : BufTy).Contents (Elt F)),
    StableHlo.binary main_v295 main_v296 main_v297 (mulf : (⟨S1048576, .f32⟩ : BufTy).Contents (Elt F) → (⟨S1048576, .f32⟩ : BufTy).Contents (Elt F) → (⟨S1048576, .f32⟩ : BufTy).Contents (Elt F)),
    StableHlo.nullary main_cst_86 (constant S_ .f32 0x43FF8000#32),
    StableHlo.unary main_cst_86 main_v298 (broadcastInDim S1048576 ![] bcast_S_S1048576 : (⟨S_, .f32⟩ : BufTy).Contents (Elt F) → (⟨S1048576, .f32⟩ : BufTy).Contents (Elt F)),
    StableHlo.binary main_v297 main_v298 main_v299 (mulf : (⟨S1048576, .f32⟩ : BufTy).Contents (Elt F) → (⟨S1048576, .f32⟩ : BufTy).Contents (Elt F) → (⟨S1048576, .f32⟩ : BufTy).Contents (Elt F)),
    StableHlo.unary main_v291 main_v300 (Host.floor : (⟨S1048576, .f32⟩ : BufTy).Contents (Elt F) → (⟨S1048576, .f32⟩ : BufTy).Contents (Elt F)),
    StableHlo.unary main_v299 main_v301 (Host.floor : (⟨S1048576, .f32⟩ : BufTy).Contents (Elt F) → (⟨S1048576, .f32⟩ : BufTy).Contents (Elt F)),
    StableHlo.binary main_v291 main_v300 main_v302 (subf : (⟨S1048576, .f32⟩ : BufTy).Contents (Elt F) → (⟨S1048576, .f32⟩ : BufTy).Contents (Elt F) → (⟨S1048576, .f32⟩ : BufTy).Contents (Elt F)),
    StableHlo.binary main_v299 main_v301 main_v303 (subf : (⟨S1048576, .f32⟩ : BufTy).Contents (Elt F) → (⟨S1048576, .f32⟩ : BufTy).Contents (Elt F) → (⟨S1048576, .f32⟩ : BufTy).Contents (Elt F)),
    StableHlo.unary main_v300 main_v304 (fptosi 32 : (⟨S1048576, .f32⟩ : BufTy).Contents (Elt F) → (⟨S1048576, .i32⟩ : BufTy).Contents (Elt F)),
    StableHlo.nullary main_c_87 (constantI S_ 32 0#32),
    StableHlo.nullary main_c_88 (constantI S_ 32 511#32) ]
theorem it6_1_sub : (it6_1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., nullary_bufs_sub ..⟩
theorem it6_1_fresh : (it6_1 : List (HloOp τ sig (Elt F))).Forall fun op => op.fresh = ∅ := by
  simp only [List.Forall]; repeat' constructor
theorem it6_1_keeps (a : Ref sig .tc) (ha : a = main_arg0 ∨ a = main_arg1 ∨ a = main_arg2 ∨ a = main_arg3 ∨ a = main_arg4) :
    (it6_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_2 : List (HloOp τ sig (Elt F)) :=
  [ StableHlo.TRef.unary (.of main_c_87 : StableHlo.TRef sig ⟨S_, .i32⟩) main_call8.v0 id,
    StableHlo.TRef.unary main_call8.v0 main_call8.v1 (broadcastInDim S1048576 ![] bcast_S_S1048576),
    StableHlo.TRef.binary main_call8.v1 (.of main_v304 : StableHlo.TRef sig ⟨S1048576, .i32⟩) main_call8.v2 maxsi,
    StableHlo.TRef.unary (.of main_c_88 : StableHlo.TRef sig ⟨S_, .i32⟩) main_call8.v3 id,
    StableHlo.TRef.unary main_call8.v3 main_call8.v4 (broadcastInDim S1048576 ![] bcast_S_S1048576),
    StableHlo.TRef.binary main_call8.v4 main_call8.v2 main_call8.v5 minsi ]
theorem it6_2_sub : (it6_2 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it6_2_fresh : (it6_2 : List (HloOp τ sig (Elt F))).Forall fun op => op.fresh = ∅ := by
  simp only [List.Forall]; repeat' constructor
theorem it6_2_keeps (a : Ref sig .tc) (ha : a = main_arg0 ∨ a = main_arg1 ∨ a = main_arg2 ∨ a = main_arg3 ∨ a = main_arg4) :
    (it6_2 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_3 : List (HloOp τ sig (Elt F)) :=
  [ StableHlo.nullary main_c_89 (constantI S_ 32 1#32),
    StableHlo.unary main_c_89 main_v306 (broadcastInDim S1048576 ![] bcast_S_S1048576 : (⟨S_, .i32⟩ : BufTy).Contents (Elt F) → (⟨S1048576, .i32⟩ : BufTy).Contents (Elt F)),
    StableHlo.binary main_v305 main_v306 main_v307 (addi : (⟨S1048576, .i32⟩ : BufTy).Contents (Elt F) → (⟨S1048576, .i32⟩ : BufTy).Contents (Elt F) → (⟨S1048576, .i32⟩ : BufTy).Contents (Elt F)),
    StableHlo.nullary main_c_90 (constantI S_ 32 0#32),
    StableHlo.nullary main_c_91 (constantI S_ 32 511#32) ]
theorem it6_3_sub : (it6_3 : List (HloOp τ sig (Elt F))).Forall fun op => op.bufs ⊆ tcRefs τ sig :=
  ⟨nullary_bufs_sub .., unary_bufs_sub .., binary_bufs_sub .., nullary_bufs_sub .., nullary_bufs_sub ..⟩
theorem it6_3_fresh : (it6_3 : List (HloOp τ sig (Elt F))).Forall fun op => op.fresh = ∅ := by
  simp only [List.Forall]; repeat' constructor
theorem it6_3_keeps (a : Ref sig .tc) (ha : a = main_arg0 ∨ a = main_arg1 ∨ a = main_arg2 ∨ a = main_arg3 ∨ a = main_arg4) :
    (it6_3 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_4 : List (HloOp τ sig (Elt F)) :=
  [ StableHlo.TRef.unary (.of main_c_90 : StableHlo.TRef sig ⟨S_, .i32⟩) main_call9.v0 id,
    StableHlo.TRef.unary main_call9.v0 main_call9.v1 (broadcastInDim S1048576 ![] bcast_S_S1048576),
    StableHlo.TRef.binary main_call9.v1 (.of main_v307 : StableHlo.TRef sig ⟨S1048576, .i32⟩) main_call9.v2 maxsi,
    StableHlo.TRef.unary (.of main_c_91 : StableHlo.TRef sig ⟨S_, .i32⟩) main_call9.v3 id,
    StableHlo.TRef.unary main_call9.v3 main_call9.v4 (broadcastInDim S1048576 ![] bcast_S_S1048576),
    StableHlo.TRef.binary main_call9.v4 main_call9.v2 main_call9.v5 minsi ]
theorem it6_4_sub : (it6_4 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it6_4_fresh : (it6_4 : List (HloOp τ sig (Elt F))).Forall fun op => op.fresh = ∅ := by
  simp only [List.Forall]; repeat' constructor
theorem it6_4_keeps (a : Ref sig .tc) (ha : a = main_arg0 ∨ a = main_arg1 ∨ a = main_arg2 ∨ a = main_arg3 ∨ a = main_arg4) :
    (it6_4 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_5 : List (HloOp τ sig (Elt F)) :=
  [ StableHlo.unary main_v301 main_v309 (fptosi 32 : (⟨S1048576, .f32⟩ : BufTy).Contents (Elt F) → (⟨S1048576, .i32⟩ : BufTy).Contents (Elt F)),
    StableHlo.nullary main_c_92 (constantI S_ 32 0#32),
    StableHlo.nullary main_c_93 (constantI S_ 32 511#32) ]
theorem it6_5_sub : (it6_5 : List (HloOp τ sig (Elt F))).Forall fun op => op.bufs ⊆ tcRefs τ sig :=
  ⟨unary_bufs_sub .., nullary_bufs_sub .., nullary_bufs_sub ..⟩
theorem it6_5_fresh : (it6_5 : List (HloOp τ sig (Elt F))).Forall fun op => op.fresh = ∅ := by
  simp only [List.Forall]; repeat' constructor
theorem it6_5_keeps (a : Ref sig .tc) (ha : a = main_arg0 ∨ a = main_arg1 ∨ a = main_arg2 ∨ a = main_arg3 ∨ a = main_arg4) :
    (it6_5 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_6 : List (HloOp τ sig (Elt F)) :=
  [ StableHlo.TRef.unary (.of main_c_92 : StableHlo.TRef sig ⟨S_, .i32⟩) main_call10.v0 id,
    StableHlo.TRef.unary main_call10.v0 main_call10.v1 (broadcastInDim S1048576 ![] bcast_S_S1048576),
    StableHlo.TRef.binary main_call10.v1 (.of main_v309 : StableHlo.TRef sig ⟨S1048576, .i32⟩) main_call10.v2 maxsi,
    StableHlo.TRef.unary (.of main_c_93 : StableHlo.TRef sig ⟨S_, .i32⟩) main_call10.v3 id,
    StableHlo.TRef.unary main_call10.v3 main_call10.v4 (broadcastInDim S1048576 ![] bcast_S_S1048576),
    StableHlo.TRef.binary main_call10.v4 main_call10.v2 main_call10.v5 minsi ]
theorem it6_6_sub : (it6_6 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it6_6_fresh : (it6_6 : List (HloOp τ sig (Elt F))).Forall fun op => op.fresh = ∅ := by
  simp only [List.Forall]; repeat' constructor
theorem it6_6_keeps (a : Ref sig .tc) (ha : a = main_arg0 ∨ a = main_arg1 ∨ a = main_arg2 ∨ a = main_arg3 ∨ a = main_arg4) :
    (it6_6 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_7 : List (HloOp τ sig (Elt F)) :=
  [ StableHlo.nullary main_c_94 (constantI S_ 32 1#32),
    StableHlo.unary main_c_94 main_v311 (broadcastInDim S1048576 ![] bcast_S_S1048576 : (⟨S_, .i32⟩ : BufTy).Contents (Elt F) → (⟨S1048576, .i32⟩ : BufTy).Contents (Elt F)),
    StableHlo.binary main_v310 main_v311 main_v312 (addi : (⟨S1048576, .i32⟩ : BufTy).Contents (Elt F) → (⟨S1048576, .i32⟩ : BufTy).Contents (Elt F) → (⟨S1048576, .i32⟩ : BufTy).Contents (Elt F)),
    StableHlo.nullary main_c_95 (constantI S_ 32 0#32),
    StableHlo.nullary main_c_96 (constantI S_ 32 511#32) ]
theorem it6_7_sub : (it6_7 : List (HloOp τ sig (Elt F))).Forall fun op => op.bufs ⊆ tcRefs τ sig :=
  ⟨nullary_bufs_sub .., unary_bufs_sub .., binary_bufs_sub .., nullary_bufs_sub .., nullary_bufs_sub ..⟩
theorem it6_7_fresh : (it6_7 : List (HloOp τ sig (Elt F))).Forall fun op => op.fresh = ∅ := by
  simp only [List.Forall]; repeat' constructor
theorem it6_7_keeps (a : Ref sig .tc) (ha : a = main_arg0 ∨ a = main_arg1 ∨ a = main_arg2 ∨ a = main_arg3 ∨ a = main_arg4) :
    (it6_7 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_8 : List (HloOp τ sig (Elt F)) :=
  [ StableHlo.TRef.unary (.of main_c_95 : StableHlo.TRef sig ⟨S_, .i32⟩) main_call11.v0 id,
    StableHlo.TRef.unary main_call11.v0 main_call11.v1 (broadcastInDim S1048576 ![] bcast_S_S1048576),
    StableHlo.TRef.binary main_call11.v1 (.of main_v312 : StableHlo.TRef sig ⟨S1048576, .i32⟩) main_call11.v2 maxsi,
    StableHlo.TRef.unary (.of main_c_96 : StableHlo.TRef sig ⟨S_, .i32⟩) main_call11.v3 id,
    StableHlo.TRef.unary main_call11.v3 main_call11.v4 (broadcastInDim S1048576 ![] bcast_S_S1048576),
    StableHlo.TRef.binary main_call11.v4 main_call11.v2 main_call11.v5 minsi ]
theorem it6_8_sub : (it6_8 : List (HloOp τ sig (Elt F))).Forall fun op => op.bufs ⊆ tcRefs τ sig :=
  ⟨unary_bufs_sub .., unary_bufs_sub .., binary_bufs_sub .., unary_bufs_sub .., unary_bufs_sub .., binary_bufs_sub ..⟩
theorem it6_8_fresh : (it6_8 : List (HloOp τ sig (Elt F))).Forall fun op => op.fresh = ∅ := by
  simp only [List.Forall]; repeat' constructor
theorem it6_8_keeps (a : Ref sig .tc) (ha : a = main_arg0 ∨ a = main_arg1 ∨ a = main_arg2 ∨ a = main_arg3 ∨ a = main_arg4) :
    (it6_8 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it6_9 : List (HloOp τ sig (Elt F)) :=
  [ StableHlo.nullary main_c_97 (constantI S_ 32 0#32),
    StableHlo.unary main_c_97 main_v314 (broadcastInDim S1048576 ![] bcast_S_S1048576 : (⟨S_, .i32⟩ : BufTy).Contents (Elt F) → (⟨S1048576, .i32⟩ : BufTy).Contents (Elt F)),
    StableHlo.binary main_v310 main_v314 main_v315 (cmpi .slt : (⟨S1048576, .i32⟩ : BufTy).Contents (Elt F) → (⟨S1048576, .i32⟩ : BufTy).Contents (Elt F) → (⟨S1048576, .i1⟩ : BufTy).Contents (Elt F)),
    StableHlo.nullary main_c_98 (constantI S_ 32 512#32),
    StableHlo.unary main_c_98 main_v316 (broadcastInDim S1048576 ![] bcast_S_S1048576 : (⟨S_, .i32⟩ : BufTy).Contents (Elt F) → (⟨S1048576, .i32⟩ : BufTy).Contents (Elt F)),
    StableHlo.binary main_v310 main_v316 main_v317 (addi : (⟨S1048576, .i32⟩ : BufTy).Contents (Elt F) → (⟨S1048576, .i32⟩ : BufTy).Contents (Elt F) → (⟨S1048576, .i32⟩ : BufTy).Contents (Elt F)),
    StableHlo.ternary main_v315 main_v317 main_v310 main_v318 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]
theorem it6_9_sub : (it6_9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
theorem it6_9_fresh : (it6_9 : List (HloOp τ sig (Elt F))).Forall fun op => op.fresh = ∅ := by
  simp only [List.Forall]; repeat' constructor
theorem it6_9_keeps (a : Ref sig .tc) (ha : a = main_arg0 ∨ a = main_arg1 ∨ a = main_arg2 ∨ a = main_arg3 ∨ a = main_arg4) :
    (it6_9 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part6_chain (c : Dev nD) : main_part6 (F := F) c = (Pipeline.chainK
  [ seq it6_0,
    seq it6_1,
    seq it6_2,
    seq it6_3,
    seq it6_4,
    seq it6_5,
    seq it6_6,
    seq it6_7,
    seq it6_8 ]
  (seq it6_9) : Prog (TpuEff nD τ sig (Elt F) (Pipeline.Sig Λ₀ (Fin 0) fun p => (pcfgs (F := F) p).Adm) .tc) PUnit) := by
  chain_rfl

end Cert.ReferenceIdeal.RefRun

end
-- ==== Proof.RefOps7.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it7_0 : List (HloOp τ sig (Elt F)) :=
  [ StableHlo.nullary main_c_99 (constantI S_ 32 0#32),
    StableHlo.unary main_c_99 main_v319 (broadcastInDim S1048576 ![] bcast_S_S1048576 : (⟨S_, .i32⟩ : BufTy).Contents (Elt F) → (⟨S1048576, .i32⟩ : BufTy).Contents (Elt F)),
    StableHlo.binary main_v305 main_v319 main_v320 (cmpi .slt : (⟨S1048576, .i32⟩ : BufTy).Contents (Elt F) → (⟨S1048576, .i32⟩ : BufTy).Contents (Elt F) → (⟨S1048576, .i1⟩ : BufTy).Contents (Elt F)),
    StableHlo.nullary main_c_100 (constantI S_ 32 512#32),
    StableHlo.unary main_c_100 main_v321 (broadcastInDim S1048576 ![] bcast_S_S1048576 : (⟨S_, .i32⟩ : BufTy).Contents (Elt F) → (⟨S1048576, .i32⟩ : BufTy).Contents (Elt F)),
    StableHlo.binary main_v305 main_v321 main_v322 (addi : (⟨S1048576, .i32⟩ : BufTy).Contents (Elt F) → (⟨S1048576, .i32⟩ : BufTy).Contents (Elt F) → (⟨S1048576, .i32⟩ : BufTy).Contents (Elt F)),
    StableHlo.ternary main_v320 main_v322 main_v305 main_v323 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v318 main_v324 (broadcastInDim S1048576x1 ![0] bcast_S1048576_S1048576x1_0 : (⟨S1048576, .i32⟩ : BufTy).Contents (Elt F) → (⟨S1048576x1, .i32⟩ : BufTy).Contents (Elt F)),
    StableHlo.unary main_v323 main_v325 (broadcastInDim S1048576x1 ![0] bcast_S1048576_S1048576x1_0 : (⟨S1048576, .i32⟩ : BufTy).Contents (Elt F) → (⟨S1048576x1, .i32⟩ : BufTy).Contents (Elt F)),
    StableHlo.binary main_v324 main_v325 main_v326 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v326 main_v327 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_101 (constantI S_ 32 0#32),
    StableHlo.unary main_c_101 main_v328 (broadcastInDim S1048576 ![] bcast_S_S1048576 : (⟨S_, .i32⟩ : BufTy).Contents (Elt F) → (⟨S1048576, .i32⟩ : BufTy).Contents (Elt F)),
    StableHlo.binary main_v310 main_v328 main_v329 (cmpi .slt : (⟨S1048576, .i32⟩ : BufTy).Contents (Elt F) → (⟨S1048576, .i32⟩ : BufTy).Contents (Elt F) → (⟨S1048576, .i1⟩ : BufTy).Contents (Elt F)),
    StableHlo.nullary main_c_102 (constantI S_ 32 512#32),
    StableHlo.unary main_c_102 main_v330 (broadcastInDim S1048576 ![] bcast_S_S1048576 : (⟨S_, .i32⟩ : BufTy).Contents (Elt F) → (⟨S1048576, .i32⟩ : BufTy).Contents (Elt F)),
    StableHlo.binary main_v310 main_v330 main_v331 (addi : (⟨S1048576, .i32⟩ : BufTy).Contents (Elt F) → (⟨S1048576, .i32⟩ : BufTy).Contents (Elt F) → (⟨S1048576, .i32⟩ : BufTy).Contents (Elt F)),
    StableHlo.ternary main_v329 main_v331 main_v310 main_v332 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_103 (constantI S_ 32 0#32),
    StableHlo.unary main_c_103 main_v333 (broadcastInDim S1048576 ![] bcast_S_S1048576 : (⟨S_, .i32⟩ : BufTy).Contents (Elt F) → (⟨S1048576, .i32⟩ : BufTy).Contents (Elt F)),
    StableHlo.binary main_v308 main_v333 main_v334 (cmpi .slt : (⟨S1048576, .i32⟩ : BufTy).Contents (Elt F) → (⟨S1048576, .i32⟩ : BufTy).Contents (Elt F) → (⟨S1048576, .i1⟩ : BufTy).Contents (Elt F)),
    StableHlo.nullary main_c_104 (constantI S_ 32 512#32),
    StableHlo.unary main_c_104 main_v335 (broadcastInDim S1048576 ![] bcast_S_S1048576 : (⟨S_, .i32⟩ : BufTy).Contents (Elt F) → (⟨S1048576, .i32⟩ : BufTy).Contents (Elt F)),
    StableHlo.binary main_v308 main_v335 main_v336 (addi : (⟨S1048576, .i32⟩ : BufTy).Contents (Elt F) → (⟨S1048576, .i32⟩ : BufTy).Contents (Elt F) → (⟨S1048576, .i32⟩ : BufTy).Contents (Elt F)),
    StableHlo.ternary main_v334 main_v336 main_v308 main_v337 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v332 main_v338 (broadcastInDim S1048576x1 ![0] bcast_S1048576_S1048576x1_0 : (⟨S1048576, .i32⟩ : BufTy).Contents (Elt F) → (⟨S1048576x1, .i32⟩ : BufTy).Contents (Elt F)),
    StableHlo.unary main_v337 main_v339 (broadcastInDim S1048576x1 ![0] bcast_S1048576_S1048576x1_0 : (⟨S1048576, .i32⟩ : BufTy).Contents (Elt F) → (⟨S1048576x1, .i32⟩ : BufTy).Contents (Elt F)),
    StableHlo.binary main_v338 main_v339 main_v340 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v340 main_v341 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_105 (constantI S_ 32 0#32),
    StableHlo.unary main_c_105 main_v342 (broadcastInDim S1048576 ![] bcast_S_S1048576 : (⟨S_, .i32⟩ : BufTy).Contents (Elt F) → (⟨S1048576, .i32⟩ : BufTy).Contents (Elt F)),
    StableHlo.binary main_v313 main_v342 main_v343 (cmpi .slt : (⟨S1048576, .i32⟩ : BufTy).Contents (Elt F) → (⟨S1048576, .i32⟩ : BufTy).Contents (Elt F) → (⟨S1048576, .i1⟩ : BufTy).Contents (Elt F)),
    StableHlo.nullary main_c_106 (constantI S_ 32 512#32),
    StableHlo.unary main_c_106 main_v344 (broadcastInDim S1048576 ![] bcast_S_S1048576 : (⟨S_, .i32⟩ : BufTy).Contents (Elt F) → (⟨S1048576, .i32⟩ : BufTy).Contents (Elt F)),
    StableHlo.binary main_v313 main_v344 main_v345 (addi : (⟨S1048576, .i32⟩ : BufTy).Contents (Elt F) → (⟨S1048576, .i32⟩ : BufTy).Contents (Elt F) → (⟨S1048576, .i32⟩ : BufTy).Contents (Elt F)),
    StableHlo.ternary main_v343 main_v345 main_v313 main_v346 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_107 (constantI S_ 32 0#32),
    StableHlo.unary main_c_107 main_v347 (broadcastInDim S1048576 ![] bcast_S_S1048576 : (⟨S_, .i32⟩ : BufTy).Contents (Elt F) → (⟨S1048576, .i32⟩ : BufTy).Contents (Elt F)),
    StableHlo.binary main_v305 main_v347 main_v348 (cmpi .slt : (⟨S1048576, .i32⟩ : BufTy).Contents (Elt F) → (⟨S1048576, .i32⟩ : BufTy).Contents (Elt F) → (⟨S1048576, .i1⟩ : BufTy).Contents (Elt F)),
    StableHlo.nullary main_c_108 (constantI S_ 32 512#32),
    StableHlo.unary main_c_108 main_v349 (broadcastInDim S1048576 ![] bcast_S_S1048576 : (⟨S_, .i32⟩ : BufTy).Contents (Elt F) → (⟨S1048576, .i32⟩ : BufTy).Contents (Elt F)),
    StableHlo.binary main_v305 main_v349 main_v350 (addi : (⟨S1048576, .i32⟩ : BufTy).Contents (Elt F) → (⟨S1048576, .i32⟩ : BufTy).Contents (Elt F) → (⟨S1048576, .i32⟩ : BufTy).Contents (Elt F)),
    StableHlo.ternary main_v348 main_v350 main_v305 main_v351 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v346 main_v352 (broadcastInDim S1048576x1 ![0] bcast_S1048576_S1048576x1_0 : (⟨S1048576, .i32⟩ : BufTy).Contents (Elt F) → (⟨S1048576x1, .i32⟩ : BufTy).Contents (Elt F)),
    StableHlo.unary main_v351 main_v353 (broadcastInDim S1048576x1 ![0] bcast_S1048576_S1048576x1_0 : (⟨S1048576, .i32⟩ : BufTy).Contents (Elt F) → (⟨S1048576x1, .i32⟩ : BufTy).Contents (Elt F)),
    StableHlo.binary main_v352 main_v353 main_v354 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v354 main_v355 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_c_109 (constantI S_ 32 0#32),
    StableHlo.unary main_c_109 main_v356 (broadcastInDim S1048576 ![] bcast_S_S1048576 : (⟨S_, .i32⟩ : BufTy).Contents (Elt F) → (⟨S1048576, .i32⟩ : BufTy).Contents (Elt F)),
    StableHlo.binary main_v313 main_v356 main_v357 (cmpi .slt : (⟨S1048576, .i32⟩ : BufTy).Contents (Elt F) → (⟨S1048576, .i32⟩ : BufTy).Contents (Elt F) → (⟨S1048576, .i1⟩ : BufTy).Contents (Elt F)),
    StableHlo.nullary main_c_110 (constantI S_ 32 512#32),
    StableHlo.unary main_c_110 main_v358 (broadcastInDim S1048576 ![] bcast_S_S1048576 : (⟨S_, .i32⟩ : BufTy).Contents (Elt F) → (⟨S1048576, .i32⟩ : BufTy).Contents (Elt F)),
    StableHlo.binary main_v313 main_v358 main_v359 (addi : (⟨S1048576, .i32⟩ : BufTy).Contents (Elt F) → (⟨S1048576, .i32⟩ : BufTy).Contents (Elt F) → (⟨S1048576, .i32⟩ : BufTy).Contents (Elt F)),
    StableHlo.ternary main_v357 main_v359 main_v313 main_v360 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_111 (constantI S_ 32 0#32),
    StableHlo.unary main_c_111 main_v361 (broadcastInDim S1048576 ![] bcast_S_S1048576 : (⟨S_, .i32⟩ : BufTy).Contents (Elt F) → (⟨S1048576, .i32⟩ : BufTy).Contents (Elt F)),
    StableHlo.binary main_v308 main_v361 main_v362 (cmpi .slt : (⟨S1048576, .i32⟩ : BufTy).Contents (Elt F) → (⟨S1048576, .i32⟩ : BufTy).Contents (Elt F) → (⟨S1048576, .i1⟩ : BufTy).Contents (Elt F)),
    StableHlo.nullary main_c_112 (constantI S_ 32 512#32),
    StableHlo.unary main_c_112 main_v363 (broadcastInDim S1048576 ![] bcast_S_S1048576 : (⟨S_, .i32⟩ : BufTy).Contents (Elt F) → (⟨S1048576, .i32⟩ : BufTy).Contents (Elt F)),
    StableHlo.binary main_v308 main_v363 main_v364 (addi : (⟨S1048576, .i32⟩ : BufTy).Contents (Elt F) → (⟨S1048576, .i32⟩ : BufTy).Contents (Elt F) → (⟨S1048576, .i32⟩ : BufTy).Contents (Elt F)) ]
theorem it7_0_sub : (it7_0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem it7_0_fresh : (it7_0 : List (HloOp τ sig (Elt F))).Forall fun op => op.fresh = ∅ := by
  simp only [List.Forall]; repeat' constructor
theorem it7_0_keeps (a : Ref sig .tc) (ha : a = main_arg0 ∨ a = main_arg1 ∨ a = main_arg2 ∨ a = main_arg3 ∨ a = main_arg4) :
    (it7_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part7_chain (c : Dev nD) : main_part7 (F := F) c = (Pipeline.chainK
  [  ]
  (seq it7_0) : Prog (TpuEff nD τ sig (Elt F) (Pipeline.Sig Λ₀ (Fin 0) fun p => (pcfgs (F := F) p).Adm) .tc) PUnit) := by
  chain_rfl

end Cert.ReferenceIdeal.RefRun

end
-- ==== Proof.RefOps8.lean ====
/- The reference's host program, one window of its statements: the operations in order, cut into stretches at each call of the
   clamping function, whose six operations (the bounds converted and broadcast, a maximum, a minimum) are written over that
   call's own buffers; and the window is the chain of those stretches. -/
import proofs.«145513_j83202106458409_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev it8_0 : List (HloOp τ sig (Elt F)) :=
  [ StableHlo.ternary main_v362 main_v364 main_v308 main_v365 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v360 main_v366 (broadcastInDim S1048576x1 ![0] bcast_S1048576_S1048576x1_0 : (⟨S1048576, .i32⟩ : BufTy).Contents (Elt F) → (⟨S1048576x1, .i32⟩ : BufTy).Contents (Elt F)),
    StableHlo.unary main_v365 main_v367 (broadcastInDim S1048576x1 ![0] bcast_S1048576_S1048576x1_0 : (⟨S1048576, .i32⟩ : BufTy).Contents (Elt F) → (⟨S1048576x1, .i32⟩ : BufTy).Contents (Elt F)),
    StableHlo.binary main_v366 main_v367 main_v368 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    StableHlo.binary main_arg3 main_v368 main_v369 ((fun x i => Host.gather gather_S32x512x512_S1048576x2_S32x1048576_0_12_n_n_12_1_3211 x i) : (⟨S32x512x512, .f32⟩ : BufTy).Contents (Elt F) → (⟨S1048576x2, .i32⟩ : BufTy).Contents (Elt F) → (⟨S32x1048576, .f32⟩ : BufTy).Contents (Elt F)),
    StableHlo.nullary main_cst_113 (constant S_ .f32 0x3F800000#32),
    StableHlo.unary main_cst_113 main_v370 (broadcastInDim S1048576 ![] bcast_S_S1048576 : (⟨S_, .f32⟩ : BufTy).Contents (Elt F) → (⟨S1048576, .f32⟩ : BufTy).Contents (Elt F)),
    StableHlo.binary main_v370 main_v302 main_v371 (subf : (⟨S1048576, .f32⟩ : BufTy).Contents (Elt F) → (⟨S1048576, .f32⟩ : BufTy).Contents (Elt F) → (⟨S1048576, .f32⟩ : BufTy).Contents (Elt F)),
    StableHlo.unary main_v371 main_v372 (broadcastInDim S1x1048576 ![1] bcast_S1048576_S1x1048576_1 : (⟨S1048576, .f32⟩ : BufTy).Contents (Elt F) → (⟨S1x1048576, .f32⟩ : BufTy).Contents (Elt F)),
    StableHlo.unary main_v372 main_v373 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v327 main_v373 main_v374 (mulf : (⟨S32x1048576, .f32⟩ : BufTy).Contents (Elt F) → (⟨S32x1048576, .f32⟩ : BufTy).Contents (Elt F) → (⟨S32x1048576, .f32⟩ : BufTy).Contents (Elt F)),
    StableHlo.nullary main_cst_114 (constant S_ .f32 0x3F800000#32),
    StableHlo.unary main_cst_114 main_v375 (broadcastInDim S1048576 ![] bcast_S_S1048576 : (⟨S_, .f32⟩ : BufTy).Contents (Elt F) → (⟨S1048576, .f32⟩ : BufTy).Contents (Elt F)),
    StableHlo.binary main_v375 main_v303 main_v376 (subf : (⟨S1048576, .f32⟩ : BufTy).Contents (Elt F) → (⟨S1048576, .f32⟩ : BufTy).Contents (Elt F) → (⟨S1048576, .f32⟩ : BufTy).Contents (Elt F)),
    StableHlo.unary main_v376 main_v377 (broadcastInDim S1x1048576 ![1] bcast_S1048576_S1x1048576_1 : (⟨S1048576, .f32⟩ : BufTy).Contents (Elt F) → (⟨S1x1048576, .f32⟩ : BufTy).Contents (Elt F)),
    StableHlo.unary main_v377 main_v378 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v374 main_v378 main_v379 (mulf : (⟨S32x1048576, .f32⟩ : BufTy).Contents (Elt F) → (⟨S32x1048576, .f32⟩ : BufTy).Contents (Elt F) → (⟨S32x1048576, .f32⟩ : BufTy).Contents (Elt F)),
    StableHlo.unary main_v302 main_v380 (broadcastInDim S1x1048576 ![1] bcast_S1048576_S1x1048576_1 : (⟨S1048576, .f32⟩ : BufTy).Contents (Elt F) → (⟨S1x1048576, .f32⟩ : BufTy).Contents (Elt F)),
    StableHlo.unary main_v380 main_v381 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v341 main_v381 main_v382 (mulf : (⟨S32x1048576, .f32⟩ : BufTy).Contents (Elt F) → (⟨S32x1048576, .f32⟩ : BufTy).Contents (Elt F) → (⟨S32x1048576, .f32⟩ : BufTy).Contents (Elt F)),
    StableHlo.nullary main_cst_115 (constant S_ .f32 0x3F800000#32),
    StableHlo.unary main_cst_115 main_v383 (broadcastInDim S1048576 ![] bcast_S_S1048576 : (⟨S_, .f32⟩ : BufTy).Contents (Elt F) → (⟨S1048576, .f32⟩ : BufTy).Contents (Elt F)),
    StableHlo.binary main_v383 main_v303 main_v384 (subf : (⟨S1048576, .f32⟩ : BufTy).Contents (Elt F) → (⟨S1048576, .f32⟩ : BufTy).Contents (Elt F) → (⟨S1048576, .f32⟩ : BufTy).Contents (Elt F)),
    StableHlo.unary main_v384 main_v385 (broadcastInDim S1x1048576 ![1] bcast_S1048576_S1x1048576_1 : (⟨S1048576, .f32⟩ : BufTy).Contents (Elt F) → (⟨S1x1048576, .f32⟩ : BufTy).Contents (Elt F)),
    StableHlo.unary main_v385 main_v386 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v382 main_v386 main_v387 (mulf : (⟨S32x1048576, .f32⟩ : BufTy).Contents (Elt F) → (⟨S32x1048576, .f32⟩ : BufTy).Contents (Elt F) → (⟨S32x1048576, .f32⟩ : BufTy).Contents (Elt F)),
    StableHlo.binary main_v379 main_v387 main_v388 (addf : (⟨S32x1048576, .f32⟩ : BufTy).Contents (Elt F) → (⟨S32x1048576, .f32⟩ : BufTy).Contents (Elt F) → (⟨S32x1048576, .f32⟩ : BufTy).Contents (Elt F)),
    StableHlo.nullary main_cst_116 (constant S_ .f32 0x3F800000#32),
    StableHlo.unary main_cst_116 main_v389 (broadcastInDim S1048576 ![] bcast_S_S1048576 : (⟨S_, .f32⟩ : BufTy).Contents (Elt F) → (⟨S1048576, .f32⟩ : BufTy).Contents (Elt F)),
    StableHlo.binary main_v389 main_v302 main_v390 (subf : (⟨S1048576, .f32⟩ : BufTy).Contents (Elt F) → (⟨S1048576, .f32⟩ : BufTy).Contents (Elt F) → (⟨S1048576, .f32⟩ : BufTy).Contents (Elt F)),
    StableHlo.unary main_v390 main_v391 (broadcastInDim S1x1048576 ![1] bcast_S1048576_S1x1048576_1 : (⟨S1048576, .f32⟩ : BufTy).Contents (Elt F) → (⟨S1x1048576, .f32⟩ : BufTy).Contents (Elt F)),
    StableHlo.unary main_v391 main_v392 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v355 main_v392 main_v393 (mulf : (⟨S32x1048576, .f32⟩ : BufTy).Contents (Elt F) → (⟨S32x1048576, .f32⟩ : BufTy).Contents (Elt F) → (⟨S32x1048576, .f32⟩ : BufTy).Contents (Elt F)),
    StableHlo.unary main_v303 main_v394 (broadcastInDim S1x1048576 ![1] bcast_S1048576_S1x1048576_1 : (⟨S1048576, .f32⟩ : BufTy).Contents (Elt F) → (⟨S1x1048576, .f32⟩ : BufTy).Contents (Elt F)),
    StableHlo.unary main_v394 main_v395 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v393 main_v395 main_v396 (mulf : (⟨S32x1048576, .f32⟩ : BufTy).Contents (Elt F) → (⟨S32x1048576, .f32⟩ : BufTy).Contents (Elt F) → (⟨S32x1048576, .f32⟩ : BufTy).Contents (Elt F)),
    StableHlo.binary main_v388 main_v396 main_v397 (addf : (⟨S32x1048576, .f32⟩ : BufTy).Contents (Elt F) → (⟨S32x1048576, .f32⟩ : BufTy).Contents (Elt F) → (⟨S32x1048576, .f32⟩ : BufTy).Contents (Elt F)),
    StableHlo.unary main_v302 main_v398 (broadcastInDim S1x1048576 ![1] bcast_S1048576_S1x1048576_1 : (⟨S1048576, .f32⟩ : BufTy).Contents (Elt F) → (⟨S1x1048576, .f32⟩ : BufTy).Contents (Elt F)),
    StableHlo.unary main_v398 main_v399 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v369 main_v399 main_v400 (mulf : (⟨S32x1048576, .f32⟩ : BufTy).Contents (Elt F) → (⟨S32x1048576, .f32⟩ : BufTy).Contents (Elt F) → (⟨S32x1048576, .f32⟩ : BufTy).Contents (Elt F)),
    StableHlo.unary main_v303 main_v401 (broadcastInDim S1x1048576 ![1] bcast_S1048576_S1x1048576_1 : (⟨S1048576, .f32⟩ : BufTy).Contents (Elt F) → (⟨S1x1048576, .f32⟩ : BufTy).Contents (Elt F)),
    StableHlo.unary main_v401 main_v402 (broadcastInDim S32x1048576 ![0, 1] bcast_S1x1048576_S32x1048576_0_1 : (⟨S1x1048576, .f32⟩ : BufTy).Contents (Elt F) → (⟨S32x1048576, .f32⟩ : BufTy).Contents (Elt F)),
    StableHlo.binary main_v400 main_v402 main_v403 (mulf : (⟨S32x1048576, .f32⟩ : BufTy).Contents (Elt F) → (⟨S32x1048576, .f32⟩ : BufTy).Contents (Elt F) → (⟨S32x1048576, .f32⟩ : BufTy).Contents (Elt F)),
    StableHlo.binary main_v397 main_v403 main_v404 (addf : (⟨S32x1048576, .f32⟩ : BufTy).Contents (Elt F) → (⟨S32x1048576, .f32⟩ : BufTy).Contents (Elt F) → (⟨S32x1048576, .f32⟩ : BufTy).Contents (Elt F)),
    StableHlo.unary main_v404 main_v405 ((transpose S1048576x32 [1, 0] · transposes_S32x1048576_S1048576x32_1_0) : (⟨S32x1048576, .f32⟩ : BufTy).Contents (Elt F) → (⟨S1048576x32, .f32⟩ : BufTy).Contents (Elt F)) ]
theorem it8_0_sub : (it8_0 : List (HloOp τ sig (Elt F))).Forall fun op => op.bufs ⊆ tcRefs τ sig :=
  ⟨ternary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub ..⟩
theorem it8_0_fresh : (it8_0 : List (HloOp τ sig (Elt F))).Forall fun op => op.fresh = ∅ := by
  simp only [List.Forall]; repeat' constructor
theorem it8_0_keeps (a : Ref sig .tc) (ha : a = main_arg0 ∨ a = main_arg1 ∨ a = main_arg2 ∨ a = main_arg3 ∨ a = main_arg4) :
    (it8_0 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

abbrev it8_1 : List (HloOp τ sig (Elt F)) :=
  [ StableHlo.binary main_v276 main_v405 main_v406 (mulf : (⟨S1048576x32, .f32⟩ : BufTy).Contents (Elt F) → (⟨S1048576x32, .f32⟩ : BufTy).Contents (Elt F) → (⟨S1048576x32, .f32⟩ : BufTy).Contents (Elt F)),
    StableHlo.nullary main_cst_117 (constant S_ .f32 0x00000000#32),
    StableHlo.binary main_v406 main_cst_117 main_v407 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    StableHlo.nullary main_cst_118 (constant S_ .f32 0x42000000#32),
    StableHlo.unary main_cst_118 main_v408 (broadcastInDim S1048576 ![] bcast_S_S1048576 : (⟨S_, .f32⟩ : BufTy).Contents (Elt F) → (⟨S1048576, .f32⟩ : BufTy).Contents (Elt F)),
    StableHlo.binary main_v407 main_v408 main_v409 (Host.divf : (⟨S1048576, .f32⟩ : BufTy).Contents (Elt F) → (⟨S1048576, .f32⟩ : BufTy).Contents (Elt F) → (⟨S1048576, .f32⟩ : BufTy).Contents (Elt F)),
    StableHlo.reshape main_v409 main_v410 rfl shapeCasts_S1048576_S8192x128x1,
    StableHlo.unary main_v410 main_v411 (Host.exp : (⟨S8192x128x1, .f32⟩ : BufTy).Contents (Elt F) → (⟨S8192x128x1, .f32⟩ : BufTy).Contents (Elt F)) ]
theorem it8_1_sub : (it8_1 : List (HloOp τ sig (Elt F))).Forall fun op => op.bufs ⊆ tcRefs τ sig :=
  ⟨binary_bufs_sub .., nullary_bufs_sub .., binary_bufs_sub .., nullary_bufs_sub .., unary_bufs_sub .., binary_bufs_sub .., reshape_bufs_sub .., unary_bufs_sub ..⟩
theorem it8_1_fresh : (it8_1 : List (HloOp τ sig (Elt F))).Forall fun op => op.fresh = ∅ := by
  simp only [List.Forall]; repeat' constructor
theorem it8_1_keeps (a : Ref sig .tc) (ha : a = main_arg0 ∨ a = main_arg1 ∨ a = main_arg2 ∨ a = main_arg3 ∨ a = main_arg4) :
    (it8_1 : List (HloOp τ sig (Elt F))).Forall fun op => Proc.devRef (τ := τ) .tc a ∉ op.writes := by
  rcases ha with rfl | rfl | rfl | rfl | rfl <;>
  (simp only [List.Forall, nullary_writes, unary_writes, binary_writes, ternary_writes, reshape_writes, Finset.mem_singleton]
   repeat' apply And.intro
   all_goals exact devRef_ne_of_ne (by decide))

theorem part8_chain (c : Dev nD) : main_part8 (F := F) c = (Pipeline.chain
  [ seq it8_0,
    seq it8_1 ] : Prog (TpuEff nD τ sig (Elt F) (Pipeline.Sig Λ₀ (Fin 0) fun p => (pcfgs (F := F) p).Adm) .tc) PUnit) := by
  chain_rfl

end Cert.ReferenceIdeal.RefRun

end
-- ==== Proof.RefRun.lean ====
/-
  The reference's host program as ONE straight line. Its @main is printed in nine windows; each window is the chain of its
  stretches (the windows' modules; a stretch ends at each call of the clamping function and before each product of two sampled planes), so @main is the chain of all thirty-five stretches, and a chain of straight lines is
  the straight line of their concatenation: 593 host operations in order. Every weakly fair execution of a straight line
  terminates with each buffer at the fold of the operations' results over the launch contents. No operation writes an
  argument array (each writes only its own result buffer), so the five argument arrays end as launched.
-/
import proofs.«145513_j83202106458409_2_alg».proof.Proof.RefOps0
import proofs.«145513_j83202106458409_2_alg».proof.Proof.RefOps1
import proofs.«145513_j83202106458409_2_alg».proof.Proof.RefOps2
import proofs.«145513_j83202106458409_2_alg».proof.Proof.RefOps3
import proofs.«145513_j83202106458409_2_alg».proof.Proof.RefOps4
import proofs.«145513_j83202106458409_2_alg».proof.Proof.RefOps5
import proofs.«145513_j83202106458409_2_alg».proof.Proof.RefOps6
import proofs.«145513_j83202106458409_2_alg».proof.Proof.RefOps7
import proofs.«145513_j83202106458409_2_alg».proof.Proof.RefOps8
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stretches of @main, in order. -/
abbrev items : List (List (HloOp τ sig (Elt F))) :=
  [ it0_0, it0_1, it0_2, it1_0, it1_1, it1_2, it1_3, it1_4, it1_5, it1_6, it1_7, it1_8, it2_0, it3_0, it3_1, it3_2, it3_3, it3_4, it3_5, it3_6, it3_7, it3_8, it4_0, it4_1, it4_2, it5_0, it5_1, it6_0, it6_1, it6_2, it6_3, it6_4, it6_5, it6_6, it6_7, it6_8, it6_9, it7_0, it8_0, it8_1 ]

/-- @main's operations, in order. -/
abbrev ops : List (HloOp τ sig (Elt F)) := (items (F := F)).flatten

/-- A chain of straight lines is the straight line of their concatenation. -/
theorem chain_map_seq {Λ : Labels} (L : List (List (HloOp τ sig (Elt F)))) :
    Pipeline.chain (L.map fun l => (seq l : Prog (TpuEff nD τ sig (Elt F) Λ .tc) PUnit)) = seq L.flatten := by
  induction L with
  | nil => rfl
  | cons l L ih => rw [List.map_cons, Pipeline.chain_cons, List.flatten_cons, seq_append, ih]

/-- A property of every operation of every stretch holds of every operation of the concatenation. -/
theorem forall_flatten {α : Type} {p : α → Prop} {L : List (List α)} (h : L.Forall fun l => l.Forall p) : L.flatten.Forall p :=
  List.forall_iff_forall_mem.mpr fun a ha => by
    obtain ⟨l, hl, hal⟩ := List.mem_flatten.mp ha
    exact List.forall_iff_forall_mem.mp (List.forall_iff_forall_mem.mp h l hl) a hal

/-- @main is the chain of its stretches: the windows' equations joined at the window boundaries. -/
theorem main_chain (c : Dev nD) : main (F := F) c = (Pipeline.chain
  [ seq it0_0,
    seq it0_1,
    seq it0_2,
    seq it1_0,
    seq it1_1,
    seq it1_2,
    seq it1_3,
    seq it1_4,
    seq it1_5,
    seq it1_6,
    seq it1_7,
    seq it1_8,
    seq it2_0,
    seq it3_0,
    seq it3_1,
    seq it3_2,
    seq it3_3,
    seq it3_4,
    seq it3_5,
    seq it3_6,
    seq it3_7,
    seq it3_8,
    seq it4_0,
    seq it4_1,
    seq it4_2,
    seq it5_0,
    seq it5_1,
    seq it6_0,
    seq it6_1,
    seq it6_2,
    seq it6_3,
    seq it6_4,
    seq it6_5,
    seq it6_6,
    seq it6_7,
    seq it6_8,
    seq it6_9,
    seq it7_0,
    seq it8_0,
    seq it8_1 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c) = _
  rewrite [part8_chain, part7_chain, Pipeline.chainK_bind_chain, part6_chain, Pipeline.chainK_bind_chain, part5_chain, Pipeline.chainK_bind_chain, part4_chain, Pipeline.chainK_bind_chain, part3_chain, Pipeline.chainK_bind_chain, part2_chain, Pipeline.chainK_bind_chain, part1_chain, Pipeline.chainK_bind_chain, part0_chain, Pipeline.chainK_bind_chain]
  chain_rfl

/-- @main is the straight line of its operations. -/
theorem main_eq (c : Dev nD) : main (F := F) c = seq (ops (F := F)) :=
  (main_chain c).trans (chain_map_seq (items (F := F)))

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_flatten (L := items) ⟨it0_0_sub, it0_1_sub, it0_2_sub, it1_0_sub, it1_1_sub, it1_2_sub, it1_3_sub, it1_4_sub, it1_5_sub, it1_6_sub, it1_7_sub, it1_8_sub, it2_0_sub, it3_0_sub, it3_1_sub, it3_2_sub, it3_3_sub, it3_4_sub, it3_5_sub, it3_6_sub, it3_7_sub, it3_8_sub, it4_0_sub, it4_1_sub, it4_2_sub, it5_0_sub, it5_1_sub, it6_0_sub, it6_1_sub, it6_2_sub, it6_3_sub, it6_4_sub, it6_5_sub, it6_6_sub, it6_7_sub, it6_8_sub, it6_9_sub, it7_0_sub, it8_0_sub, it8_1_sub⟩

/-- Every operation determines its result. -/
theorem ops_fresh : (ops : List (HloOp τ sig (Elt F))).Forall fun op => op.fresh = ∅ :=
  forall_flatten (L := items) ⟨it0_0_fresh, it0_1_fresh, it0_2_fresh, it1_0_fresh, it1_1_fresh, it1_2_fresh, it1_3_fresh, it1_4_fresh, it1_5_fresh, it1_6_fresh, it1_7_fresh, it1_8_fresh, it2_0_fresh, it3_0_fresh, it3_1_fresh, it3_2_fresh, it3_3_fresh, it3_4_fresh, it3_5_fresh, it3_6_fresh, it3_7_fresh, it3_8_fresh, it4_0_fresh, it4_1_fresh, it4_2_fresh, it5_0_fresh, it5_1_fresh, it6_0_fresh, it6_1_fresh, it6_2_fresh, it6_3_fresh, it6_4_fresh, it6_5_fresh, it6_6_fresh, it6_7_fresh, it6_8_fresh, it6_9_fresh, it7_0_fresh, it8_0_fresh, it8_1_fresh⟩

/-- No operation writes an argument array. -/
theorem ops_keeps (a : Ref sig .tc) (ha : a = main_arg0 ∨ a = main_arg1 ∨ a = main_arg2 ∨ a = main_arg3 ∨ a = main_arg4) :
    (ops : List (HloOp τ sig (Elt F))).Forall fun op => Proc.devRef (τ := τ) .tc a ∉ op.writes :=
  forall_flatten (L := items) ⟨it0_0_keeps a ha, it0_1_keeps a ha, it0_2_keeps a ha, it1_0_keeps a ha, it1_1_keeps a ha, it1_2_keeps a ha, it1_3_keeps a ha, it1_4_keeps a ha, it1_5_keeps a ha, it1_6_keeps a ha, it1_7_keeps a ha, it1_8_keeps a ha, it2_0_keeps a ha, it3_0_keeps a ha, it3_1_keeps a ha, it3_2_keeps a ha, it3_3_keeps a ha, it3_4_keeps a ha, it3_5_keeps a ha, it3_6_keeps a ha, it3_7_keeps a ha, it3_8_keeps a ha, it4_0_keeps a ha, it4_1_keeps a ha, it4_2_keeps a ha, it5_0_keeps a ha, it5_1_keeps a ha, it6_0_keeps a ha, it6_1_keeps a ha, it6_2_keeps a ha, it6_3_keeps a ha, it6_4_keeps a ha, it6_5_keeps a ha, it6_6_keeps a ha, it6_7_keeps a ha, it6_8_keeps a ha, it6_9_keeps a ha, it7_0_keeps a ha, it8_0_keeps a ha, it8_1_keeps a ha⟩

/-- So an argument array reads after the whole line as before it. -/
theorem kept (a : Ref sig .tc) (ha : a = main_arg0 ∨ a = main_arg1 ∨ a = main_arg2 ∨ a = main_arg3 ∨ a = main_arg4)
    (V : Valuation τ sig (Elt F)) : after ops V (Proc.devRef .tc a) = V (Proc.devRef .tc a) :=
  after_of_forall_not_mem (b := Proc.devRef .tc a) _ _ (List.forall_iff_forall_mem.mp (ops_keeps a ha))

/-- Every weakly fair execution of @main terminates, and every final state has each TensorCore buffer at the fold of the
    593 operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefTailRead.lean ====
/-
  The reference's last steps read off its straight line. The product of the first two sampled planes is formed where the
  second plane ends, and no later operation writes it or the planes; the last nine operations multiply it by the third
  plane, sum each row of 32 entries from zero, divide by 32, reshape to [8192,128,1] and exponentiate. So the result buffer
  is that composition of the three planes' buffers, all read after the whole line.
-/
import proofs.«145513_j83202106458409_2_alg».proof.Proof.RefRun
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The last steps as one function of the product of the first two planes and the third plane. -/
def tailBody (p yz : FVec F S1048576x32 .f32) : FVec F S8192x128x1 .f32 :=
  Host.exp (shapeCast S8192x128x1
    (Host.divf (Host.reduceAdd (mulf p yz) (constant S_ .f32 0x00000000#32) reducesTo_S1048576x32_S1048576_d1 h_S_)
      (broadcastInDim S1048576 ![] bcast_S_S1048576 (constant S_ .f32 0x42000000#32)))
    shapeCasts_S1048576_S8192x128x1)

/-- The last nine operations, from any contents: the result buffer from the product's and the third plane's buffers. -/
theorem tail_read (W : Valuation τ sig (Elt F)) :
    after it8_1 W (Proc.devRef .tc main_v411) = tailBody (W (Proc.devRef .tc main_v276)) (W (Proc.devRef .tc main_v405)) := by
  unfold tailBody
  after_results_simp
  rfl

theorem tail_keep_v276 (W : Valuation τ sig (Elt F)) :
    after it8_1 W (Proc.devRef .tc main_v276) = W (Proc.devRef .tc main_v276) := by
  after_results_simp

theorem tail_keep_v405 (W : Valuation τ sig (Elt F)) :
    after it8_1 W (Proc.devRef .tc main_v405) = W (Proc.devRef .tc main_v405) := by
  after_results_simp

/-- After the whole line the result is the last steps of the product's and the third plane's final contents. -/
theorem read_result (V : Valuation τ sig (Elt F)) :
    after ops V (Proc.devRef .tc main_v411)
      = tailBody (after ops V (Proc.devRef .tc main_v276)) (after ops V (Proc.devRef .tc main_v405)) := by
  simp only [ops, items, List.flatten_cons, List.flatten_nil, List.append_nil, StableHlo.after_append]
  rw [tail_read, tail_keep_v276, tail_keep_v405]

/-- From the product's definition on: the product's buffer ends at the product of the two planes' buffers as they were. -/
theorem mid_read (W : Valuation τ sig (Elt F)) :
    after it8_1 (after it8_0 (after it7_0 (after it6_9 (after it6_8 (after it6_7 (after it6_6 (after it6_5 (after it6_4 (after it6_3 (after it6_2 (after it6_1 (after it6_0 (after it5_1 (W)))))))))))))) (Proc.devRef .tc main_v276)
      = mulf (W (Proc.devRef .tc main_v146)) (W (Proc.devRef .tc main_v275)) := by
  after_results_simp

theorem mid_keep_v146 (W : Valuation τ sig (Elt F)) :
    after it8_1 (after it8_0 (after it7_0 (after it6_9 (after it6_8 (after it6_7 (after it6_6 (after it6_5 (after it6_4 (after it6_3 (after it6_2 (after it6_1 (after it6_0 (after it5_1 (W)))))))))))))) (Proc.devRef .tc main_v146) = W (Proc.devRef .tc main_v146) := by
  after_results_simp

theorem mid_keep_v275 (W : Valuation τ sig (Elt F)) :
    after it8_1 (after it8_0 (after it7_0 (after it6_9 (after it6_8 (after it6_7 (after it6_6 (after it6_5 (after it6_4 (after it6_3 (after it6_2 (after it6_1 (after it6_0 (after it5_1 (W)))))))))))))) (Proc.devRef .tc main_v275) = W (Proc.devRef .tc main_v275) := by
  after_results_simp

/-- After the whole line the product's buffer is the product of the first two planes' final contents. -/
theorem read_product (V : Valuation τ sig (Elt F)) :
    after ops V (Proc.devRef .tc main_v276)
      = mulf (after ops V (Proc.devRef .tc main_v146)) (after ops V (Proc.devRef .tc main_v275)) := by
  simp only [ops, items, List.flatten_cons, List.flatten_nil, List.append_nil, StableHlo.after_append]
  rw [mid_read, mid_keep_v146, mid_keep_v275]

/-- The reference's result, as the last steps of its three sampled planes. -/
theorem result_eq (V : Valuation τ sig (Elt F)) :
    after ops V (Proc.devRef .tc main_v411)
      = tailBody (mulf (after ops V (Proc.devRef .tc main_v146)) (after ops V (Proc.devRef .tc main_v275)))
          (after ops V (Proc.devRef .tc main_v405)) := by
  rw [read_result, read_product]

end Cert.ReferenceIdeal.RefRun

end
-- ==== Proof.KvSpec.lean ====
/- The density field of three sampled planes as ONE function of three arrays, index by index: at ray `P` and
   sample `Q` the exponential of the lane sum `∑ k, a (P, Q, k) · b (P, Q, k) · c (P, Q, k)` times `2⁻⁵`. Stated over
   literal shapes and literal `Fin` coordinates, with the row-major reads of the reshapes that relate the
   `[1048576, 32]`, `[8192, 128, 32]`, `[8192, 128]`, `[1048576]` and `[8192, 128, 1]` layouts, and the two float
   words `32` and `1 / 32` as the reals they denote. -/
import Idealize.ShloMosaic.PureOps.Ideal.Laws
import Idealize.ShloMosaic.Lib.ValueIdx
import Idealize.ShloMosaic.Lib.Pipeline.Value

noncomputable section

namespace Cert.KernelIdeal.KV

open Idealize.ShloMosaic Idealize.ShloMosaic.ValueIdx

/-! ## Row-major positions at literal extents -/

theorem rm1 (n0 : Nat) (i : (⟨1, ![n0]⟩ : Shape).Idx) : ((⟨1, ![n0]⟩ : Shape).rowMajor i).val = (i 0).val :=
  Shape.rowMajor_val_one i

theorem rm2 (n0 n1 : Nat) (i : (⟨2, ![n0, n1]⟩ : Shape).Idx) :
    ((⟨2, ![n0, n1]⟩ : Shape).rowMajor i).val = (i 0).val * n1 + (i 1).val :=
  Shape.rowMajor_val_two i

theorem rm3 (n0 n1 n2 : Nat) (i : (⟨3, ![n0, n1, n2]⟩ : Shape).Idx) :
    ((⟨3, ![n0, n1, n2]⟩ : Shape).rowMajor i).val = ((i 0).val * n1 + (i 1).val) * n2 + (i 2).val :=
  Shape.rowMajor_val_three i

/-! ## The function -/

/-- At ray `P`, sample `Q`: `exp ((∑ k, a · b · c at (P, Q, k)) · 2⁻⁵)`, the float word of `2⁻⁵` kept as a word. -/
def dens (a b c : FVec Ideal ⟨3, ![8192, 128, 32]⟩ .f32) (P : Fin 8192) (Q : Fin 128) : EReal :=
  Ideal.exp ((∑ k : Fin 32, a (ix3 P Q k) * b (ix3 P Q k) * c (ix3 P Q k)) * Ideal.ofBits .f32 0x3D000000#32)

/-- The same over the `[8192, 128]` indices. -/
def dens2 (a b c : FVec Ideal ⟨3, ![8192, 128, 32]⟩ .f32) : FVec Ideal ⟨2, ![8192, 128]⟩ .f32 :=
  fun i => dens a b c (i 0) (i 1)

/-- The density field: the same over the `[8192, 128, 1]` indices. -/
def density (a b c : FVec Ideal ⟨3, ![8192, 128, 32]⟩ .f32) : FVec Ideal ⟨3, ![8192, 128, 1]⟩ .f32 :=
  fun j => dens a b c (j 0) (j 1)

theorem dens2_apply (a b c : FVec Ideal ⟨3, ![8192, 128, 32]⟩ .f32) (i : (⟨2, ![8192, 128]⟩ : Shape).Idx)
    (P : Fin 8192) (Q : Fin 128) (h0 : (i 0).val = P.val) (h1 : (i 1).val = Q.val) :
    dens2 a b c i = dens a b c P Q := by
  have e0 : i 0 = P := Fin.ext h0
  have e1 : i 1 = Q := Fin.ext h1
  show dens a b c (i 0) (i 1) = _
  rw [e0, e1]

/-- Adding the trailing unit axis to `dens2` gives `density`: `(P, Q, 0)` and `(P, Q)` sit at one row-major position. -/
theorem cast_dens2 (a b c : FVec Ideal ⟨3, ![8192, 128, 32]⟩ .f32)
    (h : (⟨2, ![8192, 128]⟩ : Shape).ShapeCasts ⟨3, ![8192, 128, 1]⟩) :
    shapeCast ⟨3, ![8192, 128, 1]⟩ (dens2 a b c) h = density a b c := by
  funext j
  refine (shapeCast_apply (dens2 a b c) h j (ix2 (j 0) (j 1)) ?_).trans rfl
  have h2 : (j 2).val < 1 := (j 2).isLt
  rw [rm2, rm3]
  show (j 0).val * 128 + (j 1).val = ((j 0).val * 128 + (j 1).val) * 1 + (j 2).val
  omega

/-! ## The reshapes read at an index -/

/-- `[1048576, 32] → [8192, 128, 32]`: row `128 · P + Q`. -/
theorem cast_planes_apply (A : FVec Ideal ⟨2, ![1048576, 32]⟩ .f32)
    (h : (⟨2, ![1048576, 32]⟩ : Shape).ShapeCasts ⟨3, ![8192, 128, 32]⟩) (P : Fin 8192) (Q : Fin 128) (k : Fin 32)
    (n : Fin 1048576) (hn : n.val = P.val * 128 + Q.val) :
    shapeCast ⟨3, ![8192, 128, 32]⟩ A h (ix3 P Q k) = A (ix2 n k) := by
  refine shapeCast_apply A h (ix3 P Q k) (ix2 n k) ?_
  rw [rm2, rm3]
  show n.val * 32 + k.val = (P.val * 128 + Q.val) * 32 + k.val
  rw [hn]

/-- `[1048576] → [8192, 128, 1]`: element `128 · P + Q`. -/
theorem cast_rows_apply (X : FVec Ideal ⟨1, ![1048576]⟩ .f32)
    (h : (⟨1, ![1048576]⟩ : Shape).ShapeCasts ⟨3, ![8192, 128, 1]⟩) (j : (⟨3, ![8192, 128, 1]⟩ : Shape).Idx)
    (n : Fin 1048576) (hn : n.val = (j 0).val * 128 + (j 1).val) :
    shapeCast ⟨3, ![8192, 128, 1]⟩ X h j = X (ix1 n) := by
  refine shapeCast_apply X h j (ix1 n) ?_
  have h2 : (j 2).val < 1 := (j 2).isLt
  rw [rm1, rm3]
  show n.val = ((j 0).val * 128 + (j 1).val) * 1 + (j 2).val
  omega

/-! ## The two float words -/

/-- The word of `32.0`. -/
theorem ofBits_32 : Ideal.ofBits .f32 0x42000000#32 = ((32 : ℝ) : EReal) := by
  simp [Ideal.ofBits, Ideal.ieee, -EReal.coe_mul]; norm_num

/-- The word of `0.03125 = 2⁻⁵`. -/
theorem ofBits_inv32 : Ideal.ofBits .f32 0x3D000000#32 = ((1 / 32 : ℝ) : EReal) := by
  simp [Ideal.ofBits, Ideal.ieee, -EReal.coe_mul]; norm_num

/-- Dividing a sum started from the zero word by `32` is multiplying it by `2⁻⁵`, on every extended real. -/
theorem div32 (s : EReal) :
    Ideal.div (Ideal.ofBits .f32 0x00000000#32 + s) (Ideal.ofBits .f32 0x42000000#32) = s * Ideal.ofBits .f32 0x3D000000#32 := by
  rw [Ideal.ofBits_zero_f32, zero_add, ofBits_32, ofBits_inv32, Ideal.div_coe (by norm_num : (32 : ℝ) ≠ 0)]

end Cert.KernelIdeal.KV

end
-- ==== Proof.KvPayload.lean ====
/- The kernel body's arithmetic read at an index: at row `p`, column `q` of a `[64, 128, 32]` block triple the stored value is
   the exponential of the lane sum of the three blocks' product at `(p, q, ·)`, times the word of `2⁻⁵`. -/
import proofs.«145513_j83202106458409_2_alg».proof.Proof.Gen.KernelIdeal.Skeleton
import proofs.«145513_j83202106458409_2_alg».proof.Proof.KvSpec

noncomputable section

namespace Cert.KernelIdeal.KV

open Idealize.ShloMosaic Idealize.ShloMosaic.ValueIdx Cert.KernelIdeal Cert.KernelIdeal.Gen

/-- A sum over the last axis of a `[64, 128, 32]` block, read at `(p, q)`: the sum over the 32 lanes at `(p, q, k)`. -/
theorem lane_sum (src : FVec Ideal S64x128x32 .f32) (h : S64x128x32.Reduces [2] S64x128) (hφ : FKind.Formats .f32)
    (hacc : (0x00000000#32 : BitVec 32) = FKind.add.neutral .f32 hφ) (p : Fin 64) (q : Fin 128) :
    multiReduction .add [2] S64x128 src 0x00000000#32 h hφ hacc (ix2 p q) = ∑ k : Fin 32, src (ix3 p q k) := by
  refine (Ideal.multiReduction_add_single src 0x00000000#32 h hφ hacc (ix2 p q)).trans ?_
  show ∑ k : Fin 32, src (h.lift (ix2 p q) k) = _
  refine Finset.sum_congr rfl fun k _ => congrArg src ?_
  funext a
  apply Fin.ext
  match a with
  | ⟨0, _⟩ => rfl
  | ⟨1, _⟩ => rfl
  | ⟨2, _⟩ => rfl

/-- The body's stored value at `(p, q)`. -/
theorem pay_apply (x0 x1 x2 : FVec Ideal S64x128x32 .f32) (p : Fin 64) (q : Fin 128) :
    k0_pay1 (F := Ideal) x0 x1 x2 (ix2 p q)
      = Ideal.exp ((∑ k : Fin 32, x0 (ix3 p q k) * x1 (ix3 p q k) * x2 (ix3 p q k)) * Ideal.ofBits .f32 0x3D000000#32) := by
  unfold k0_pay1
  simp only [shapeCast_self]
  show Ideal.exp (multiReduction (F := Ideal) .add [2] S64x128 (mulf (mulf x0 x1) x2) 0x00000000#32 _ _ _ (ix2 p q)
      * Ideal.ofBits .f32 0x3D000000#32) = _
  exact congrArg (fun s => Ideal.exp (s * Ideal.ofBits .f32 0x3D000000#32)) (lane_sum _ _ _ _ p q)

/-- The same at any index of the block whose coordinates are `p` and `q`. -/
theorem pay_at (x0 x1 x2 : FVec Ideal S64x128x32 .f32) (y : S64x128.Idx) (p : Fin 64) (q : Fin 128)
    (hp : (y 0).val = p.val) (hq : (y 1).val = q.val) :
    k0_pay1 (F := Ideal) x0 x1 x2 y
      = Ideal.exp ((∑ k : Fin 32, x0 (ix3 p q k) * x1 (ix3 p q k) * x2 (ix3 p q k)) * Ideal.ofBits .f32 0x3D000000#32) := by
  obtain rfl : y = ix2 p q := by
    funext a
    apply Fin.ext
    match a with
    | ⟨0, _⟩ => exact hp
    | ⟨1, _⟩ => exact hq
  exact pay_apply x0 x1 x2 p q

end Cert.KernelIdeal.KV

end
-- ==== Proof.KvBlocks.lean ====
/- From the blocks to the array. Grid point `t` of the 128 reads rows `64 t … 64 t + 63` of the three `[8192, 128, 32]` planes
   and writes rows `64 t … 64 t + 63` of the `[8192, 128]` result; what it writes is the block of ONE function of the three
   planes, `dens2`; the 128 blocks cover the result; so the result array ends holding `dens2` of the planes as the region
   finds them. -/
import proofs.«145513_j83202106458409_2_alg».proof.Proof.KernelIdealFrame
import proofs.«145513_j83202106458409_2_alg».proof.Proof.KvPayload
import Idealize.ShloMosaic.Lib.Pipeline.Value

noncomputable section

namespace Cert.KernelIdeal.KV

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the 128 points: every window's block index is `(t, 0, …)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Plane 0's block at point `t`, at `(p, q, k)`: the plane at row `64 t + p`. -/
theorem iblk0_apply (c : Dev nD) (t : Fin cfg0.N) (p : Fin 64) (q : Fin 128) (k : Fin 32) (P : Fin 8192)
    (hP : P.val = t.val * 64 + p.val) :
    (iblk m c 0 t : FVec Ideal S64x128x32 .f32) (ix3 p q k) = (V m c main_v387 : FVec Ideal S8192x128x32 .f32) (ix3 P q k) := by
  obtain ⟨e0, e1, e2, -⟩ := idx_facts t
  unfold iblk
  rw [View.read_apply]
  show V m c main_v387 (((cfg0.win 0).blk t).view.emb (ix3 p q k)) = V m c main_v387 (ix3 P q k)
  refine congrArg (V m c main_v387) (funext fun a => Fin.ext ?_)
  match a with
  | ⟨0, _⟩ => show win0_0.index t (0 : Fin 3) * 64 + 1 * p.val = P.val; rw [e0, hP]; omega
  | ⟨1, _⟩ => show win0_0.index t (1 : Fin 3) * 128 + 1 * q.val = q.val; rw [e1]; omega
  | ⟨2, _⟩ => show win0_0.index t (2 : Fin 3) * 32 + 1 * k.val = k.val; rw [e2]; omega

/-- Plane 1's block likewise. -/
theorem iblk1_apply (c : Dev nD) (t : Fin cfg0.N) (p : Fin 64) (q : Fin 128) (k : Fin 32) (P : Fin 8192)
    (hP : P.val = t.val * 64 + p.val) :
    (iblk m c 1 t : FVec Ideal S64x128x32 .f32) (ix3 p q k) = (V m c main_v388 : FVec Ideal S8192x128x32 .f32) (ix3 P q k) := by
  obtain ⟨-, -, -, e0, e1, e2, -⟩ := idx_facts t
  unfold iblk
  rw [View.read_apply]
  show V m c main_v388 (((cfg0.win 1).blk t).view.emb (ix3 p q k)) = V m c main_v388 (ix3 P q k)
  refine congrArg (V m c main_v388) (funext fun a => Fin.ext ?_)
  match a with
  | ⟨0, _⟩ => show win0_1.index t (0 : Fin 3) * 64 + 1 * p.val = P.val; rw [e0, hP]; omega
  | ⟨1, _⟩ => show win0_1.index t (1 : Fin 3) * 128 + 1 * q.val = q.val; rw [e1]; omega
  | ⟨2, _⟩ => show win0_1.index t (2 : Fin 3) * 32 + 1 * k.val = k.val; rw [e2]; omega

/-- Plane 2's block likewise. -/
theorem iblk2_apply (c : Dev nD) (t : Fin cfg0.N) (p : Fin 64) (q : Fin 128) (k : Fin 32) (P : Fin 8192)
    (hP : P.val = t.val * 64 + p.val) :
    (iblk m c 2 t : FVec Ideal S64x128x32 .f32) (ix3 p q k) = (V m c main_v389 : FVec Ideal S8192x128x32 .f32) (ix3 P q k) := by
  obtain ⟨-, -, -, -, -, -, e0, e1, e2, -⟩ := idx_facts t
  unfold iblk
  rw [View.read_apply]
  show V m c main_v389 (((cfg0.win 2).blk t).view.emb (ix3 p q k)) = V m c main_v389 (ix3 P q k)
  refine congrArg (V m c main_v389) (funext fun a => Fin.ext ?_)
  match a with
  | ⟨0, _⟩ => show win0_2.index t (0 : Fin 3) * 64 + 1 * p.val = P.val; rw [e0, hP]; omega
  | ⟨1, _⟩ => show win0_2.index t (1 : Fin 3) * 128 + 1 * q.val = q.val; rw [e1]; omega
  | ⟨2, _⟩ => show win0_2.index t (2 : Fin 3) * 32 + 1 * k.val = k.val; rw [e2]; omega

/-- The block a point writes back, over ABSTRACT planes and blocks: if each input block at `(p, q, k)` is its plane at row
    `64 t + p`, the body's result cut to the output block is block `t` of `dens2` of the planes. -/
theorem flushed_core (a b c' : FVec Ideal S8192x128x32 .f32) (x0 x1 x2 : FVec Ideal S64x128x32 .f32) (t : Fin cfg0.N)
    (h0 : ∀ (p : Fin 64) (q : Fin 128) (k : Fin 32) (P : Fin 8192), P.val = t.val * 64 + p.val → x0 (ix3 p q k) = a (ix3 P q k))
    (h1 : ∀ (p : Fin 64) (q : Fin 128) (k : Fin 32) (P : Fin 8192), P.val = t.val * 64 + p.val → x1 (ix3 p q k) = b (ix3 P q k))
    (h2 : ∀ (p : Fin 64) (q : Fin 128) (k : Fin 32) (P : Fin 8192), P.val = t.val * 64 + p.val → x2 (ix3 p q k) = c' (ix3 P q k)) :
    (cfg0.win 3).cut (grid0.coords t) (k0_pay1 (F := Ideal) x0 x1 x2)
      = ((cfg0.win 3).blk t).view.read (Elt Ideal) (dens2 a b c') := by
  have hN : t.val < 128 := lt_of_lt_of_eq t.isLt N_0
  obtain ⟨-, -, -, -, -, -, -, -, -, e0, e1⟩ := idx_facts t
  funext j
  have hj0 : (j 0).val < 64 := (j 0).isLt
  have hj1 : (j 1).val < 128 := (j 1).isLt
  show k0_pay1 x0 x1 x2 ((cfg0.win 3).xinj (grid0.coords t) j) = dens2 a b c' (((cfg0.win 3).blk t).view.emb j)
  refine (pay_at x0 x1 x2 ((cfg0.win 3).xinj (grid0.coords t) j) ⟨(j 0).val, hj0⟩ ⟨(j 1).val, hj1⟩ rfl rfl).trans ?_
  refine Eq.trans ?_ (dens2_apply a b c' (((cfg0.win 3).blk t).view.emb j)
    ⟨t.val * 64 + (j 0).val, by omega⟩ ⟨(j 1).val, hj1⟩ ?_ ?_).symm
  · unfold dens
    refine congrArg (fun s => Ideal.exp (s * Ideal.ofBits .f32 0x3D000000#32)) (Finset.sum_congr rfl fun k _ => ?_)
    rw [h0 ⟨(j 0).val, hj0⟩ ⟨(j 1).val, hj1⟩ k ⟨t.val * 64 + (j 0).val, by omega⟩ rfl,
      h1 ⟨(j 0).val, hj0⟩ ⟨(j 1).val, hj1⟩ k ⟨t.val * 64 + (j 0).val, by omega⟩ rfl,
      h2 ⟨(j 0).val, hj0⟩ ⟨(j 1).val, hj1⟩ k ⟨t.val * 64 + (j 0).val, by omega⟩ rfl]
  · show win0_3.index t (0 : Fin 2) * 64 + 1 * (j 0).val = t.val * 64 + (j 0).val
    rw [e0]; omega
  · show win0_3.index t (1 : Fin 2) * 128 + 1 * (j 1).val = (j 1).val
    rw [e1]; omega

/-- The result array's function of the three planes as the region finds them. -/
abbrev G (c : Dev nD) : FVec Ideal S8192x128 .f32 :=
  dens2 (V m c main_v387) (V m c main_v388) (V m c main_v389)

/-- WHAT POINT `t` WRITES BACK is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz2]
  simp only [View.ld_unit_zero (S := S64x128x32) hz3]
  exact flushed_core (V m c main_v387) (V m c main_v388) (V m c main_v389)
    (iblk m c 0 t) (iblk m c 1 t) (iblk m c 2 t) t
    (fun p q k P hP => iblk0_apply m c t p q k P hP) (fun p q k P hP => iblk1_apply m c t p q k P hP)
    (fun p q k P hP => iblk2_apply m c t p q k P hP)

/-- An index of the result array is in point `t`'s block iff each coordinate is in the block's range on its axis. -/
theorem mem_blk (t : Fin cfg0.N) (i : S8192x128.Idx) :
    i ∈ ((cfg0.win 3).blk t).view.set ↔ ∀ a : Fin 2, win0_3.index t a * S64x128.size a ≤ (i a).val ∧ (i a).val < win0_3.index t a * S64x128.size a + S64x128.size a := by
  show i ∈ ((View.whole main_v390).slice (win0_3.rect t)).set ↔ _
  rw [View.set_slice_whole, Rect.mem_set_unit]
  exact Iff.rfl

/-- Row `r` of the result is in the block of point `r / 64`. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 128 := N_0
  refine ⟨⟨(i 0).val / 64, by rw [hN]; omega⟩, flush0_3 _, ?_⟩
  obtain ⟨-, -, -, -, -, -, -, -, -, e0, e1⟩ := idx_facts ⟨(i 0).val / 64, by rw [hN]; omega⟩
  rw [mem_blk]
  intro a
  match a with
  | ⟨0, _⟩ =>
    show win0_3.index _ (0 : Fin 2) * 64 ≤ (i 0).val ∧ (i 0).val < win0_3.index _ (0 : Fin 2) * 64 + 64
    rw [e0]
    show (i 0).val / 64 * 64 ≤ (i 0).val ∧ (i 0).val < (i 0).val / 64 * 64 + 64
    omega
  | ⟨1, _⟩ =>
    show win0_3.index _ (1 : Fin 2) * 128 ≤ (i 1).val ∧ (i 1).val < win0_3.index _ (1 : Fin 2) * 128 + 128
    rw [e1]
    omega

/-- THE ARRAY after the run: `G`. -/
theorem final (c : Dev nD) : (dats m 0 c).arrAt 3 cfg0.N = G m c :=
  (dats m 0 c).arrAt_eq_of_cover 3 (G m c) (fun t _ => flushed_eq m c t) cover

end Cert.KernelIdeal.KV

end
-- ==== Proof.KvDensity.lean ====
/- The kernel program's run, read: after the region one reshape adds a trailing unit axis to the `[8192, 128]` result
   array, so the program's result buffer ends holding the density field of the three planes as the region finds them,
   and the five argument buffers end as launched. -/
import proofs.«145513_j83202106458409_2_alg».proof.Proof.KvBlocks

noncomputable section

namespace Cert.KernelIdeal.KV

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer after the reshape that follows the region: `dens2` of the planes with the unit axis added, which is
    their density field. -/
theorem tail_eq (c : Dev nD) :
    Pipeline.afterTail₀ cfgs (dats m) 0 (V0 m) [hostOps1] c main_v391
      = density (V m c main_v387) (V m c main_v388) (V m c main_v389) := by
  unfold Pipeline.afterTail₀
  show StableHlo.after hostOps1 _ (Proc.devRef .tc main_v391) = _
  after_results
  have e : Pipeline.withArrays (cfgs 0).spec c (V0 m c) (fun w => (dats m 0 c).arrAt w (cfgs 0).N)
      (Proc.devRef .tc main_v390) = G m c :=
    (Pipeline.withArrays_arr spec0 launch0.win.arr_inj c _ _ 3).trans (final m c)
  funext i
  show shapeCast S8192x128x1 (Pipeline.withArrays (cfgs 0).spec c (V0 m c) (fun w => (dats m 0 c).arrAt w (cfgs 0).N)
      (Proc.devRef .tc main_v390)) shapeCasts_S8192x128_S8192x128x1 i = _
  rw [e]
  exact congrFun (cast_dens2 (V m c main_v387) (V m c main_v388) (V m c main_v389) shapeCasts_S8192x128_S8192x128x1) i

/-- THE RUN: every weakly fair execution of the program from `m` terminates with the result buffer at the density field of
    the three planes as the region finds them and the argument buffers as launched. -/
theorem run : θ_run (defs (F := Ideal)) (onTc (τ := τ) (main (F := Ideal))) ⟨m, fun _ => 0, ρ⟩ (fun r => ∀ c : Dev nD,
      r.2.mem ((c.tc : Thread nD τ).loc main_v391)
        = density (GenP.V m c main_v387) (GenP.V m c main_v388) (GenP.V m c main_v389)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v391 (Pipeline.mem_restRefs_of main_v391 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KV

end
-- ==== Proof.KvRefTail.lean ====
/- The reference's last operations as ONE function of its three sampled planes — the product of the planes, the sum over the
   32 lanes from the zero word, the quotient by the word of `32`, the reshape `[1048576] → [8192, 128, 1]`, the exponential —
   and that function read at an index: at `(P, Q, 0)` it is the exponential of the lane sum of row `128 · P + Q` times `2⁻⁵`. -/
import proofs.«145513_j83202106458409_2_alg».proof.Proof.Gen.ReferenceIdeal
import proofs.«145513_j83202106458409_2_alg».proof.Proof.KvSpec

noncomputable section

namespace Cert.ReferenceIdeal.RefTail

open Idealize.ShloMosaic Idealize.ShloMosaic.ValueIdx Cert.ReferenceIdeal Cert.ReferenceIdeal.Facts₀

/-- The reference's tail: `exp (reshape (reduce_add (A · B · C) 0 over the lanes / 32))`. -/
def refTail (A B C : FVec Ideal S1048576x32 .f32) : FVec Ideal S8192x128x1 .f32 :=
  Host.exp (F := Ideal)
    (shapeCast S8192x128x1
      (Host.divf (F := Ideal)
        (Host.reduceAdd (F := Ideal) (mulf (mulf A B) C) (constant (F := Ideal) S_ .f32 0x00000000#32)
          reducesTo_S1048576x32_S1048576_d1 h_S_)
        (broadcastInDim S1048576 ![] bcast_S_S1048576 (constant (F := Ideal) S_ .f32 0x42000000#32)))
      shapeCasts_S1048576_S8192x128x1)

/-- The sum over axis 1 of a `[1048576, 32]` array inserts the lane `k` after the row. -/
theorem lift_row (hR : S1048576x32.Reduces [1] S1048576) (n : Fin 1048576) (k : Fin 32) :
    hR.lift (ix1 n) k = ix2 n k := by
  funext a
  apply Fin.ext
  match a with
  | ⟨0, _⟩ => rfl
  | ⟨1, _⟩ => rfl

/-- The tail at `(P, Q, 0)`, with `n = 128 · P + Q`. -/
theorem refTail_apply (A B C : FVec Ideal S1048576x32 .f32) (j : S8192x128x1.Idx) (n : Fin 1048576)
    (hn : n.val = (j 0).val * 128 + (j 1).val) :
    refTail A B C j
      = Ideal.exp ((∑ k : Fin 32, A (ix2 n k) * B (ix2 n k) * C (ix2 n k)) * Ideal.ofBits .f32 0x3D000000#32) := by
  have hR : S1048576x32.Reduces [1] S1048576 := by decide
  unfold refTail
  show Ideal.exp (shapeCast S8192x128x1 _ shapeCasts_S1048576_S8192x128x1 j) = _
  rw [Cert.KernelIdeal.KV.cast_rows_apply _ _ j n hn]
  show Ideal.exp (Ideal.div (Ideal.hostReduceAdd reducesTo_S1048576x32_S1048576_d1 (mulf (mulf A B) C)
      (Ideal.ofBits .f32 0x00000000#32) (ix1 n)) (Ideal.ofBits .f32 0x42000000#32)) = _
  rw [Ideal.hostReduceAdd_single reducesTo_S1048576x32_S1048576_d1 hR (mulf (mulf A B) C) _ (ix1 n),
    Cert.KernelIdeal.KV.div32]
  refine congrArg (fun s => Ideal.exp (s * Ideal.ofBits .f32 0x3D000000#32)) ?_
  show ∑ k : Fin 32, mulf (mulf A B) C (hR.lift (ix1 n) k) = _
  refine Finset.sum_congr rfl fun k _ => ?_
  rw [lift_row hR n k]
  rfl

end Cert.ReferenceIdeal.RefTail

end
-- ==== Proof.KvEquiv.lean ====
/- The kernel's density field of the three planes reshaped `[1048576, 32] → [8192, 128, 32]` is the reference's tail of the
   planes themselves: at `(P, Q, 0)` both are the exponential of the lane sum of row `128 · P + Q` of the planes' product,
   times `2⁻⁵` (the reference's quotient by `32` is that product on every extended real). -/
import proofs.«145513_j83202106458409_2_alg».proof.KernelIdeal
import proofs.«145513_j83202106458409_2_alg».proof.Proof.KvSpec
import proofs.«145513_j83202106458409_2_alg».proof.Proof.KvRefTail

noncomputable section

namespace Cert.KernelIdeal.KV

open Idealize.ShloMosaic Idealize.ShloMosaic.ValueIdx

/-- The density of the reshaped planes at ray `P`, sample `Q`, read off the planes at row `n = 128 · P + Q`. -/
theorem dens_cast_apply (A B C : FVec Ideal Cert.ReferenceIdeal.S1048576x32 .f32)
    (h : Cert.KernelIdeal.S1048576x32.ShapeCasts Cert.KernelIdeal.S8192x128x32) (P : Fin 8192) (Q : Fin 128)
    (n : Fin 1048576) (hn : n.val = P.val * 128 + Q.val) :
    dens (shapeCast Cert.KernelIdeal.S8192x128x32 A h) (shapeCast Cert.KernelIdeal.S8192x128x32 B h)
        (shapeCast Cert.KernelIdeal.S8192x128x32 C h) P Q
      = Ideal.exp ((∑ k : Fin 32, A (ix2 n k) * B (ix2 n k) * C (ix2 n k)) * Ideal.ofBits .f32 0x3D000000#32) := by
  unfold dens
  refine congrArg (fun s => Ideal.exp (s * Ideal.ofBits .f32 0x3D000000#32)) (Finset.sum_congr rfl fun k _ => ?_)
  rw [cast_planes_apply A h P Q k n hn, cast_planes_apply B h P Q k n hn, cast_planes_apply C h P Q k n hn]

/-- The kernel's function of the reshaped planes is the reference's tail of the planes. -/
theorem density_eq_refTail (A B C : FVec Ideal Cert.ReferenceIdeal.S1048576x32 .f32)
    (h : Cert.KernelIdeal.S1048576x32.ShapeCasts Cert.KernelIdeal.S8192x128x32) :
    density (shapeCast Cert.KernelIdeal.S8192x128x32 A h) (shapeCast Cert.KernelIdeal.S8192x128x32 B h)
        (shapeCast Cert.KernelIdeal.S8192x128x32 C h)
      = Cert.ReferenceIdeal.RefTail.refTail A B C := by
  funext j
  have h0 : (j 0).val < 8192 := (j 0).isLt
  have h1 : (j 1).val < 128 := (j 1).isLt
  exact (dens_cast_apply A B C h (j 0) (j 1) ⟨(j 0).val * 128 + (j 1).val, by omega⟩ rfl).trans
    (Cert.ReferenceIdeal.RefTail.refTail_apply A B C j ⟨(j 0).val * 128 + (j 1).val, by omega⟩ rfl).symm

end Cert.KernelIdeal.KV

end
-- ==== Proof.BridgeCuts.lean ====
/-
  The two host programs, cut at the same ten places: after the normalized points; then, for each of the three coordinate
  planes, after the two columns of points are taken, after the pixel coordinates, weights and clamped corner indices, and
  after the sampled plane. At each cut the buffers still to be read agree between the kernel's program and the reference:
  the arguments not yet consumed, the normalized points, the literal column pairs, the plane's working arrays, the
  planes already sampled. At the end the kernel's three reshaped planes are the reshapes of the reference's three planes.
-/
import proofs.«145513_j83202106458409_2_alg».proof.Proof.KernelIdealFrame
import proofs.«145513_j83202106458409_2_alg».proof.Proof.RefRun
import Idealize.ShloMosaic.PureOps.Ideal

noncomputable section
namespace Cert.Bridge
open Idealize.ShloMosaic Idealize.ShloMosaic.TcCoe Idealize.SL.Sem Idealize.ShloMosaic.StableHlo

/-- What the two programs' buffer contents share at cut 0. -/
abbrev I0 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_arg0) = WR (Proc.devRef .tc Cert.ReferenceIdeal.main_arg0))
  ∧ (WK (Proc.devRef .tc Cert.KernelIdeal.main_arg1) = WR (Proc.devRef .tc Cert.ReferenceIdeal.main_arg1))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))
  ∧ (WK (Proc.devRef .tc Cert.KernelIdeal.main_arg4) = WR (Proc.devRef .tc Cert.ReferenceIdeal.main_arg4))

/-- What the two programs' buffer contents share at cut 1. -/
abbrev I1 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v17) = WR (Proc.devRef .tc Cert.ReferenceIdeal.main_v17))
  ∧ (WK (Proc.devRef .tc Cert.KernelIdeal.main_c) = (fun i => Cert.KernelIdeal.lit0 (Cert.KernelIdeal.S2.rowMajor i)))
  ∧ (WR (Proc.devRef .tc Cert.ReferenceIdeal.main_c) = (fun i => Cert.ReferenceIdeal.lit0 (Cert.ReferenceIdeal.S2.rowMajor i)))
  ∧ (WK (Proc.devRef .tc Cert.KernelIdeal.main_c_0) = (fun i => Cert.KernelIdeal.lit1 (Cert.KernelIdeal.S2.rowMajor i)))
  ∧ (WR (Proc.devRef .tc Cert.ReferenceIdeal.main_c_0) = (fun i => Cert.ReferenceIdeal.lit1 (Cert.ReferenceIdeal.S2.rowMajor i)))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg1) = WR (Proc.devRef .tc Cert.ReferenceIdeal.main_arg1))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 2. -/
abbrev I2 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v18) = WR (Proc.devRef .tc Cert.ReferenceIdeal.main_v24))
  ∧ (WK (Proc.devRef .tc Cert.KernelIdeal.main_v17) = WR (Proc.devRef .tc Cert.ReferenceIdeal.main_v17))
  ∧ (WK (Proc.devRef .tc Cert.KernelIdeal.main_c_0) = (fun i => Cert.KernelIdeal.lit1 (Cert.KernelIdeal.S2.rowMajor i)))
  ∧ (WR (Proc.devRef .tc Cert.ReferenceIdeal.main_c_0) = (fun i => Cert.ReferenceIdeal.lit1 (Cert.ReferenceIdeal.S2.rowMajor i)))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg1) = WR (Proc.devRef .tc Cert.ReferenceIdeal.main_arg1))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 3. -/
abbrev I3 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v37) = WR (Proc.devRef .tc Cert.ReferenceIdeal.main_v43))
  ∧ (WK (Proc.devRef .tc Cert.KernelIdeal.main_v38) = WR (Proc.devRef .tc Cert.ReferenceIdeal.main_v44))
  ∧ (WK (Proc.devRef .tc Cert.KernelIdeal.main_v40) = WR (Proc.devRef .tc Cert.ReferenceIdeal.main_v46))
  ∧ (WK (Proc.devRef .tc Cert.KernelIdeal.main_v43) = WR (Proc.devRef .tc Cert.ReferenceIdeal.main_v49))
  ∧ (WK (Proc.devRef .tc Cert.KernelIdeal.main_v45) = WR (Proc.devRef .tc Cert.ReferenceIdeal.main_v51))
  ∧ (WK (Proc.devRef .tc Cert.KernelIdeal.main_v48) = WR (Proc.devRef .tc Cert.ReferenceIdeal.main_v54))
  ∧ (WK (Proc.devRef .tc Cert.KernelIdeal.main_v17) = WR (Proc.devRef .tc Cert.ReferenceIdeal.main_v17))
  ∧ (WK (Proc.devRef .tc Cert.KernelIdeal.main_c_0) = (fun i => Cert.KernelIdeal.lit1 (Cert.KernelIdeal.S2.rowMajor i)))
  ∧ (WR (Proc.devRef .tc Cert.ReferenceIdeal.main_c_0) = (fun i => Cert.ReferenceIdeal.lit1 (Cert.ReferenceIdeal.S2.rowMajor i)))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg1) = WR (Proc.devRef .tc Cert.ReferenceIdeal.main_arg1))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 4. -/
abbrev I4 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v140) = WR (Proc.devRef .tc Cert.ReferenceIdeal.main_v146))
  ∧ (WK (Proc.devRef .tc Cert.KernelIdeal.main_v17) = WR (Proc.devRef .tc Cert.ReferenceIdeal.main_v17))
  ∧ (WK (Proc.devRef .tc Cert.KernelIdeal.main_c_0) = (fun i => Cert.KernelIdeal.lit1 (Cert.KernelIdeal.S2.rowMajor i)))
  ∧ (WR (Proc.devRef .tc Cert.ReferenceIdeal.main_c_0) = (fun i => Cert.ReferenceIdeal.lit1 (Cert.ReferenceIdeal.S2.rowMajor i)))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 5. -/
abbrev I5 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v141) = WR (Proc.devRef .tc Cert.ReferenceIdeal.main_v153))
  ∧ (WK (Proc.devRef .tc Cert.KernelIdeal.main_v140) = WR (Proc.devRef .tc Cert.ReferenceIdeal.main_v146))
  ∧ (WK (Proc.devRef .tc Cert.KernelIdeal.main_v17) = WR (Proc.devRef .tc Cert.ReferenceIdeal.main_v17))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 6. -/
abbrev I6 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v160) = WR (Proc.devRef .tc Cert.ReferenceIdeal.main_v172))
  ∧ (WK (Proc.devRef .tc Cert.KernelIdeal.main_v161) = WR (Proc.devRef .tc Cert.ReferenceIdeal.main_v173))
  ∧ (WK (Proc.devRef .tc Cert.KernelIdeal.main_v163) = WR (Proc.devRef .tc Cert.ReferenceIdeal.main_v175))
  ∧ (WK (Proc.devRef .tc Cert.KernelIdeal.main_v166) = WR (Proc.devRef .tc Cert.ReferenceIdeal.main_v178))
  ∧ (WK (Proc.devRef .tc Cert.KernelIdeal.main_v168) = WR (Proc.devRef .tc Cert.ReferenceIdeal.main_v180))
  ∧ (WK (Proc.devRef .tc Cert.KernelIdeal.main_v171) = WR (Proc.devRef .tc Cert.ReferenceIdeal.main_v183))
  ∧ (WK (Proc.devRef .tc Cert.KernelIdeal.main_v140) = WR (Proc.devRef .tc Cert.ReferenceIdeal.main_v146))
  ∧ (WK (Proc.devRef .tc Cert.KernelIdeal.main_v17) = WR (Proc.devRef .tc Cert.ReferenceIdeal.main_v17))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg2) = WR (Proc.devRef .tc Cert.ReferenceIdeal.main_arg2))
  ∧ (WK (Proc.devRef .tc Cert.KernelIdeal.main_arg3) = WR (Proc.devRef .tc Cert.ReferenceIdeal.main_arg3))

/-- What the two programs' buffer contents share at cut 7. -/
abbrev I7 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v263) = WR (Proc.devRef .tc Cert.ReferenceIdeal.main_v275))
  ∧ (WK (Proc.devRef .tc Cert.KernelIdeal.main_v140) = WR (Proc.devRef .tc Cert.ReferenceIdeal.main_v146))
  ∧ (WK (Proc.devRef .tc Cert.KernelIdeal.main_v17) = WR (Proc.devRef .tc Cert.ReferenceIdeal.main_v17))
  ∧ (WK (Proc.devRef .tc Cert.KernelIdeal.main_c_1) = (fun i => Cert.KernelIdeal.lit2 (Cert.KernelIdeal.S2.rowMajor i)))
  ∧ (WR (Proc.devRef .tc Cert.ReferenceIdeal.main_c_1) = (fun i => Cert.ReferenceIdeal.lit2 (Cert.ReferenceIdeal.S2.rowMajor i)))
  ∧ (WK (Proc.devRef .tc Cert.KernelIdeal.main_arg3) = WR (Proc.devRef .tc Cert.ReferenceIdeal.main_arg3))

/-- What the two programs' buffer contents share at cut 8. -/
abbrev I8 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v264) = WR (Proc.devRef .tc Cert.ReferenceIdeal.main_v283))
  ∧ (WK (Proc.devRef .tc Cert.KernelIdeal.main_v263) = WR (Proc.devRef .tc Cert.ReferenceIdeal.main_v275))
  ∧ (WK (Proc.devRef .tc Cert.KernelIdeal.main_v140) = WR (Proc.devRef .tc Cert.ReferenceIdeal.main_v146))
  ∧ (WK (Proc.devRef .tc Cert.KernelIdeal.main_arg3) = WR (Proc.devRef .tc Cert.ReferenceIdeal.main_arg3))

/-- What the two programs' buffer contents share at cut 9. -/
abbrev I9 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v283) = WR (Proc.devRef .tc Cert.ReferenceIdeal.main_v302))
  ∧ (WK (Proc.devRef .tc Cert.KernelIdeal.main_v284) = WR (Proc.devRef .tc Cert.ReferenceIdeal.main_v303))
  ∧ (WK (Proc.devRef .tc Cert.KernelIdeal.main_v286) = WR (Proc.devRef .tc Cert.ReferenceIdeal.main_v305))
  ∧ (WK (Proc.devRef .tc Cert.KernelIdeal.main_v289) = WR (Proc.devRef .tc Cert.ReferenceIdeal.main_v308))
  ∧ (WK (Proc.devRef .tc Cert.KernelIdeal.main_v291) = WR (Proc.devRef .tc Cert.ReferenceIdeal.main_v310))
  ∧ (WK (Proc.devRef .tc Cert.KernelIdeal.main_v294) = WR (Proc.devRef .tc Cert.ReferenceIdeal.main_v313))
  ∧ (WK (Proc.devRef .tc Cert.KernelIdeal.main_v263) = WR (Proc.devRef .tc Cert.ReferenceIdeal.main_v275))
  ∧ (WK (Proc.devRef .tc Cert.KernelIdeal.main_v140) = WR (Proc.devRef .tc Cert.ReferenceIdeal.main_v146))
  ∧ (WK (Proc.devRef .tc Cert.KernelIdeal.main_arg3) = WR (Proc.devRef .tc Cert.ReferenceIdeal.main_arg3))

/-- What the two programs' buffer contents share at cut 10. -/
abbrev I10 (WK : Valuation Cert.KernelIdeal.τ Cert.KernelIdeal.sig (Elt Ideal)) (WR : Valuation Cert.ReferenceIdeal.τ Cert.ReferenceIdeal.sig (Elt Ideal)) : Prop :=
  (WK (Proc.devRef .tc Cert.KernelIdeal.main_v387) = shapeCast Cert.KernelIdeal.S8192x128x32 (WR (Proc.devRef .tc Cert.ReferenceIdeal.main_v146)) Cert.KernelIdeal.Gen.shapeCasts_S1048576x32_S8192x128x32)
  ∧ (WK (Proc.devRef .tc Cert.KernelIdeal.main_v388) = shapeCast Cert.KernelIdeal.S8192x128x32 (WR (Proc.devRef .tc Cert.ReferenceIdeal.main_v275)) Cert.KernelIdeal.Gen.shapeCasts_S1048576x32_S8192x128x32)
  ∧ (WK (Proc.devRef .tc Cert.KernelIdeal.main_v389) = shapeCast Cert.KernelIdeal.S8192x128x32 (WR (Proc.devRef .tc Cert.ReferenceIdeal.main_v405)) Cert.KernelIdeal.Gen.shapeCasts_S1048576x32_S8192x128x32)

end Cert.Bridge
end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.BridgeStageP.lean ====
/-
  One stretch of the two host programs between two cuts (stage P): from contents that agree as the earlier cut says,
  the stretch's operations — the same operations on both sides, read off the two lists — leave contents that agree as the
  later cut says. Each buffer is read by unfolding the stretch's operations down to the buffers of the earlier cut.
-/
import proofs.«145513_j83202106458409_2_alg».proof.Proof.BridgeCuts
import proofs.«145513_j83202106458409_2_alg».proof.Proof.LibTypedRefs
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageP (WK : Valuation Cert.KernelIdeal.τ Cert.KernelIdeal.sig (Elt Ideal)) (WR : Valuation Cert.ReferenceIdeal.τ Cert.ReferenceIdeal.sig (Elt Ideal)) (h : I0 WK WR) :
    I1 (after Cert.KernelIdeal.Gen.hostOps0 (WK)) (after (Cert.ReferenceIdeal.RefRun.it0_0 (F := Ideal)) (WR)) := by
  obtain ⟨h0, h1, h2, h3, h4⟩ := h
  refine ⟨?_, ?_, ?_, ?_, ?_, ?_, ?_, ?_, ?_, ?_⟩
  all_goals (after_results_simp <;> (try simp only [TRef.ofBuf_toBuf, h0, h1, h2, h3, h4]) <;> (try rfl))

end Cert.Bridge
end
-- ==== Proof.LibHostReads.lean ====
/-
  Two host operations read at an index, for any program that takes rows of a table by position.

  1. A reduce by `and` from the initial value 1 over an array all of whose entries are 1 is 1 at every result
     index: the fold meets only ones.
  2. A gather of whole rows of a table [N, D] at start indices laid out as [R, C, 1] (what taking rows along
     axis 0 at an [R, C] array of positions lowers to: the row axis collapsed, the feature axis an offset axis of
     full extent) reads, at result index (r, c, d), the table's entry (p, d), where p is the start index at
     (r, c, 0) read as a signed integer and clamped into 0 … N − 1.
-/
import Idealize.ShloMosaic.PureOps
import Idealize.ShloMosaic.PureOps.Reduce
import Idealize.ShloMosaic.Lib.ValueIdx

namespace Cert.Lib.HostReads

open Idealize.ShloMosaic

/-! ## A reduce by `and` over ones -/

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduce by `and` whose initial value is 1, over an array of ones, is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  unfold Host.reduce
  rw [hinit]
  exact foldl_andi_of_all_one (fun n => x (s.rowMajor.symm n)) (fun n => hx _) _

/-! ## A gather of rows -/

section Rows
variable {α : Type}

/-- The dimension numbers of taking rows of a table [N, D] at start indices [R, C, 1], result [R, C, D]. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Where result index (r, c, d) reads its start index: (r, c, 0). -/
abbrev rowStart {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- The table entry result index (r, c, d) reads: row the clamped start index, column d. -/
abbrev rowAt {N D R C w : Nat} (hN : 0 < N) (idx : IVec ⟨3, ![R, C, 1]⟩ w) (y : (⟨3, ![R, C, D]⟩ : Shape).Idx) :
    (⟨2, ![N, D]⟩ : Shape).Idx :=
  fun a => match a with
    | ⟨0, _⟩ => ⟨min (idx (rowStart y)).toInt.toNat (N - 1), by show min _ (N - 1) < N; omega⟩
    | ⟨1, _⟩ => ⟨(y 2).val, (y 2).isLt⟩

/-- The gather of rows read at (r, c, d): the table at (the start index at (r, c, 0), read signed and clamped into
    0 … N − 1; d). -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y = x (rowAt hN idx y) := by
  unfold Host.gather
  congr 1
  funext a
  refine Fin.ext ?_
  match a with
  | ⟨0, _⟩ =>
    show (rowDims N D R C wf).start y idx 0 + (rowDims N D R C wf).batchCoord y 0 + (rowDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx y ⟨List.idxOf (0 : Fin 2) (rowDims N D R C wf).startIndexMap,
        List.idxOf_lt_length_iff.2 (List.mem_singleton.mpr rfl)⟩ = rowStart y := by
      funext b; refine Fin.ext ?_
      match b with
      | ⟨0, _⟩ => rfl
      | ⟨1, _⟩ => rfl
      | ⟨2, _⟩ => rfl
    rw [hsi]
    rfl
  | ⟨1, _⟩ =>
    show (rowDims N D R C wf).start y idx 1 + (rowDims N D R C wf).batchCoord y 1 + (rowDims N D R C wf).offCoord y 1 = (y 2).val
    rw [GatherDims.batchCoord_eq_zero _ _ _ List.not_mem_nil]
    unfold GatherDims.start
    rw [dif_neg (show (1 : Fin 2) ∉ (rowDims N D R C wf).startIndexMap from (by decide : (1 : Fin 2) ∉ ([0] : List (Fin 2))))]
    simp only [Nat.add_zero, Nat.zero_add]
    unfold GatherDims.offCoord
    rw [dif_pos (show (1 : Fin 2) ∈ (rowDims N D R C wf).sKept from
      (GatherDims.mem_sKept _ _).mpr ⟨(by decide : (1 : Fin 2) ∉ ([0] : List (Fin 2))), List.not_mem_nil⟩)]
    rfl

end Rows

end Cert.Lib.HostReads
-- ==== Proof.TakeInRange.lean ====
/-
  Taking two columns of the normalized points by position. The kernel's program takes them with a fill value for positions
  out of range: it selects, entry by entry, the gathered column where "0 ≤ position ≤ 2" holds of the (wrapped) position and
  a fill constant elsewhere. The positions are the literal pairs (0,1), (0,2), (1,2): each is in range, a wrapped position
  (position + 3 when negative) is the position itself, so the test is 1 everywhere, its conjunction along the unit axis
  is 1, and the selection is the gathered column.
-/
import proofs.«145513_j83202106458409_2_alg».proof.Proof.Gen.KernelIdeal
import proofs.«145513_j83202106458409_2_alg».proof.Proof.LibHostReads
import Idealize.ShloMosaic.PureOps.Ideal

namespace Cert.Bridge

open Idealize.ShloMosaic

/-- A selection whose mask is 1 at every index is its first operand. -/
theorem select_of_mask_one {s : Shape} {α : Type} (c : IVec s 1) (a b : s.Idx → α) (hc : ∀ i, c i = 1#1) :
    select c a b = a := by
  funext i; unfold select; rw [hc i]; rfl

/-- A position among 0, 1, 2, wrapped (plus 3 when negative), lies in 0 … 2: both comparisons are 1, and so is their
    conjunction. -/
theorem index_in_range (v : BitVec 32) (hv : v = 0#32 ∨ v = 1#32 ∨ v = 2#32) :
    IntOp.andi
      (IntOp.cmpi .sge (Scalar.select (IntOp.cmpi .slt v 0#32) (IntOp.addi v 3#32) v) 0#32)
      (IntOp.cmpi .sle (Scalar.select (IntOp.cmpi .slt v 0#32) (IntOp.addi v 3#32) v) 2#32) = 1#1 := by
  rcases hv with rfl | rfl | rfl <;> decide

/-- The three literal pairs of positions hold only 0, 1, 2. -/
theorem lit0_small : ∀ n, Cert.KernelIdeal.lit0 n = 0#32 ∨ Cert.KernelIdeal.lit0 n = 1#32 ∨ Cert.KernelIdeal.lit0 n = 2#32 := by decide
theorem lit1_small : ∀ n, Cert.KernelIdeal.lit1 n = 0#32 ∨ Cert.KernelIdeal.lit1 n = 1#32 ∨ Cert.KernelIdeal.lit1 n = 2#32 := by decide
theorem lit2_small : ∀ n, Cert.KernelIdeal.lit2 n = 0#32 ∨ Cert.KernelIdeal.lit2 n = 1#32 ∨ Cert.KernelIdeal.lit2 n = 2#32 := by decide

end Cert.Bridge
-- ==== Proof.BridgeStageT1.lean ====
/-
  One stretch of the two host programs between two cuts (stage T1): from contents that agree as the earlier cut says,
  the stretch's operations — the same operations on both sides, read off the two lists — leave contents that agree as the
  later cut says. Each buffer is read by unfolding the stretch's operations down to the buffers of the earlier cut.
  The kernel's program takes its two columns with a fill for positions out of range; the positions are in range, so the
  fill is never selected and the taken columns are the reference's.
-/
import proofs.«145513_j83202106458409_2_alg».proof.Proof.BridgeCuts
import proofs.«145513_j83202106458409_2_alg».proof.Proof.LibTypedRefs
import proofs.«145513_j83202106458409_2_alg».proof.Proof.LibHostReads
import proofs.«145513_j83202106458409_2_alg».proof.Proof.TakeInRange
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageT1 (WK : Valuation Cert.KernelIdeal.τ Cert.KernelIdeal.sig (Elt Ideal)) (WR : Valuation Cert.ReferenceIdeal.τ Cert.ReferenceIdeal.sig (Elt Ideal)) (h : I1 WK WR) :
    I2 (after Cert.KernelIdeal.Gen.hostOps0_1 (WK)) (after (Cert.ReferenceIdeal.RefRun.it0_1 (F := Ideal)) (WR)) := by
  obtain ⟨h0, h1, h2, h3, h4, h5, h6, h7, h8, h9⟩ := h
  refine ⟨?_, ?_, ?_, ?_, ?_, ?_, ?_, ?_, ?_⟩
  · after_results_simp
    simp only [TRef.ofBuf_toBuf, h0, h1, h2, h3, h4, h5, h6, h7, h8, h9]
    rw [select_of_mask_one (s := Cert.KernelIdeal.S1048576x2)]
    · rfl
    · intro i
      exact Cert.Lib.HostReads.reduce_andi_of_all_one _ _ _ _ (fun idx => index_in_range _ (lit0_small _)) rfl _
  all_goals (after_results_simp <;> (try simp only [TRef.ofBuf_toBuf, h0, h1, h2, h3, h4, h5, h6, h7, h8, h9]) <;> (try rfl))

end Cert.Bridge
end
-- ==== Proof.BridgeStageC1.lean ====
/-
  One stretch of the two host programs between two cuts (stage C1): from contents that agree as the earlier cut says,
  the stretch's operations — the same operations on both sides, read off the two lists — leave contents that agree as the
  later cut says. Each buffer is read by unfolding the stretch's operations down to the buffers of the earlier cut.
-/
import proofs.«145513_j83202106458409_2_alg».proof.Proof.BridgeCuts
import proofs.«145513_j83202106458409_2_alg».proof.Proof.LibTypedRefs
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageC1 (WK : Valuation Cert.KernelIdeal.τ Cert.KernelIdeal.sig (Elt Ideal)) (WR : Valuation Cert.ReferenceIdeal.τ Cert.ReferenceIdeal.sig (Elt Ideal)) (h : I2 WK WR) :
    I3 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (WK))))))))) (after (Cert.ReferenceIdeal.RefRun.it1_7 (F := Ideal)) (after (Cert.ReferenceIdeal.RefRun.it1_6 (F := Ideal)) (after (Cert.ReferenceIdeal.RefRun.it1_5 (F := Ideal)) (after (Cert.ReferenceIdeal.RefRun.it1_4 (F := Ideal)) (after (Cert.ReferenceIdeal.RefRun.it1_3 (F := Ideal)) (after (Cert.ReferenceIdeal.RefRun.it1_2 (F := Ideal)) (after (Cert.ReferenceIdeal.RefRun.it1_1 (F := Ideal)) (after (Cert.ReferenceIdeal.RefRun.it1_0 (F := Ideal)) (after (Cert.ReferenceIdeal.RefRun.it0_2 (F := Ideal)) (WR)))))))))) := by
  obtain ⟨h0, h1, h2, h3, h4, h5, h6, h7, h8⟩ := h
  refine ⟨?_, ?_, ?_, ?_, ?_, ?_, ?_, ?_, ?_, ?_, ?_, ?_, ?_, ?_⟩
  all_goals (after_results_simp <;> (try simp only [TRef.ofBuf_toBuf, h0, h1, h2, h3, h4, h5, h6, h7, h8]) <;> (try rfl))

end Cert.Bridge
end
-- ==== Proof.LibConcatPair.lean ====
/-
  A concatenation of two arrays is written over a list of (shape, array) pairs, where each array sits as the second
  component of a dependent pair. `pairCat` is the same concatenation with the two arrays as plain arguments, so that a
  rewrite of either array goes through like a rewrite of any operand.
-/
import Idealize.ShloMosaic.PureOps.ShapeOps

noncomputable section

namespace Idealize.ShloMosaic

variable {α : Type}

/-- The concatenation of two arrays along axis `a`. -/
def pairCat (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A concatenation of a two-element list is `pairCat` of its two arrays. -/
theorem concatenate_pair_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pairCat t a s₁ s₂ x₁ x₂ h := rfl

end Idealize.ShloMosaic

end
-- ==== Proof.BridgeStageD1.lean ====
/-
  One stretch of the two host programs between two cuts (stage D1): from contents that agree as the earlier cut says,
  the stretch's operations — the same operations on both sides, read off the two lists — leave contents that agree as the
  later cut says. Each buffer is read by unfolding the stretch's operations down to the buffers of the earlier cut; a concatenation of two
  index columns is read as a function of its two operands, so that the unfolding goes on inside them.
-/
import proofs.«145513_j83202106458409_2_alg».proof.Proof.BridgeCuts
import proofs.«145513_j83202106458409_2_alg».proof.Proof.LibTypedRefs
import proofs.«145513_j83202106458409_2_alg».proof.Proof.LibConcatPair
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageD1 (WK : Valuation Cert.KernelIdeal.τ Cert.KernelIdeal.sig (Elt Ideal)) (WR : Valuation Cert.ReferenceIdeal.τ Cert.ReferenceIdeal.sig (Elt Ideal)) (h : I3 WK WR) :
    I4 (after Cert.KernelIdeal.Gen.hostOps0_10 (WK)) (after (Cert.ReferenceIdeal.RefRun.it3_0 (F := Ideal)) (after (Cert.ReferenceIdeal.RefRun.it2_0 (F := Ideal)) (after (Cert.ReferenceIdeal.RefRun.it1_8 (F := Ideal)) (WR)))) := by
  obtain ⟨h0, h1, h2, h3, h4, h5, h6, h7, h8, h9, h10, h11, h12, h13⟩ := h
  refine ⟨?_, ?_, ?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair_eq] <;> (try simp only [TRef.ofBuf_toBuf, h0, h1, h2, h3, h4, h5, h6, h7, h8, h9, h10, h11, h12, h13]) <;> (try rfl))

end Cert.Bridge
end
-- ==== Proof.BridgeStageT2.lean ====
/-
  One stretch of the two host programs between two cuts (stage T2): from contents that agree as the earlier cut says,
  the stretch's operations — the same operations on both sides, read off the two lists — leave contents that agree as the
  later cut says. Each buffer is read by unfolding the stretch's operations down to the buffers of the earlier cut.
  The kernel's program takes its two columns with a fill for positions out of range; the positions are in range, so the
  fill is never selected and the taken columns are the reference's.
-/
import proofs.«145513_j83202106458409_2_alg».proof.Proof.BridgeCuts
import proofs.«145513_j83202106458409_2_alg».proof.Proof.LibTypedRefs
import proofs.«145513_j83202106458409_2_alg».proof.Proof.LibHostReads
import proofs.«145513_j83202106458409_2_alg».proof.Proof.TakeInRange
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageT2 (WK : Valuation Cert.KernelIdeal.τ Cert.KernelIdeal.sig (Elt Ideal)) (WR : Valuation Cert.ReferenceIdeal.τ Cert.ReferenceIdeal.sig (Elt Ideal)) (h : I4 WK WR) :
    I5 (after Cert.KernelIdeal.Gen.hostOps0_11 (WK)) (after (Cert.ReferenceIdeal.RefRun.it3_1 (F := Ideal)) (WR)) := by
  obtain ⟨h0, h1, h2, h3, h4, h5, h6, h7⟩ := h
  refine ⟨?_, ?_, ?_, ?_, ?_, ?_, ?_⟩
  · after_results_simp
    simp only [TRef.ofBuf_toBuf, h0, h1, h2, h3, h4, h5, h6, h7]
    rw [select_of_mask_one (s := Cert.KernelIdeal.S1048576x2)]
    · rfl
    · intro i
      exact Cert.Lib.HostReads.reduce_andi_of_all_one _ _ _ _ (fun idx => index_in_range _ (lit1_small _)) rfl _
  all_goals (after_results_simp <;> (try simp only [TRef.ofBuf_toBuf, h0, h1, h2, h3, h4, h5, h6, h7]) <;> (try rfl))

end Cert.Bridge
end
-- ==== Proof.BridgeStageC2.lean ====
/-
  One stretch of the two host programs between two cuts (stage C2): from contents that agree as the earlier cut says,
  the stretch's operations — the same operations on both sides, read off the two lists — leave contents that agree as the
  later cut says. Each buffer is read by unfolding the stretch's operations down to the buffers of the earlier cut.
-/
import proofs.«145513_j83202106458409_2_alg».proof.Proof.BridgeCuts
import proofs.«145513_j83202106458409_2_alg».proof.Proof.LibTypedRefs
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageC2 (WK : Valuation Cert.KernelIdeal.τ Cert.KernelIdeal.sig (Elt Ideal)) (WR : Valuation Cert.ReferenceIdeal.τ Cert.ReferenceIdeal.sig (Elt Ideal)) (h : I5 WK WR) :
    I6 (after Cert.KernelIdeal.Gen.hostOps0_19 (after Cert.KernelIdeal.Gen.hostOps0_18 (after Cert.KernelIdeal.Gen.hostOps0_17 (after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (WK))))))))) (after (Cert.ReferenceIdeal.RefRun.it4_1 (F := Ideal)) (after (Cert.ReferenceIdeal.RefRun.it4_0 (F := Ideal)) (after (Cert.ReferenceIdeal.RefRun.it3_8 (F := Ideal)) (after (Cert.ReferenceIdeal.RefRun.it3_7 (F := Ideal)) (after (Cert.ReferenceIdeal.RefRun.it3_6 (F := Ideal)) (after (Cert.ReferenceIdeal.RefRun.it3_5 (F := Ideal)) (after (Cert.ReferenceIdeal.RefRun.it3_4 (F := Ideal)) (after (Cert.ReferenceIdeal.RefRun.it3_3 (F := Ideal)) (after (Cert.ReferenceIdeal.RefRun.it3_2 (F := Ideal)) (WR)))))))))) := by
  obtain ⟨h0, h1, h2, h3, h4, h5, h6⟩ := h
  refine ⟨?_, ?_, ?_, ?_, ?_, ?_, ?_, ?_, ?_, ?_, ?_, ?_⟩
  all_goals (after_results_simp <;> (try simp only [TRef.ofBuf_toBuf, h0, h1, h2, h3, h4, h5, h6]) <;> (try rfl))

end Cert.Bridge
end
-- ==== Proof.BridgeStageD2.lean ====
/-
  One stretch of the two host programs between two cuts (stage D2): from contents that agree as the earlier cut says,
  the stretch's operations — the same operations on both sides, read off the two lists — leave contents that agree as the
  later cut says. Each buffer is read by unfolding the stretch's operations down to the buffers of the earlier cut; a concatenation of two
  index columns is read as a function of its two operands, so that the unfolding goes on inside them.
-/
import proofs.«145513_j83202106458409_2_alg».proof.Proof.BridgeCuts
import proofs.«145513_j83202106458409_2_alg».proof.Proof.LibTypedRefs
import proofs.«145513_j83202106458409_2_alg».proof.Proof.LibConcatPair
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageD2 (WK : Valuation Cert.KernelIdeal.τ Cert.KernelIdeal.sig (Elt Ideal)) (WR : Valuation Cert.ReferenceIdeal.τ Cert.ReferenceIdeal.sig (Elt Ideal)) (h : I6 WK WR) :
    I7 (after Cert.KernelIdeal.Gen.hostOps0_20 (WK)) (after (Cert.ReferenceIdeal.RefRun.it5_0 (F := Ideal)) (after (Cert.ReferenceIdeal.RefRun.it4_2 (F := Ideal)) (WR))) := by
  obtain ⟨h0, h1, h2, h3, h4, h5, h6, h7, h8, h9, h10, h11⟩ := h
  refine ⟨?_, ?_, ?_, ?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair_eq] <;> (try simp only [TRef.ofBuf_toBuf, h0, h1, h2, h3, h4, h5, h6, h7, h8, h9, h10, h11]) <;> (try rfl))

end Cert.Bridge
end
-- ==== Proof.BridgeStageT3.lean ====
/-
  One stretch of the two host programs between two cuts (stage T3): from contents that agree as the earlier cut says,
  the stretch's operations — the same operations on both sides, read off the two lists — leave contents that agree as the
  later cut says. Each buffer is read by unfolding the stretch's operations down to the buffers of the earlier cut.
  The kernel's program takes its two columns with a fill for positions out of range; the positions are in range, so the
  fill is never selected and the taken columns are the reference's.
-/
import proofs.«145513_j83202106458409_2_alg».proof.Proof.BridgeCuts
import proofs.«145513_j83202106458409_2_alg».proof.Proof.LibTypedRefs
import proofs.«145513_j83202106458409_2_alg».proof.Proof.LibHostReads
import proofs.«145513_j83202106458409_2_alg».proof.Proof.TakeInRange
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageT3 (WK : Valuation Cert.KernelIdeal.τ Cert.KernelIdeal.sig (Elt Ideal)) (WR : Valuation Cert.ReferenceIdeal.τ Cert.ReferenceIdeal.sig (Elt Ideal)) (h : I7 WK WR) :
    I8 (after Cert.KernelIdeal.Gen.hostOps0_21 (WK)) (after (Cert.ReferenceIdeal.RefRun.it6_0 (F := Ideal)) (after (Cert.ReferenceIdeal.RefRun.it5_1 (F := Ideal)) (WR))) := by
  obtain ⟨h0, h1, h2, h3, h4, h5⟩ := h
  refine ⟨?_, ?_, ?_, ?_⟩
  · after_results_simp
    simp only [TRef.ofBuf_toBuf, h0, h1, h2, h3, h4, h5]
    rw [select_of_mask_one (s := Cert.KernelIdeal.S1048576x2)]
    · rfl
    · intro i
      exact Cert.Lib.HostReads.reduce_andi_of_all_one _ _ _ _ (fun idx => index_in_range _ (lit2_small _)) rfl _
  all_goals (after_results_simp <;> (try simp only [TRef.ofBuf_toBuf, h0, h1, h2, h3, h4, h5]) <;> (try rfl))

end Cert.Bridge
end
-- ==== Proof.BridgeStageC3.lean ====
/-
  One stretch of the two host programs between two cuts (stage C3): from contents that agree as the earlier cut says,
  the stretch's operations — the same operations on both sides, read off the two lists — leave contents that agree as the
  later cut says. Each buffer is read by unfolding the stretch's operations down to the buffers of the earlier cut.
-/
import proofs.«145513_j83202106458409_2_alg».proof.Proof.BridgeCuts
import proofs.«145513_j83202106458409_2_alg».proof.Proof.LibTypedRefs
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageC3 (WK : Valuation Cert.KernelIdeal.τ Cert.KernelIdeal.sig (Elt Ideal)) (WR : Valuation Cert.ReferenceIdeal.τ Cert.ReferenceIdeal.sig (Elt Ideal)) (h : I8 WK WR) :
    I9 (after Cert.KernelIdeal.Gen.hostOps0_29 (after Cert.KernelIdeal.Gen.hostOps0_28 (after Cert.KernelIdeal.Gen.hostOps0_27 (after Cert.KernelIdeal.Gen.hostOps0_26 (after Cert.KernelIdeal.Gen.hostOps0_25 (after Cert.KernelIdeal.Gen.hostOps0_24 (after Cert.KernelIdeal.Gen.hostOps0_23 (after Cert.KernelIdeal.Gen.hostOps0_22 (WK))))))))) (after (Cert.ReferenceIdeal.RefRun.it6_8 (F := Ideal)) (after (Cert.ReferenceIdeal.RefRun.it6_7 (F := Ideal)) (after (Cert.ReferenceIdeal.RefRun.it6_6 (F := Ideal)) (after (Cert.ReferenceIdeal.RefRun.it6_5 (F := Ideal)) (after (Cert.ReferenceIdeal.RefRun.it6_4 (F := Ideal)) (after (Cert.ReferenceIdeal.RefRun.it6_3 (F := Ideal)) (after (Cert.ReferenceIdeal.RefRun.it6_2 (F := Ideal)) (after (Cert.ReferenceIdeal.RefRun.it6_1 (F := Ideal)) (WR))))))))) := by
  obtain ⟨h0, h1, h2, h3⟩ := h
  refine ⟨?_, ?_, ?_, ?_, ?_, ?_, ?_, ?_, ?_⟩
  all_goals (after_results_simp <;> (try simp only [TRef.ofBuf_toBuf, h0, h1, h2, h3]) <;> (try rfl))

end Cert.Bridge
end
-- ==== Proof.BridgeStageD3.lean ====
/-
  One stretch of the two host programs between two cuts (stage D3): from contents that agree as the earlier cut says,
  the stretch's operations — the same operations on both sides, read off the two lists — leave contents that agree as the
  later cut says. Each buffer is read by unfolding the stretch's operations down to the buffers of the earlier cut; a concatenation of two
  index columns is read as a function of its two operands, so that the unfolding goes on inside them.
-/
import proofs.«145513_j83202106458409_2_alg».proof.Proof.BridgeCuts
import proofs.«145513_j83202106458409_2_alg».proof.Proof.LibTypedRefs
import proofs.«145513_j83202106458409_2_alg».proof.Proof.LibConcatPair
import Idealize.ShloMosaic.Lib.StableHlo.Run
import Idealize.ShloMosaic.Lib.Pipeline.Frame

set_option maxHeartbeats 4000000
set_option maxRecDepth 100000

noncomputable section
namespace Cert.Bridge
open Idealize.ShloMosaic Idealize.ShloMosaic.TcCoe Idealize.SL.Sem Idealize.ShloMosaic.StableHlo

theorem stageD3 (WK : Valuation Cert.KernelIdeal.τ Cert.KernelIdeal.sig (Elt Ideal)) (WR : Valuation Cert.ReferenceIdeal.τ Cert.ReferenceIdeal.sig (Elt Ideal)) (h : I9 WK WR) :
    I10 (after Cert.KernelIdeal.Gen.hostOps0_30 (WK)) (after (Cert.ReferenceIdeal.RefRun.it8_1 (F := Ideal)) (after (Cert.ReferenceIdeal.RefRun.it8_0 (F := Ideal)) (after (Cert.ReferenceIdeal.RefRun.it7_0 (F := Ideal)) (after (Cert.ReferenceIdeal.RefRun.it6_9 (F := Ideal)) (WR))))) := by
  obtain ⟨h0, h1, h2, h3, h4, h5, h6, h7, h8⟩ := h
  refine ⟨?_, ?_, ?_⟩
  all_goals (simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', concatenate_pair_eq] <;> (try simp only [TRef.ofBuf_toBuf, h0, h1, h2, h3, h4, h5, h6, h7, h8]) <;> (try rfl))

end Cert.Bridge
end
-- ==== Proof.Bridge.lean ====
/-
  The host side of the two programs, end to end. Both compute, from the points and the box, the normalized points; then for
  each coordinate plane the two columns of points, their pixel coordinates, interpolation weights and clamped corner
  indices, the four gathered corners, and the bilinear combination — the same operations in the same order, cut here at
  ten places (the stage modules). Composing the ten stages from the agreeing argument arrays: the three arrays the kernel's
  region reads are the reshapes to [8192,128,32] of the reference's three sampled planes.
-/
import proofs.«145513_j83202106458409_2_alg».proof.Proof.BridgeStageP
import proofs.«145513_j83202106458409_2_alg».proof.Proof.BridgeStageT1
import proofs.«145513_j83202106458409_2_alg».proof.Proof.BridgeStageC1
import proofs.«145513_j83202106458409_2_alg».proof.Proof.BridgeStageD1
import proofs.«145513_j83202106458409_2_alg».proof.Proof.BridgeStageT2
import proofs.«145513_j83202106458409_2_alg».proof.Proof.BridgeStageC2
import proofs.«145513_j83202106458409_2_alg».proof.Proof.BridgeStageD2
import proofs.«145513_j83202106458409_2_alg».proof.Proof.BridgeStageT3
import proofs.«145513_j83202106458409_2_alg».proof.Proof.BridgeStageC3
import proofs.«145513_j83202106458409_2_alg».proof.Proof.BridgeStageD3
import Idealize.ShloMosaic.Lib.Pipeline.Frame

noncomputable section
namespace Cert.Bridge
open Idealize.ShloMosaic Idealize.ShloMosaic.TcCoe Idealize.SL.Sem Idealize.ShloMosaic.StableHlo

theorem planes (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_arg0) = VR (Proc.devRef .tc Cert.ReferenceIdeal.main_arg0)) (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30]) VK (Proc.devRef .tc Cert.KernelIdeal.main_v387)
        = shapeCast Cert.KernelIdeal.S8192x128x32 (after (Cert.ReferenceIdeal.RefRun.ops (F := Ideal)) VR (Proc.devRef .tc Cert.ReferenceIdeal.main_v146)) Cert.KernelIdeal.Gen.shapeCasts_S1048576x32_S8192x128x32
    ∧ after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30]) VK (Proc.devRef .tc Cert.KernelIdeal.main_v388)
        = shapeCast Cert.KernelIdeal.S8192x128x32 (after (Cert.ReferenceIdeal.RefRun.ops (F := Ideal)) VR (Proc.devRef .tc Cert.ReferenceIdeal.main_v275)) Cert.KernelIdeal.Gen.shapeCasts_S1048576x32_S8192x128x32
    ∧ after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30]) VK (Proc.devRef .tc Cert.KernelIdeal.main_v389)
        = shapeCast Cert.KernelIdeal.S8192x128x32 (after (Cert.ReferenceIdeal.RefRun.ops (F := Ideal)) VR (Proc.devRef .tc Cert.ReferenceIdeal.main_v405)) Cert.KernelIdeal.Gen.shapeCasts_S1048576x32_S8192x128x32 := by
  have i1 := stageP VK VR ⟨h0, h1, h2, h3, h4⟩
  have i2 := stageT1 _ _ i1
  have i3 := stageC1 _ _ i2
  have i4 := stageD1 _ _ i3
  have i5 := stageT2 _ _ i4
  have i6 := stageC2 _ _ i5
  have i7 := stageD2 _ _ i6
  have i8 := stageT3 _ _ i7
  have i9 := stageC3 _ _ i8
  have i10 := stageD3 _ _ i9
  simp only [Cert.ReferenceIdeal.RefRun.ops, Cert.ReferenceIdeal.RefRun.items, List.flatten_cons, List.flatten_nil, List.append_nil, StableHlo.after_append]
  exact i10

end Cert.Bridge
end
-- ==== Proof.lean ====
/- The certificate's claims, assembled.

   Frames. The kernel program (at the bit-exact values and at the extended reals) runs and leaves its five argument arrays as
   launched: one pipelined region between host operations that write none of them. The reference is one straight line of host
   operations, none of which writes an argument array, so they end as launched.

   The idealization rewrote nothing, so the kernel program read at the extended reals is its own sanctioned idealization.

   The algebraic claim. Both programs sample the same three planes `A`, `B`, `C : [1048576, 32]` from agreeing arguments by the
   same host operations. The kernel program reshapes them to `[8192, 128, 32]`, and over a grid of 128 row blocks writes
   `exp ((∑ₖ a · b · c) · 2⁻⁵)` at each ray and sample, then adds a trailing unit axis: its result is the density field of the
   reshaped planes. The reference multiplies the planes, sums each row of 32 from zero, divides by 32, reshapes to
   `[8192, 128, 1]` and exponentiates. Row `128 · P + Q` of a plane is its reshape at `(P, Q, ·)`, and dividing by 32 is
   multiplying by `2⁻⁵` on every extended real, so the two results are one function of the planes. -/
import proofs.«145513_j83202106458409_2_alg».proof.Defs
import proofs.«145513_j83202106458409_2_alg».proof.Proof.Gen.Kernel
import proofs.«145513_j83202106458409_2_alg».proof.Proof.Gen.KernelIdeal
import proofs.«145513_j83202106458409_2_alg».proof.Proof.Gen.ReferenceIdeal
import proofs.«145513_j83202106458409_2_alg».proof.Proof.Gen.Pre_finite_inputs
import proofs.«145513_j83202106458409_2_alg».proof.Proof.KernelFrame
import proofs.«145513_j83202106458409_2_alg».proof.Proof.KernelIdealFrame
import proofs.«145513_j83202106458409_2_alg».proof.Proof.RefRun
import proofs.«145513_j83202106458409_2_alg».proof.Proof.RefTailRead
import proofs.«145513_j83202106458409_2_alg».proof.Proof.KvDensity
import proofs.«145513_j83202106458409_2_alg».proof.Proof.KvEquiv
import proofs.«145513_j83202106458409_2_alg».proof.Proof.Bridge
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.GenP.frame m ρ

theorem frame_kernelIdeal : Cert.frame_KernelIdeal := fun m ρ _ => Cert.KernelIdeal.GenP.frame m ρ

/-- The reference's straight line writes no argument array: each ends at its launch contents. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefRun.kept Cert.ReferenceIdeal.main_arg0 (Or.inl rfl) (StableHlo.launchContents m c)),
      (h c Cert.ReferenceIdeal.main_arg1).trans (Cert.ReferenceIdeal.RefRun.kept Cert.ReferenceIdeal.main_arg1 (Or.inr (Or.inl rfl)) (StableHlo.launchContents m c)),
      (h c Cert.ReferenceIdeal.main_arg2).trans (Cert.ReferenceIdeal.RefRun.kept Cert.ReferenceIdeal.main_arg2 (Or.inr (Or.inr (Or.inl rfl))) (StableHlo.launchContents m c)),
      (h c Cert.ReferenceIdeal.main_arg3).trans (Cert.ReferenceIdeal.RefRun.kept Cert.ReferenceIdeal.main_arg3 (Or.inr (Or.inr (Or.inr (Or.inl rfl)))) (StableHlo.launchContents m c)),
      (h c Cert.ReferenceIdeal.main_arg4).trans (Cert.ReferenceIdeal.RefRun.kept Cert.ReferenceIdeal.main_arg4 (Or.inr (Or.inr (Or.inr (Or.inr rfl)))) (StableHlo.launchContents m c))⟩)
    (Cert.ReferenceIdeal.RefRun.run (F := Ideal) m ρ)

/-! ## The idealization -/

theorem preserves : Cert.preserves_Kernel_KernelIdeal := trivial

/-! ## The two results are one function of the planes -/

/-- The reference's last steps of the product of the first two planes and the third are its tail of the three planes. -/
theorem tailBody_eq_refTail (A B C : FVec Ideal Cert.ReferenceIdeal.S1048576x32 .f32) :
    Cert.ReferenceIdeal.RefRun.tailBody (F := Ideal) (mulf A B) C = Cert.ReferenceIdeal.RefTail.refTail A B C := rfl

/-- From memories agreeing on the arguments, the reference's result buffer after its whole line is the density field of the
    kernel program's three planes as its region finds them: the planes are the reference's planes reshaped, the density of
    reshaped planes is the reference's tail of the planes, and that tail is what the reference's last steps compute. -/
theorem result_agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    StableHlo.after (Cert.ReferenceIdeal.RefRun.ops (F := Ideal)) (StableHlo.launchContents m' c) (Proc.devRef .tc Cert.ReferenceIdeal.main_v411)
      = Cert.KernelIdeal.KV.density (Cert.KernelIdeal.GenP.V m c Cert.KernelIdeal.main_v387) (Cert.KernelIdeal.GenP.V m c Cert.KernelIdeal.main_v388) (Cert.KernelIdeal.GenP.V m c Cert.KernelIdeal.main_v389) := by
  obtain ⟨a0, a1, a2, a3, a4⟩ := hagree
  obtain ⟨e0, e1, e2⟩ := Cert.Bridge.planes (fun b => m (c, b)) (StableHlo.launchContents m' c)
    a0.symm a1.symm a2.symm a3.symm a4.symm
  have eV0 : Cert.KernelIdeal.GenP.V m c Cert.KernelIdeal.main_v387 = _ := e0
  have eV1 : Cert.KernelIdeal.GenP.V m c Cert.KernelIdeal.main_v388 = _ := e1
  have eV2 : Cert.KernelIdeal.GenP.V m c Cert.KernelIdeal.main_v389 = _ := e2
  rw [eV0, eV1, eV2, Cert.KernelIdeal.KV.density_eq_refTail, Cert.ReferenceIdeal.RefRun.result_eq]
  exact tailBody_eq_refTail _ _ _

/-! ## The algebraic claim -/

theorem algebraic : Cert.algebraic_KernelIdeal_ReferenceIdeal := by
  intro m ρ m' ρ' _ hagree
  refine ⟨fun c => Cert.KernelIdeal.KV.density (Cert.KernelIdeal.GenP.V m c Cert.KernelIdeal.main_v387) (Cert.KernelIdeal.GenP.V m c Cert.KernelIdeal.main_v388)
    (Cert.KernelIdeal.GenP.V m c Cert.KernelIdeal.main_v389), Cert.KernelIdeal.KV.run m ρ, ?_⟩
  exact (θ_run Cert.ReferenceIdeal.defs _ _).mono (fun _ h c =>
    ⟨(h c Cert.ReferenceIdeal.main_v411).trans (result_agrees m m' c (hagree c)),
      (h c Cert.ReferenceIdeal.main_arg0).trans (Cert.ReferenceIdeal.RefRun.kept Cert.ReferenceIdeal.main_arg0 (Or.inl rfl) (StableHlo.launchContents m' c)),
      (h c Cert.ReferenceIdeal.main_arg1).trans (Cert.ReferenceIdeal.RefRun.kept Cert.ReferenceIdeal.main_arg1 (Or.inr (Or.inl rfl)) (StableHlo.launchContents m' c)),
      (h c Cert.ReferenceIdeal.main_arg2).trans (Cert.ReferenceIdeal.RefRun.kept Cert.ReferenceIdeal.main_arg2 (Or.inr (Or.inr (Or.inl rfl))) (StableHlo.launchContents m' c)),
      (h c Cert.ReferenceIdeal.main_arg3).trans (Cert.ReferenceIdeal.RefRun.kept Cert.ReferenceIdeal.main_arg3 (Or.inr (Or.inr (Or.inr (Or.inl rfl)))) (StableHlo.launchContents m' c)),
      (h c Cert.ReferenceIdeal.main_arg4).trans (Cert.ReferenceIdeal.RefRun.kept Cert.ReferenceIdeal.main_arg4 (Or.inr (Or.inr (Or.inr (Or.inr rfl)))) (StableHlo.launchContents m' c))⟩)
    (Cert.ReferenceIdeal.RefRun.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
